-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_sqrt_head_dim" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S6144x2048 : Shape := ⟨2, ![6144, 2048]⟩
abbrev S6144 : Shape := ⟨1, ![6144]⟩
abbrev S2048x2048 : Shape := ⟨2, ![2048, 2048]⟩
abbrev S2048 : Shape := ⟨1, ![2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S2x2048x2048 .f32) (main_arg1 : FVec F S6144x2048 .f32) (main_arg2 : FVec F S6144 .f32) (main_arg3 : FVec F S2048x2048 .f32) (main_arg4 : FVec F S2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S6144x2048 .f32 := Host.absf main_arg1
  let main_cst_0 : FVec F S_ .f32 := constant S_ .f32 0x7F800000#32
  let main_v5 : FVec F S6144x2048 .f32 := broadcastInDim S6144x2048 ![] bcast_S_S6144x2048 main_cst_0
  let main_v6 : IVec S6144x2048 1 := cmpf .olt main_v4 main_v5
  let main_c_1 : IVec S_ 1 := constantI S_ 1 1#1
  let main_v7 : IVec S_ 1 := (fun x v => Host.reduce IntOp.andi x v reducesTo_S6144x2048_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S2x2048x2048 : Shape := ⟨3, ![2, 2048, 2048]⟩
abbrev S6144x2048 : Shape := ⟨2, ![6144, 2048]⟩
abbrev S6144 : Shape := ⟨1, ![6144]⟩
abbrev S2048x2048 : Shape := ⟨2, ![2048, 2048]⟩
abbrev S2048 : Shape := ⟨1, ![2048]⟩
abbrev S4096x2048 : Shape := ⟨2, ![4096, 2048]⟩
abbrev S1x6144 : Shape := ⟨2, ![1, 6144]⟩
abbrev S1x2048 : Shape := ⟨2, ![1, 2048]⟩
abbrev S4096x6144 : Shape := ⟨2, ![4096, 6144]⟩
abbrev S1024x2048 : Shape := ⟨2, ![1024, 2048]⟩
abbrev S512x2048 : Shape := ⟨2, ![512, 2048]⟩
abbrev S1x512 : Shape := ⟨2, ![1, 512]⟩
abbrev S1024x512 : Shape := ⟨2, ![1024, 512]⟩
abbrev S512x128 : Shape := ⟨2, ![512, 128]⟩
abbrev S2048x128 : Shape := ⟨2, ![2048, 128]⟩
abbrev S512 : Shape := ⟨1, ![512]⟩
abbrev S512x1 : Shape := ⟨2, ![512, 1]⟩

abbrev nBuf : Space → Nat
  | .hbm => 14
  | .vmem => 24
  | .smem => 0
  | _ => 0

abbrev bufTy : (tb : Table) → Fin (tcTables nBuf tb) → BufTy
  | .hbm, ⟨0, _⟩ => ⟨S2x2048x2048, .f32⟩
  | .hbm, ⟨1, _⟩ => ⟨S6144x2048, .f32⟩
  | .hbm, ⟨2, _⟩ => ⟨S6144, .f32⟩
  | .hbm, ⟨3, _⟩ => ⟨S2048x2048, .f32⟩
  | .hbm, ⟨4, _⟩ => ⟨S2048, .f32⟩
  | .hbm, ⟨5, _⟩ => ⟨S4096x2048, .f32⟩
  | .hbm, ⟨6, _⟩ => ⟨S1x6144, .f32⟩
  | .hbm, ⟨7, _⟩ => ⟨S1x2048, .f32⟩
  | .hbm, ⟨8, _⟩ => ⟨S6144x2048, .bf16⟩
  | .hbm, ⟨9, _⟩ => ⟨S2048x2048, .bf16⟩
  | .hbm, ⟨10, _⟩ => ⟨S4096x6144, .bf16⟩
  | .hbm, ⟨11, _⟩ => ⟨S4096x2048, .bf16⟩
  | .hbm, ⟨12, _⟩ => ⟨S4096x2048, .f32⟩
  | .hbm, ⟨13, _⟩ => ⟨S2x2048x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S512x128, .bf16⟩
  | .local _ .vmem, ⟨9, _⟩ => ⟨S512x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S512x128, .bf16⟩
  | .local _ .vmem, ⟨15, _⟩ => ⟨S512x128, .bf16⟩
  | .local _ .vmem, ⟨16, _⟩ => ⟨S1024x2048, .bf16⟩
  | .local _ .vmem, ⟨17, _⟩ => ⟨S1024x2048, .bf16⟩
  | .local _ .vmem, ⟨18, _⟩ => ⟨S512x2048, .bf16⟩
  | .local _ .vmem, ⟨19, _⟩ => ⟨S512x2048, .bf16⟩
  | .local _ .vmem, ⟨20, _⟩ => ⟨S1x512, .f32⟩
  | .local _ .vmem, ⟨21, _⟩ => ⟨S1x512, .f32⟩
  | .local _ .vmem, ⟨22, _⟩ => ⟨S1024x512, .f32⟩
  | .local _ .vmem, ⟨23, _⟩ => ⟨S1024x512, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![2, 16, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S2x2048x2048_S4096x2048 : S2x2048x2048.ShapeCasts S4096x2048
  shapeCasts_S6144_S1x6144 : S6144.ShapeCasts S1x6144
  shapeCasts_S2048_S1x2048 : S2048.ShapeCasts S1x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S512x2048_S512 : S512x2048.Reduces [1] S512
  shapeCasts_S512_S512x1 : S512.ShapeCasts S512x1
  broadcasts_S512x1_S512x2048 : S512x1.Broadcasts S512x2048
  packedbf16_S512x128_S512x128_0_0 : (Rect.unit (s := S512x128) ![0, 0] S512x128.size inb_S512x128_S512x128_0_0).PackedRows (EltTy.packing .bf16)
  shapeCasts_S4096x2048_S2x2048x2048 : S4096x2048.ShapeCasts S2x2048x2048
  dot_S1024x2048_S512x2048_S1024x512_1_1_0_0_n_n_wf : DotDims.WF S1024x2048 S512x2048 S1024x512 [1] [1] [0] [0] [] []
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S6144x2048.size a
  hwx0_1 : ∀ i : grid0.Coords, EltTy.bits .bf16 = 32 ∨ (Rect.block (s := S6144x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x6144.size a
  hwx0_2 : ∀ i : grid0.Coords, EltTy.bits .f32 = 32 ∨ (Rect.block (s := S1x6144) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x6144.size a
  hwx0_3 : ∀ i : grid0.Coords, EltTy.bits .bf16 = 32 ∨ (Rect.block (s := S4096x6144) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x6144.size a
  hwx1_0 : ∀ i : grid1.Coords, EltTy.bits .bf16 = 32 ∨ (Rect.block (s := S4096x6144) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S4096x6144.size a
  hwx1_1 : ∀ i : grid1.Coords, EltTy.bits .bf16 = 32 ∨ (Rect.block (s := S4096x6144) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S4096x6144.size a
  hwx1_2 : ∀ i : grid1.Coords, EltTy.bits .bf16 = 32 ∨ (Rect.block (s := S4096x6144) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x2048.size a
  hwx1_3 : ∀ i : grid1.Coords, EltTy.bits .bf16 = 32 ∨ (Rect.block (s := S4096x2048) S512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S4096x2048.size a
  hwx2_0 : ∀ i : grid2.Coords, EltTy.bits .bf16 = 32 ∨ (Rect.block (s := S4096x2048) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S2048x2048.size a
  hwx2_1 : ∀ i : grid2.Coords, EltTy.bits .bf16 = 32 ∨ (Rect.block (s := S2048x2048) S512x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x2048.size a
  hwx2_2 : ∀ i : grid2.Coords, EltTy.bits .f32 = 32 ∨ (Rect.block (s := S1x2048) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S4096x2048.size a
  hwx2_3 : ∀ i : grid2.Coords, EltTy.bits .f32 = 32 ∨ (Rect.block (s := S4096x2048) S1024x512.size (cc2_transform_3 i) (hinb2_3 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x2048 : Shape := ⟨3, ![2, 2048, 2048]⟩
abbrev S6144x2048 : Shape := ⟨2, ![6144, 2048]⟩
abbrev S6144 : Shape := ⟨1, ![6144]⟩
abbrev S2048x2048 : Shape := ⟨2, ![2048, 2048]⟩
abbrev S2048 : Shape := ⟨1, ![2048]⟩
abbrev S2x2048x6144 : Shape := ⟨3, ![2, 2048, 6144]⟩
abbrev S1x1x6144 : Shape := ⟨3, ![1, 1, 6144]⟩
abbrev S2x2048x3x16x128 : Shape := ⟨5, ![2, 2048, 3, 16, 128]⟩
abbrev S2x2048x1x16x128 : Shape := ⟨5, ![2, 2048, 1, 16, 128]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x2048 : Shape := ⟨3, ![1, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S6144x2048, .f32⟩
  | .hbm, ⟨2, _⟩ => ⟨S6144, .f32⟩
  | .hbm, ⟨3, _⟩ => ⟨S2048x2048, .f32⟩
  | .hbm, ⟨4, _⟩ => ⟨S2048, .f32⟩
  | .hbm, ⟨5, _⟩ => ⟨S2x2048x6144, .f32⟩
  | .hbm, ⟨6, _⟩ => ⟨S1x1x6144, .f32⟩
  | .hbm, ⟨7, _⟩ => ⟨S2x2048x6144, .f32⟩
  | .hbm, ⟨8, _⟩ => ⟨S2x2048x6144, .f32⟩
  | .hbm, ⟨9, _⟩ => ⟨S2x2048x3x16x128, .f32⟩
  | .hbm, ⟨10, _⟩ => ⟨S2x2048x1x16x128, .f32⟩
  | .hbm, ⟨11, _⟩ => ⟨S2x2048x16x128, .f32⟩
  | .hbm, ⟨12, _⟩ => ⟨S2x16x2048x128, .f32⟩
  | .hbm, ⟨13, _⟩ => ⟨S2x2048x1x16x128, .f32⟩
  | .hbm, ⟨14, _⟩ => ⟨S2x2048x16x128, .f32⟩
  | .hbm, ⟨15, _⟩ => ⟨S2x16x2048x128, .f32⟩
  | .hbm, ⟨16, _⟩ => ⟨S2x2048x1x16x128, .f32⟩
  | .hbm, ⟨17, _⟩ => ⟨S2x2048x16x128, .f32⟩
  | .hbm, ⟨18, _⟩ => ⟨S2x16x2048x128, .f32⟩
  | .hbm, ⟨19, _⟩ => ⟨S2x16x2048x2048, .f32⟩
  | .hbm, ⟨20, _⟩ => ⟨S_, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S_, .f32⟩
  | .hbm, ⟨26, _⟩ => ⟨S2x16x2048, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S2x16x2048x1, .f32⟩
  | .hbm, ⟨35, _⟩ => ⟨S2x16x2048x2048, .f32⟩
  | .hbm, ⟨36, _⟩ => ⟨S2x16x2048x2048, .f32⟩
  | .hbm, ⟨37, _⟩ => ⟨S2x16x2048x128, .f32⟩
  | .hbm, ⟨38, _⟩ => ⟨S2x2048x16x128, .f32⟩
  | .hbm, ⟨39, _⟩ => ⟨S2x2048x2048, .f32⟩
  | .hbm, ⟨40, _⟩ => ⟨S2x2048x2048, .f32⟩
  | .hbm, ⟨41, _⟩ => ⟨S1x1x2048, .f32⟩
  | .hbm, ⟨42, _⟩ => ⟨S2x2048x2048, .f32⟩
  | .hbm, ⟨43, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S6144_S1x1x6144_2 : S6144.BroadcastsInDim S1x1x6144 (![2] : Fin 1 → Fin S1x1x6144.rank)
  bcast_S1x1x6144_S2x2048x6144_0_1_2 : S1x1x6144.BroadcastsInDim S2x2048x6144 (![0, 1, 2] : Fin 3 → Fin S2x2048x6144.rank)
  shapeCasts_S2x2048x6144_S2x2048x3x16x128 : S2x2048x6144.ShapeCasts S2x2048x3x16x128
  slices_S2x2048x3x16x128_S2x2048x1x16x128_0_0_0_0_0 : S2x2048x3x16x128.Slices ![0, 0, 0, 0, 0] S2x2048x1x16x128
  shapeCasts_S2x2048x1x16x128_S2x2048x16x128 : S2x2048x1x16x128.ShapeCasts S2x2048x16x128
  transposes_S2x2048x16x128_S2x16x2048x128_0_2_1_3 : S2x2048x16x128.Transposes [0, 2, 1, 3] S2x16x2048x128
  slices_S2x2048x3x16x128_S2x2048x1x16x128_0_0_1_0_0 : S2x2048x3x16x128.Slices ![0, 0, 1, 0, 0] S2x2048x1x16x128
  slices_S2x2048x3x16x128_S2x2048x1x16x128_0_0_2_0_0 : S2x2048x3x16x128.Slices ![0, 0, 2, 0, 0] S2x2048x1x16x128
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  bcast_S2048_S1x1x2048_2 : S2048.BroadcastsInDim S1x1x2048 (![2] : Fin 1 → Fin S1x1x2048.rank)
  bcast_S1x1x2048_S2x2048x2048_0_1_2 : S1x1x2048.BroadcastsInDim S2x2048x2048 (![0, 1, 2] : Fin 3 → Fin S2x2048x2048.rank)
  dot_S2x2048x2048_S6144x2048_S2x2048x6144_2_1_01_0_n_n_wf : DotDims.WF S2x2048x2048 S6144x2048 S2x2048x6144 [2] [1] [0, 1] [0] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]
  dot_S2x2048x2048_S2048x2048_S2x2048x2048_2_1_01_0_n_n_wf : DotDims.WF S2x2048x2048 S2048x2048 S2x2048x2048 [2] [1] [0, 1] [0] [] []

variable [Facts₀]

def dot_S2x2048x2048_S6144x2048_S2x2048x6144_2_1_01_0_n_n : DotDims S2x2048x2048 S6144x2048 S2x2048x6144 where
  lhsContracting := [2]
  rhsContracting := [1]
  lhsNonContracting := [0, 1]
  rhsNonContracting := [0]
  lhsBatch := []
  rhsBatch := []
  wf := dot_S2x2048x2048_S6144x2048_S2x2048x6144_2_1_01_0_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf
def dot_S2x2048x2048_S2048x2048_S2x2048x2048_2_1_01_0_n_n : DotDims S2x2048x2048 S2048x2048 S2x2048x2048 where
  lhsContracting := [2]
  rhsContracting := [1]
  lhsNonContracting := [0, 1]
  rhsNonContracting := [0]
  lhsBatch := []
  rhsBatch := []
  wf := dot_S2x2048x2048_S2048x2048_S2x2048x2048_2_1_01_0_n_n_wf

class Facts : Prop extends Facts₀ where

variable [Facts]
-- ==== Proof.WordRegion0.lean ====
/-
  Region 0 of the program (the fused query/key/value projection: a block of rows times a block of weight rows, plus the bias), at a parameter `V`: the contents of the core's buffers when the region is entered.

  * `block0 V c w t`: window `w`'s block at grid point `t`, read off its array.
  * `left0 x0 x1 x2`: what the body leaves in the output window's buffer, from the three input blocks: its single
    store, the pure value `k0_pay1` of the three loads.
  * `body0_triple`: the body, run on whole staging buffers holding the input blocks, ends with the inputs as they were
    and the output's buffer at `left0` of them.
  * `data0`: the pipeline's bookkeeping — the arrays as the region finds them, each input's buffer left at its block,
    the output's at `left0`, nothing owed, and which share of each array a window holds.
  * `obligation0`: at every grid point the body meets what the pipeline asks of it.
-/
import proofs.«180565_j20023137534549_2_alg».proof.Proof.Gen.Kernel.Launch
import proofs.«180565_j20023137534549_2_alg».proof.Proof.Gen.Kernel.Skeleton
import proofs.«180565_j20023137534549_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def block0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched point's
    index has not moved, and the body leaves the block in place. -/
theorem found0_0_of {c : Dev nD} (dat : Dat τ (Elt F) Unit ℕ (UR sig nD τ) ℕ cfg0 c) (hA : dat.A 0 = V c (Pipeline.arrRef spec0 0))
    (hafter : ∀ t, dat.after 0 t = block0 V c 0 t) (t : Fin cfg0.N) (d) : dat.before 0 t d = block0 V c 0 t :=
  (dat.before_in_eq_fetched 0 rfl (fun _ => rfl) (fun _ _ _ => rfl) (fun t => by rw [hafter]; unfold Dat.blockOf block0; rw [hA]; try rfl) t d).trans
    (by unfold Dat.fetched Dat.blockOf block0; rw [hA]; try rfl)

/-- Input window 1's current staging buffer holds its block at every point, fetched there or not: an unfetched point's
    index has not moved, and the body leaves the block in place. -/
theorem found0_1_of {c : Dev nD} (dat : Dat τ (Elt F) Unit ℕ (UR sig nD τ) ℕ cfg0 c) (hA : dat.A 1 = V c (Pipeline.arrRef spec0 1))
    (hafter : ∀ t, dat.after 1 t = block0 V c 1 t) (t : Fin cfg0.N) (d) : dat.before 1 t d = block0 V c 1 t :=
  (dat.before_in_eq_fetched 1 rfl (fun _ => rfl) (fun _ _ _ => rfl) (fun t => by rw [hafter]; unfold Dat.blockOf block0; rw [hA]; try rfl) t d).trans
    (by unfold Dat.fetched Dat.blockOf block0; rw [hA]; try rfl)

/-- Input window 2's current staging buffer holds its block at every point, fetched there or not: an unfetched point's
    index has not moved, and the body leaves the block in place. -/
theorem found0_2_of {c : Dev nD} (dat : Dat τ (Elt F) Unit ℕ (UR sig nD τ) ℕ cfg0 c) (hA : dat.A 2 = V c (Pipeline.arrRef spec0 2))
    (hafter : ∀ t, dat.after 2 t = block0 V c 2 t) (t : Fin cfg0.N) (d) : dat.before 2 t d = block0 V c 2 t :=
  (dat.before_in_eq_fetched 2 rfl (fun _ => rfl) (fun _ _ _ => rfl) (fun t => by rw [hafter]; unfold Dat.blockOf block0; rw [hA]; try rfl) t d).trans
    (by unfold Dat.fetched Dat.blockOf block0; rw [hA]; try rfl)

/-! ## The body's accesses: each buffer whole -/

abbrev rin0_0 : Rect S1024x2048 := Rect.unit (s := S1024x2048) ![0, 0] S1024x2048.size inb_S1024x2048_S1024x2048_0_0
abbrev rin0_1 : Rect S512x2048 := Rect.unit (s := S512x2048) ![0, 0] S512x2048.size inb_S512x2048_S512x2048_0_0
abbrev rin0_2 : Rect S1x512 := Rect.unit (s := S1x512) ![0, 0] S1x512.size inb_S1x512_S1x512_0_0
abbrev rout0 : Rect S1024x512 := Rect.unit (s := S1024x512) ![0, 0] S1024x512.size inb_S1024x512_S1024x512_0_0

/-! ## What the body leaves in the output window's buffer -/

/-- The output buffer after the body, from the input blocks: its one store, of the body's pure value of the loads. -/
def left0 (x0 : Vec F S1024x2048 .f32) (x1 : Vec F S512x2048 .bf16) (x2 : Vec F S1x512 .f32) : Vec F S1024x512 .bf16 :=
  View.canon [⟨rout0, k0_pay1 (View.ld x0 rin0_0) (View.ld x1 rin0_1) (View.ld x2 rin0_2)⟩]

/-- The store covers the whole buffer. -/
theorem covers0 (p0 : Vec F S1024x512 .bf16) (y : S1024x512.Idx) :
    ∃ pc ∈ ([⟨rout0, p0⟩] : List (View.Piece (Elt F) S1024x512 .bf16)), y ∈ pc.1.set :=
  View.cover_of_tiled [⟨rout0, p0⟩] S1024x512.size (by rfl) y

/-! ## The body's triple -/

set_option maxHeartbeats 1000000 in
/-- The body on whole staging buffers, the inputs' at contents `x0 x1 x2` and the output's at anything, runs to the
    continuation holding the inputs' as they were and the output's at `left0 x0 x1 x2`. -/
theorem body0_triple (c : Dev nD) (E : Set ℕ) (i : grid0.Coords)
    (arg0 : Memref sig .tc .vmem S1024x2048 .f32) (harg0 : arg0.IsWhole) (arg1 : Memref sig .tc .vmem S512x2048 .bf16) (harg1 : arg1.IsWhole)
    (arg2 : Memref sig .tc .vmem S1x512 .f32) (harg2 : arg2.IsWhole) (arg3 : Memref sig .tc .vmem S1024x512 .bf16) (harg3 : arg3.IsWhole)
    (x0 : Vec F S1024x2048 .f32) (x1 : Vec F S512x2048 .bf16) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (left0 x0 x1 x2)) -∗ K ⟨⟩))
      ⊢ wp frame (wpE (defs₀ (F := F)) Variants.none c none) E (cc0__matmul_bias_kernel i arg0 harg0 arg1 harg1 arg2 harg2 arg3 harg3) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers0 _)

/-! ## The pipeline's bookkeeping -/

/-- The region's data on core `c`: the arrays as the region finds them; after the body at point `t` each input's
    buffer at its block and the output's at `left0` of the input blocks; the invariant is the scoped buffers no window
    stages and the generator register, untouched; nothing owed; the share of each input array held. -/
def data0 (c : Dev nD) : Dat τ (Elt F) Unit ℕ (UR sig nD τ) ℕ cfg0 c where
  A w := V c (Pipeline.arrRef spec0 w)
  after w t := match w with
    | ⟨0, _⟩ => block0 V c 0 t
    | ⟨1, _⟩ => block0 V c 1 t
    | ⟨2, _⟩ => block0 V c 2 t
    | ⟨3, _⟩ => left0 (block0 V c 0 t) (block0 V c 1 t) (block0 V c 2 t)
  Φ _ := Pipeline.ΦA spec0 c
  q w := fullShare
  owed _ := 0

theorem data0_A (c : Dev nD) (w : Fin cfg0.W) : (data0 V c).A w = V c (Pipeline.arrRef spec0 w) := by
  dsimp only [data0]

theorem after0_0 (c : Dev nD) (t : Fin cfg0.N) : (data0 V c).after 0 t = block0 V c 0 t := by dsimp only [data0]
theorem after0_1 (c : Dev nD) (t : Fin cfg0.N) : (data0 V c).after 1 t = block0 V c 1 t := by dsimp only [data0]
theorem after0_2 (c : Dev nD) (t : Fin cfg0.N) : (data0 V c).after 2 t = block0 V c 2 t := by dsimp only [data0]
theorem after0_3 (c : Dev nD) (t : Fin cfg0.N) :
    (data0 V c).after 3 t = left0 (block0 V c 0 t) (block0 V c 1 t) (block0 V c 2 t) := by dsimp only [data0]

theorem found0_0 (c : Dev nD) (t : Fin cfg0.N) (d) : (data0 V c).before 0 t d = block0 V c 0 t :=
  found0_0_of V (data0 V c) (data0_A V c 0) (after0_0 V c) t d
theorem found0_1 (c : Dev nD) (t : Fin cfg0.N) (d) : (data0 V c).before 1 t d = block0 V c 1 t :=
  found0_1_of V (data0 V c) (data0_A V c 1) (after0_1 V c) t d
theorem found0_2 (c : Dev nD) (t : Fin cfg0.N) (d) : (data0 V c).before 2 t d = block0 V c 2 t :=
  found0_2_of V (data0 V c) (data0_A V c 2) (after0_2 V c) t d

/-! ## The body obligation, at a generic point -/

/-- What the body is called with at point `t`, the windows one by one, -/
def pre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d)))

/-- and what it returns. -/
def post0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t))

/-- The body at any point: the inputs' buffers hold their blocks, so the triple applies; the invariant and what the
    core owes pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [found0_0, found0_1, found0_2]
  rw [show (data0 V c).Φ t.succ = (data0 V c).Φ t.castSucc from rfl,
    show (data0 V c).owesAt () t.succ = (data0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (body0_triple c Set.univ _ _ _ _ _ _ _ _ _ (block0 V c 0 t) (block0 V c 1 t) (block0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem obligation0 (c : Dev nD) : BodyObligation (data0 (F := F) V c) (defs₀ (F := F)) Variants.none () Set.univ := fun t => by
  rw [bigSep_W0, bigSep_W0]
  exact body0_at V c t

end Cert.Kernel.Region0

end
-- ==== Proof.WordRegion1.lean ====
/-
  Region 1 of the program (the attention of one head: a block of query rows against the head's key and value rows), at a parameter `V`: the contents of the core's buffers when the region is entered.

  * `block1 V c w t`: window `w`'s block at grid point `t`, read off its array.
  * `left1 x0 x1 x2`: what the body leaves in the output window's buffer, from the three input blocks: its single
    store, the pure value `k1_pay1` of the three loads.
  * `body1_triple`: the body, run on whole staging buffers holding the input blocks, ends with the inputs as they were
    and the output's buffer at `left1` of them.
  * `data1`: the pipeline's bookkeeping — the arrays as the region finds them, each input's buffer left at its block,
    the output's at `left1`, nothing owed, and which share of each array a window holds.
  * `obligation1`: at every grid point the body meets what the pipeline asks of it.
-/
import proofs.«180565_j20023137534549_2_alg».proof.Proof.Gen.Kernel.Launch
import proofs.«180565_j20023137534549_2_alg».proof.Proof.Gen.Kernel.Skeleton
import proofs.«180565_j20023137534549_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def block1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched point's
    index has not moved, and the body leaves the block in place. -/
theorem found1_0_of {c : Dev nD} (dat : Dat τ (Elt F) Unit ℕ (UR sig nD τ) ℕ cfg1 c) (hA : dat.A 0 = V c (Pipeline.arrRef spec1 0))
    (hafter : ∀ t, dat.after 0 t = block1 V c 0 t) (t : Fin cfg1.N) (d) : dat.before 0 t d = block1 V c 0 t :=
  (dat.before_in_eq_fetched 0 rfl (fun _ => rfl) (fun _ _ _ => rfl) (fun t => by rw [hafter]; unfold Dat.blockOf block1; rw [hA]; try rfl) t d).trans
    (by unfold Dat.fetched Dat.blockOf block1; rw [hA]; try rfl)

/-- Input window 1's current staging buffer holds its block at every point, fetched there or not: an unfetched point's
    index has not moved, and the body leaves the block in place. -/
theorem found1_1_of {c : Dev nD} (dat : Dat τ (Elt F) Unit ℕ (UR sig nD τ) ℕ cfg1 c) (hA : dat.A 1 = V c (Pipeline.arrRef spec1 1))
    (hafter : ∀ t, dat.after 1 t = block1 V c 1 t) (t : Fin cfg1.N) (d) : dat.before 1 t d = block1 V c 1 t :=
  (dat.before_in_eq_fetched 1 rfl (fun _ => rfl) (fun _ _ _ => rfl) (fun t => by rw [hafter]; unfold Dat.blockOf block1; rw [hA]; try rfl) t d).trans
    (by unfold Dat.fetched Dat.blockOf block1; rw [hA]; try rfl)

/-- Input window 2's current staging buffer holds its block at every point, fetched there or not: an unfetched point's
    index has not moved, and the body leaves the block in place. -/
theorem found1_2_of {c : Dev nD} (dat : Dat τ (Elt F) Unit ℕ (UR sig nD τ) ℕ cfg1 c) (hA : dat.A 2 = V c (Pipeline.arrRef spec1 2))
    (hafter : ∀ t, dat.after 2 t = block1 V c 2 t) (t : Fin cfg1.N) (d) : dat.before 2 t d = block1 V c 2 t :=
  (dat.before_in_eq_fetched 2 rfl (fun _ => rfl) (fun _ _ _ => rfl) (fun t => by rw [hafter]; unfold Dat.blockOf block1; rw [hA]; try rfl) t d).trans
    (by unfold Dat.fetched Dat.blockOf block1; rw [hA]; try rfl)

/-! ## The body's accesses: each buffer whole -/

abbrev rin1_0 : Rect S512x128 := Rect.unit (s := S512x128) ![0, 0] S512x128.size inb_S512x128_S512x128_0_0
abbrev rin1_1 : Rect S2048x128 := Rect.unit (s := S2048x128) ![0, 0] S2048x128.size inb_S2048x128_S2048x128_0_0
abbrev rin1_2 : Rect S2048x128 := Rect.unit (s := S2048x128) ![0, 0] S2048x128.size inb_S2048x128_S2048x128_0_0
abbrev rout1 : Rect S512x128 := Rect.unit (s := S512x128) ![0, 0] S512x128.size inb_S512x128_S512x128_0_0

/-! ## What the body leaves in the output window's buffer -/

/-- The output buffer after the body, from the input blocks: its one store, of the body's pure value of the loads. -/
def left1 (x0 : Vec F S512x128 .bf16) (x1 : Vec F S2048x128 .bf16) (x2 : Vec F S2048x128 .bf16) : Vec F S512x128 .bf16 :=
  View.canon [⟨rout1, k1_pay1 (View.ld x0 rin1_0) (View.ld x1 rin1_1) (View.ld x2 rin1_2)⟩]

/-- The store covers the whole buffer. -/
theorem covers1 (p0 : Vec F S512x128 .bf16) (y : S512x128.Idx) :
    ∃ pc ∈ ([⟨rout1, p0⟩] : List (View.Piece (Elt F) S512x128 .bf16)), y ∈ pc.1.set :=
  View.cover_of_tiled [⟨rout1, p0⟩] S512x128.size (by rfl) y

/-! ## The body's triple -/

set_option maxHeartbeats 1000000 in
/-- The body on whole staging buffers, the inputs' at contents `x0 x1 x2` and the output's at anything, runs to the
    continuation holding the inputs' as they were and the output's at `left1 x0 x1 x2`. -/
theorem body1_triple (c : Dev nD) (E : Set ℕ) (i : grid1.Coords)
    (arg0 : Memref sig .tc .vmem S512x128 .bf16) (harg0 : arg0.IsWhole) (arg1 : Memref sig .tc .vmem S2048x128 .bf16) (harg1 : arg1.IsWhole)
    (arg2 : Memref sig .tc .vmem S2048x128 .bf16) (harg2 : arg2.IsWhole) (arg3 : Memref sig .tc .vmem S512x128 .bf16) (harg3 : arg3.IsWhole)
    (x0 : Vec F S512x128 .bf16) (x1 : Vec F S2048x128 .bf16) (x2 : Vec F S2048x128 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (left1 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers1 _)

/-! ## The pipeline's bookkeeping -/

/-- The region's data on core `c`: the arrays as the region finds them; after the body at point `t` each input's
    buffer at its block and the output's at `left1` of the input blocks; the invariant is the scoped buffers no window
    stages and the generator register, untouched; nothing owed; the share of each input array held. -/
def data1 (c : Dev nD) : Dat τ (Elt F) Unit ℕ (UR sig nD τ) ℕ cfg1 c where
  A w := V c (Pipeline.arrRef spec1 w)
  after w t := match w with
    | ⟨0, _⟩ => block1 V c 0 t
    | ⟨1, _⟩ => block1 V c 1 t
    | ⟨2, _⟩ => block1 V c 2 t
    | ⟨3, _⟩ => left1 (block1 V c 0 t) (block1 V c 1 t) (block1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem data1_A (c : Dev nD) (w : Fin cfg1.W) : (data1 V c).A w = V c (Pipeline.arrRef spec1 w) := by
  dsimp only [data1]

theorem after1_0 (c : Dev nD) (t : Fin cfg1.N) : (data1 V c).after 0 t = block1 V c 0 t := by dsimp only [data1]
theorem after1_1 (c : Dev nD) (t : Fin cfg1.N) : (data1 V c).after 1 t = block1 V c 1 t := by dsimp only [data1]
theorem after1_2 (c : Dev nD) (t : Fin cfg1.N) : (data1 V c).after 2 t = block1 V c 2 t := by dsimp only [data1]
theorem after1_3 (c : Dev nD) (t : Fin cfg1.N) :
    (data1 V c).after 3 t = left1 (block1 V c 0 t) (block1 V c 1 t) (block1 V c 2 t) := by dsimp only [data1]

theorem found1_0 (c : Dev nD) (t : Fin cfg1.N) (d) : (data1 V c).before 0 t d = block1 V c 0 t :=
  found1_0_of V (data1 V c) (data1_A V c 0) (after1_0 V c) t d
theorem found1_1 (c : Dev nD) (t : Fin cfg1.N) (d) : (data1 V c).before 1 t d = block1 V c 1 t :=
  found1_1_of V (data1 V c) (data1_A V c 1) (after1_1 V c) t d
theorem found1_2 (c : Dev nD) (t : Fin cfg1.N) (d) : (data1 V c).before 2 t d = block1 V c 2 t :=
  found1_2_of V (data1 V c) (data1_A V c 2) (after1_2 V c) t d

/-! ## The body obligation, at a generic point -/

/-- What the body is called with at point `t`, the windows one by one, -/
def pre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d)))

/-- and what it returns. -/
def post1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t))

/-- The body at any point: the inputs' buffers hold their blocks, so the triple applies; the invariant and what the
    core owes pass through unread. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [found1_0, found1_1, found1_2]
  rw [show (data1 V c).Φ t.succ = (data1 V c).Φ t.castSucc from rfl,
    show (data1 V c).owesAt () t.succ = (data1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (body1_triple c Set.univ _ _ _ _ _ _ _ _ _ (block1 V c 0 t) (block1 V c 1 t) (block1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem obligation1 (c : Dev nD) : BodyObligation (data1 (F := F) V c) (defs₀ (F := F)) Variants.none () Set.univ := fun t => by
  rw [bigSep_W1, bigSep_W1]
  exact body1_at V c t

end Cert.Kernel.Region1

end
-- ==== Proof.WordShared1.lean ====
/-
  Region 1's four windows sit on TWO buffers: the query, key and value windows all read the fused projection's array, the
  output window writes the attention's. The projection's buffer, held whole, is split into three shares, one per
  reading window, when the region is entered, and the three shares are joined again when it is left.
-/
import proofs.«180565_j20023137534549_2_alg».proof.Proof.WordRegion1

set_option maxRecDepth 16384

noncomputable section

namespace Cert.Kernel.Region1

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-- The two buffers behind the four windows. -/
theorem buffers1 : Finset.univ.image (Pipeline.arrRef spec1) = ({main_v5, main_v6} : Finset (Ref sig .tc)) := by decide

variable (V : (c : Dev nD) → (b : Ref sig .tc) → Buf (Elt F) ((c : Thread nD τ).loc b))

/-- A buffer held whole is three shares of it, -/
theorem thirds_split (ℓ : Loc nD τ sig) (f : ℓ.ty.Contents (Elt F)) :
    (ℓ ↦{fullShare} f : sProp 𝕄) ⊢ iprop((ℓ ↦{fullShare.left} f) ∗ (ℓ ↦{fullShare.right.left} f) ∗ ℓ ↦{fullShare.right.right} f) := by
  iintro H
  ihave H' := (pointsTo_share (PosShare.mem_left_op_right fullShare)).1 $$ H
  icases H' with ⟨Hl, Hr⟩
  ihave H'' := (pointsTo_share (PosShare.mem_left_op_right fullShare.right)).1 $$ Hr
  icases H'' with ⟨Hrl, Hrr⟩
  isplitl [Hl]; · iexact Hl
  isplitl [Hrl]; · iexact Hrl
  iexact Hrr

/-- and the three shares are the buffer held whole. -/
theorem thirds_join (ℓ : Loc nD τ sig) (f : ℓ.ty.Contents (Elt F)) :
    iprop((ℓ ↦{fullShare.left} f) ∗ (ℓ ↦{fullShare.right.left} f) ∗ ℓ ↦{fullShare.right.right} f) ⊢ (ℓ ↦{fullShare} f : sProp 𝕄) := by
  iintro ⟨Hl, Hrl, Hrr⟩
  iapply (pointsTo_share (PosShare.mem_left_op_right fullShare)).2
  isplitl [Hl]; · iexact Hl
  iapply (pointsTo_share (PosShare.mem_left_op_right fullShare.right)).2
  isplitl [Hrl] <;> iassumption

/-- The region's arrays, window by window: the projection's buffer at three shares, the attention's whole. -/
theorem arrays1_eq (c : Dev nD) (Fv : (w : Fin cfg1.W) → Buf (Elt F) ((cfg1.win w).arr.view.loc (c : Thread nD τ))) :
    (data1 V c).arrays Fv
      = iprop((((c : Thread nD τ).loc main_v5) ↦{fullShare.left} Fv 0) ∗ (((c : Thread nD τ).loc main_v5) ↦{fullShare.right.left} Fv 1)
          ∗ (((c : Thread nD τ).loc main_v5) ↦{fullShare.right.right} Fv 2) ∗ (((c : Thread nD τ).loc main_v6) ↦{fullShare} Fv 3)) := by
  unfold Dat.arrays
  rw [bigSep_W1, (arr_whole1 0).set_eq_univ, (arr_whole1 3).set_eq_univ]
  rfl

/-- The two buffers held whole at the contents `V` are the region's arrays at the same contents. -/
theorem arrays1_split (c : Dev nD) :
    (Pipeline.arrBufs (Ix := Unit) (Name := ℕ) (U := UR sig nD τ) (Lvl := ℕ) spec1 c (V c) : sProp 𝕄)
      ⊢ (data1 V c).arrays (fun w => V c (Pipeline.arrRef spec1 w)) := by
  rw [arrays1_eq]
  unfold Pipeline.arrBufs
  rw [buffers1, bigSep_insert (by decide), bigSep_singleton]
  show iprop((((c : Thread nD τ).loc main_v5) ↦{fullShare} V c main_v5) ∗ (((c : Thread nD τ).loc main_v6) ↦{fullShare} V c main_v6)) ⊢ _
  iintro ⟨H5, H6⟩
  ihave H := thirds_split _ _ $$ H5
  icases H with ⟨Hl, Hrl, Hrr⟩
  isplitl [Hl]; · iexact Hl
  isplitl [Hrl]; · iexact Hrl
  isplitl [Hrr]; · iexact Hrr
  iexact H6

/-- The region's arrays at the contents `V` are the two buffers held whole at `V`. -/
theorem arrays1_join (c : Dev nD) :
    (data1 V c).arrays (fun w => V c (Pipeline.arrRef spec1 w))
      ⊢ (Pipeline.arrBufs (Ix := Unit) (Name := ℕ) (U := UR sig nD τ) (Lvl := ℕ) spec1 c (V c) : sProp 𝕄) := by
  rw [arrays1_eq]
  unfold Pipeline.arrBufs
  rw [buffers1, bigSep_insert (by decide), bigSep_singleton]
  show _ ⊢ iprop((((c : Thread nD τ).loc main_v5) ↦{fullShare} V c main_v5) ∗ (((c : Thread nD τ).loc main_v6) ↦{fullShare} V c main_v6))
  iintro ⟨Hl, Hrl, Hrr, H6⟩
  isplitl [Hl Hrl Hrr]
  · iapply thirds_join
    isplitl [Hl]; · iexact Hl
    isplitl [Hrl]; · iexact Hrl
    iexact Hrr
  iexact H6

end Cert.Kernel.Region1

end
-- ==== Proof.WordRegion2.lean ====
/-
  Region 2 of the program (the output projection: a block of rows times a block of weight rows, plus the bias), at a parameter `V`: the contents of the core's buffers when the region is entered.

  * `block2 V c w t`: window `w`'s block at grid point `t`, read off its array.
  * `left2 x0 x1 x2`: what the body leaves in the output window's buffer, from the three input blocks: its single
    store, the pure value `k2_pay1` of the three loads.
  * `body2_triple`: the body, run on whole staging buffers holding the input blocks, ends with the inputs as they were
    and the output's buffer at `left2` of them.
  * `data2`: the pipeline's bookkeeping — the arrays as the region finds them, each input's buffer left at its block,
    the output's at `left2`, nothing owed, and which share of each array a window holds.
  * `obligation2`: at every grid point the body meets what the pipeline asks of it.
-/
import proofs.«180565_j20023137534549_2_alg».proof.Proof.Gen.Kernel.Launch
import proofs.«180565_j20023137534549_2_alg».proof.Proof.Gen.Kernel.Skeleton
import proofs.«180565_j20023137534549_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def block2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched point's
    index has not moved, and the body leaves the block in place. -/
theorem found2_0_of {c : Dev nD} (dat : Dat τ (Elt F) Unit ℕ (UR sig nD τ) ℕ cfg2 c) (hA : dat.A 0 = V c (Pipeline.arrRef spec2 0))
    (hafter : ∀ t, dat.after 0 t = block2 V c 0 t) (t : Fin cfg2.N) (d) : dat.before 0 t d = block2 V c 0 t :=
  (dat.before_in_eq_fetched 0 rfl (fun _ => rfl) (fun _ _ _ => rfl) (fun t => by rw [hafter]; unfold Dat.blockOf block2; rw [hA]; try rfl) t d).trans
    (by unfold Dat.fetched Dat.blockOf block2; rw [hA]; try rfl)

/-- Input window 1's current staging buffer holds its block at every point, fetched there or not: an unfetched point's
    index has not moved, and the body leaves the block in place. -/
theorem found2_1_of {c : Dev nD} (dat : Dat τ (Elt F) Unit ℕ (UR sig nD τ) ℕ cfg2 c) (hA : dat.A 1 = V c (Pipeline.arrRef spec2 1))
    (hafter : ∀ t, dat.after 1 t = block2 V c 1 t) (t : Fin cfg2.N) (d) : dat.before 1 t d = block2 V c 1 t :=
  (dat.before_in_eq_fetched 1 rfl (fun _ => rfl) (fun _ _ _ => rfl) (fun t => by rw [hafter]; unfold Dat.blockOf block2; rw [hA]; try rfl) t d).trans
    (by unfold Dat.fetched Dat.blockOf block2; rw [hA]; try rfl)

/-- Input window 2's current staging buffer holds its block at every point, fetched there or not: an unfetched point's
    index has not moved, and the body leaves the block in place. -/
theorem found2_2_of {c : Dev nD} (dat : Dat τ (Elt F) Unit ℕ (UR sig nD τ) ℕ cfg2 c) (hA : dat.A 2 = V c (Pipeline.arrRef spec2 2))
    (hafter : ∀ t, dat.after 2 t = block2 V c 2 t) (t : Fin cfg2.N) (d) : dat.before 2 t d = block2 V c 2 t :=
  (dat.before_in_eq_fetched 2 rfl (fun _ => rfl) (fun _ _ _ => rfl) (fun t => by rw [hafter]; unfold Dat.blockOf block2; rw [hA]; try rfl) t d).trans
    (by unfold Dat.fetched Dat.blockOf block2; rw [hA]; try rfl)

/-! ## The body's accesses: each buffer whole -/

abbrev rin2_0 : Rect S1024x2048 := Rect.unit (s := S1024x2048) ![0, 0] S1024x2048.size inb_S1024x2048_S1024x2048_0_0
abbrev rin2_1 : Rect S512x2048 := Rect.unit (s := S512x2048) ![0, 0] S512x2048.size inb_S512x2048_S512x2048_0_0
abbrev rin2_2 : Rect S1x512 := Rect.unit (s := S1x512) ![0, 0] S1x512.size inb_S1x512_S1x512_0_0
abbrev rout2 : Rect S1024x512 := Rect.unit (s := S1024x512) ![0, 0] S1024x512.size inb_S1024x512_S1024x512_0_0

/-! ## What the body leaves in the output window's buffer -/

/-- The output buffer after the body, from the input blocks: its one store, of the body's pure value of the loads. -/
def left2 (x0 : Vec F S1024x2048 .bf16) (x1 : Vec F S512x2048 .bf16) (x2 : Vec F S1x512 .f32) : Vec F S1024x512 .f32 :=
  View.canon [⟨rout2, k2_pay1 (View.ld x0 rin2_0) (View.ld x1 rin2_1) (View.ld x2 rin2_2)⟩]

/-- The store covers the whole buffer. -/
theorem covers2 (p0 : Vec F S1024x512 .f32) (y : S1024x512.Idx) :
    ∃ pc ∈ ([⟨rout2, p0⟩] : List (View.Piece (Elt F) S1024x512 .f32)), y ∈ pc.1.set :=
  View.cover_of_tiled [⟨rout2, p0⟩] S1024x512.size (by rfl) y

/-! ## The body's triple -/

set_option maxHeartbeats 1000000 in
/-- The body on whole staging buffers, the inputs' at contents `x0 x1 x2` and the output's at anything, runs to the
    continuation holding the inputs' as they were and the output's at `left2 x0 x1 x2`. -/
theorem body2_triple (c : Dev nD) (E : Set ℕ) (i : grid2.Coords)
    (arg0 : Memref sig .tc .vmem S1024x2048 .bf16) (harg0 : arg0.IsWhole) (arg1 : Memref sig .tc .vmem S512x2048 .bf16) (harg1 : arg1.IsWhole)
    (arg2 : Memref sig .tc .vmem S1x512 .f32) (harg2 : arg2.IsWhole) (arg3 : Memref sig .tc .vmem S1024x512 .f32) (harg3 : arg3.IsWhole)
    (x0 : Vec F S1024x2048 .bf16) (x1 : Vec F S512x2048 .bf16) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (left2 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers2 _)

/-! ## The pipeline's bookkeeping -/

/-- The region's data on core `c`: the arrays as the region finds them; after the body at point `t` each input's
    buffer at its block and the output's at `left2` of the input blocks; the invariant is the scoped buffers no window
    stages and the generator register, untouched; nothing owed; the share of each input array held. -/
def data2 (c : Dev nD) : Dat τ (Elt F) Unit ℕ (UR sig nD τ) ℕ cfg2 c where
  A w := V c (Pipeline.arrRef spec2 w)
  after w t := match w with
    | ⟨0, _⟩ => block2 V c 0 t
    | ⟨1, _⟩ => block2 V c 1 t
    | ⟨2, _⟩ => block2 V c 2 t
    | ⟨3, _⟩ => left2 (block2 V c 0 t) (block2 V c 1 t) (block2 V c 2 t)
  Φ _ := Pipeline.ΦA spec2 c
  q w := fullShare
  owed _ := 0

theorem data2_A (c : Dev nD) (w : Fin cfg2.W) : (data2 V c).A w = V c (Pipeline.arrRef spec2 w) := by
  dsimp only [data2]

theorem after2_0 (c : Dev nD) (t : Fin cfg2.N) : (data2 V c).after 0 t = block2 V c 0 t := by dsimp only [data2]
theorem after2_1 (c : Dev nD) (t : Fin cfg2.N) : (data2 V c).after 1 t = block2 V c 1 t := by dsimp only [data2]
theorem after2_2 (c : Dev nD) (t : Fin cfg2.N) : (data2 V c).after 2 t = block2 V c 2 t := by dsimp only [data2]
theorem after2_3 (c : Dev nD) (t : Fin cfg2.N) :
    (data2 V c).after 3 t = left2 (block2 V c 0 t) (block2 V c 1 t) (block2 V c 2 t) := by dsimp only [data2]

theorem found2_0 (c : Dev nD) (t : Fin cfg2.N) (d) : (data2 V c).before 0 t d = block2 V c 0 t :=
  found2_0_of V (data2 V c) (data2_A V c 0) (after2_0 V c) t d
theorem found2_1 (c : Dev nD) (t : Fin cfg2.N) (d) : (data2 V c).before 1 t d = block2 V c 1 t :=
  found2_1_of V (data2 V c) (data2_A V c 1) (after2_1 V c) t d
theorem found2_2 (c : Dev nD) (t : Fin cfg2.N) (d) : (data2 V c).before 2 t d = block2 V c 2 t :=
  found2_2_of V (data2 V c) (data2_A V c 2) (after2_2 V c) t d

/-! ## The body obligation, at a generic point -/

/-- What the body is called with at point `t`, the windows one by one, -/
def pre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d)))

/-- and what it returns. -/
def post2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t))

/-- The body at any point: the inputs' buffers hold their blocks, so the triple applies; the invariant and what the
    core owes pass through unread. -/
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [found2_0, found2_1, found2_2]
  rw [show (data2 V c).Φ t.succ = (data2 V c).Φ t.castSucc from rfl,
    show (data2 V c).owesAt () t.succ = (data2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (body2_triple c Set.univ _ _ _ _ _ _ _ _ _ (block2 V c 0 t) (block2 V c 1 t) (block2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem obligation2 (c : Dev nD) : BodyObligation (data2 (F := F) V c) (defs₀ (F := F)) Variants.none () Set.univ := fun t => by
  rw [bigSep_W2, bigSep_W2]
  exact body2_at V c t

end Cert.Kernel.Region2

end
-- ==== Proof.WordRun.lean ====
/-
  The whole run of the program: five stretches in order — the host's reshapes and format changes, the fused projection,
  the attention, the output projection, the host's last reshape.

  Between two stretches a core holds every unscoped buffer whole at a known valuation: `B0` the launch memory, `B1`
  after the first host stretch, `B2`, `B3`, `B4` after each region (the region's output array at what the pipeline's
  write-backs leave, every other buffer as it was), `B5` after the last reshape. Each region is entered from the
  valuation before it and left at the one after it; region 1's three reading windows share the projection's buffer,
  which is split into three shares on entry and joined on exit.

  `run_all`: every weakly fair execution from memory `m` with zero counters terminates, and every unscoped buffer
  ends at `B5`. The frame (the arguments end as launched) and the result's value are read off it.
-/
import proofs.«180565_j20023137534549_2_alg».proof.Proof.WordRegion0
import proofs.«180565_j20023137534549_2_alg».proof.Proof.WordShared1
import proofs.«180565_j20023137534549_2_alg».proof.Proof.WordRegion2
import proofs.«180565_j20023137534549_2_alg».proof.Proof.Gen.Kernel.Regions

set_option maxRecDepth 16384

noncomputable section

namespace Cert.Kernel.Run

open Cert.Kernel Cert.Kernel.Gen Cert.Kernel.Region0 Cert.Kernel.Region1 Cert.Kernel.Region2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the first host stretch. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After region 0: its arrays at what the pipeline leaves, every other buffer as entered. -/
def B2 (c : Dev nD) : Valuation τ sig (Elt F) :=
  Pipeline.withArrays spec0 c (B1 m ρ c) fun w => (data0 (E1 m ρ) c).arrAt w cfg0.N
theorem B2_arr (c : Dev nD) (w : Fin cfg0.W) :
    B2 m ρ c (Proc.devRef .tc (Pipeline.arrRef spec0 w)) = (data0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem left0 (c : Dev nD) (w : Fin cfg0.W) : (data0 (E1 m ρ) c).arrAt w cfg0.N = E2 m ρ c (Pipeline.arrRef spec0 w) :=
  (B2_arr m ρ c w).symm
theorem kept0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After region 1: the attention's array at what the pipeline leaves, every other buffer (the projection's too: the
    region only reads it) as entered. -/
def B3 (c : Dev nD) : Valuation τ sig (Elt F) :=
  Function.update (B2 m ρ c) (Proc.devRef .tc main_v6) ((data1 (E2 m ρ) c).arrAt 3 cfg1.N)
theorem B3_out (c : Dev nD) : B3 m ρ c (Proc.devRef .tc main_v6) = (data1 (E2 m ρ) c).arrAt 3 cfg1.N := by
  unfold B3; exact Function.update_self ..
theorem B3_of_ne (c : Dev nD) (b : Ref sig .tc) (hb : b ≠ main_v6) :
    B3 m ρ c (Proc.devRef .tc b) = B2 m ρ c (Proc.devRef .tc b) := by
  unfold B3; exact Function.update_of_ne (StableHlo.devRef_ne_of_ne hb) ..
abbrev E3 : (c : Dev nD) → (b : Ref sig .tc) → Buf (Elt F) ((c : Thread nD τ).loc b) := fun c b => B3 m ρ c b
/-- What region 1 leaves in each window's array is the next valuation there: a reading window's array is as entered. -/
theorem left1 (c : Dev nD) (w : Fin cfg1.W) : (data1 (E2 m ρ) c).arrAt w cfg1.N = E3 m ρ c (Pipeline.arrRef spec1 w) := by
  match w with
  | ⟨0, _⟩ => exact (((data1 (E2 m ρ) c).arrAt_in 0 rfl _).trans (data1_A (E2 m ρ) c 0)).trans (B3_of_ne m ρ c main_v5 (by decide)).symm
  | ⟨1, _⟩ => exact (((data1 (E2 m ρ) c).arrAt_in 1 rfl _).trans (data1_A (E2 m ρ) c 1)).trans (B3_of_ne m ρ c main_v5 (by decide)).symm
  | ⟨2, _⟩ => exact (((data1 (E2 m ρ) c).arrAt_in 2 rfl _).trans (data1_A (E2 m ρ) c 2)).trans (B3_of_ne m ρ c main_v5 (by decide)).symm
  | ⟨3, _⟩ => exact (B3_out m ρ c).symm
theorem kept1 (c : Dev nD) : ∀ b, b ∉ Finset.univ.image (Pipeline.arrRef spec1) → E3 m ρ c b = E2 m ρ c b :=
  fun b hb => B3_of_ne m ρ c b fun e => hb (by rw [buffers1, e]; decide)

/-- After region 2. -/
def B4 (c : Dev nD) : Valuation τ sig (Elt F) :=
  Pipeline.withArrays spec2 c (B3 m ρ c) fun w => (data2 (E3 m ρ) c).arrAt w cfg2.N
theorem B4_arr (c : Dev nD) (w : Fin cfg2.W) :
    B4 m ρ c (Proc.devRef .tc (Pipeline.arrRef spec2 w)) = (data2 (E3 m ρ) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m ρ c (Proc.devRef .tc b) = B3 m ρ c (Proc.devRef .tc b) := by
  unfold B4; exact Pipeline.withArrays_of_ne spec2 c _ _ b hb
abbrev E4 : (c : Dev nD) → (b : Ref sig .tc) → Buf (Elt F) ((c : Thread nD τ).loc b) := fun c b => B4 m ρ c b
theorem left2 (c : Dev nD) (w : Fin cfg2.W) : (data2 (E3 m ρ) c).arrAt w cfg2.N = E4 m ρ c (Pipeline.arrRef spec2 w) :=
  (B4_arr m ρ c w).symm
theorem kept2 (c : Dev nD) : ∀ b, b ∉ Finset.univ.image (Pipeline.arrRef spec2) → E4 m ρ c b = E3 m ρ c b :=
  fun b hb => B4_of_ne m ρ c b fun w e => hb (Finset.mem_image.mpr ⟨w, Finset.mem_univ _, e⟩)

/-- After the last host stretch. -/
abbrev B5 : Dev nD → Valuation τ sig (Elt F) := fun c => StableHlo.after hostOps3 (B4 m ρ c)

/-! ## The proof data of the three pipelines, and what rides along -/

/-- Each pipeline's data at its region's entry contents. -/
def family : (p : Fin 3) → (c : Dev nD) → Dat τ (Elt F) Unit ℕ (UR sig nD τ) ℕ (Pipeline.pin (pcfgs (F := F)) adm p) c
  | ⟨0, _⟩ => fun c => data0 (E1 m ρ) c
  | ⟨1, _⟩ => fun c => data1 (E2 m ρ) c
  | ⟨2, _⟩ => fun c => data2 (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and nothing owed. -/
abbrev Rest (c : Dev nD) : sProp 𝕄 := iprop((∃ r, prngReg c r) ∗ ∃ W, owes (c : Thread nD τ) (0 : CellTallies nD τ sig Unit) W)
/-- A host stretch as a segment over the unscoped buffers from the valuation `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0: entered from every unscoped buffer at `B1`, left at `B2`. Its arrays are split out of the unscoped
    buffers and put back at what the pipeline leaves; the generator register goes into the invariant and comes back;
    nothing is owed; the kernel has no semaphore of its own. -/
def region0 : Pipeline.RegionSeg (pcfgs (F := F)) adm (family m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (family m ρ) launch0.win launch0.arr_whole c
      ((family m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (family m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (family m ρ) ((family m ρ 0 c).share_full fun _ => rfl)
      (E1 m ρ c) (E2 m ρ c) ((family m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `B2`, left at `B3`. The two buffers behind its windows are split
    out of the unscoped buffers, the projection's into the three reading windows' shares; at the exit the shares are
    joined and the buffers put back, the attention's at what the pipeline leaves. -/
def region1 : Pipeline.RegionSeg (pcfgs (F := F)) adm (family m ρ) () defs₀ 𝒱₀ L lv 1 where
  win := winFacts₀1
  block_pos := block_pos1
  stage_whole := stage_whole1
  K := PEmpty
  osem k := k.elim
  ho := Pipeline.OwnSemFacts.none _
  hbody c := (obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ Rest c)
  post c := iprop(StableHlo.held (c : Thread nD τ) (Pipeline.ucRefs τ sig) (B3 m ρ c) ∗ Rest c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit : (unscopedBufs c (E2 m ρ c) : sProp 𝕄)
        ⊢ iprop((data1 (E2 m ρ) c).arrays (fun w => E2 m ρ c (Pipeline.arrRef spec1 w))
            ∗ Pipeline.unscopedRest (Ix := Unit) (Name := ℕ) (U := UR sig nD τ) (Lvl := ℕ) spec1 c (E2 m ρ c)) := by
      rw [Pipeline.unscopedBufs_split₀ cfgs 1 winFacts₀1.arr_unscoped c (E2 m ρ c)]
      exact sep_mono (arrays1_split (E2 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (family m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((family m ρ 1 c).arrays (fun w => E3 m ρ c (Pipeline.arrRef spec1 w))
          ∗ Pipeline.unscopedRest (Ix := Unit) (Name := ℕ) (U := UR sig nD τ) (Lvl := ℕ) spec1 c (E2 m ρ c))
        ⊢ (unscopedBufs c (E3 m ρ c) : sProp 𝕄) := by
      show iprop((data1 (E2 m ρ) c).arrays (fun w => E3 m ρ c (Pipeline.arrRef spec1 w))
          ∗ Pipeline.unscopedRest (Ix := Unit) (Name := ℕ) (U := UR sig nD τ) (Lvl := ℕ) spec1 c (E2 m ρ c)) ⊢ _
      rw [Pipeline.unscopedBufs_split₀ cfgs 1 winFacts₀1.arr_unscoped c (E3 m ρ c)]
      refine sep_mono ?_ (Entails.of_eq ?_)
      · have h := arrays1_join (E3 m ρ) c
        exact h
      · unfold Pipeline.unscopedRest
        exact bigSep_congr fun b hb => by rw [kept1 m ρ c b (Finset.mem_sdiff.mp hb).2]
    rw [Pipeline.unscopedBufs_held] at hjoin
    rw [show (fun x => (family m ρ 1 c).arrAt x (Pipeline.pin (pcfgs (F := F)) adm 1).N) = fun w => E3 m ρ c (Pipeline.arrRef spec1 w) from funext (left1 m ρ c)]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `B3`, left at `B4`. Its arrays are split out of the unscoped
    buffers and put back at what the pipeline leaves; the generator register goes into the invariant and comes back;
    nothing is owed; the kernel has no semaphore of its own. -/
def region2 : Pipeline.RegionSeg (pcfgs (F := F)) adm (family m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (E3 m ρ) c).loose
  hwaits := Pipeline.hwaits_of_owed_zero _ _ _ _ L lv 2 fun _ _ => rfl
  pre c := iprop(StableHlo.held (c : Thread nD τ) (Pipeline.ucRefs τ sig) (B3 m ρ c) ∗ Rest c)
  post c := iprop(StableHlo.held (c : Thread nD τ) (Pipeline.ucRefs τ sig) (B4 m ρ c) ∗ Rest c)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) adm (family m ρ) launch2.win launch2.arr_whole c
      ((family m ρ 2 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (family m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (family m ρ) ((family m ρ 2 c).share_full fun _ => rfl)
      (E3 m ρ c) (E4 m ρ c) ((family m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The five segments in order. -/
abbrev segs : List (Pipeline.Seg (pcfgs (F := F)) adm (family m ρ) () defs₀ 𝒱₀ L lv) :=
  [ .host (hostSeg hostOps0 hostOps0_sub hostOps0_fresh (B0 m ρ)),
    .region (region0 m ρ),
    .region (region1 m ρ),
    .region (region2 m ρ),
    .host (hostSeg hostOps3 hostOps3_sub hostOps3_fresh (B4 m ρ)) ]
/-- The program is the run of its segments. -/
theorem main_run (c : Dev nD) : main (F := F) c = Pipeline.Seg.run (segs m ρ) := (main_chain c).trans (by chain_rfl)

/-- The last thread state without what is owed: every unscoped buffer at `B5`, the generator register at some state. -/
abbrev Last (c : Dev nD) : sProp 𝕄 := iprop(StableHlo.held (c : Thread nD τ) (Pipeline.ucRefs τ sig) (B5 m ρ c) ∗ ∃ r, prngReg c r)

set_option backward.isDefEq.respectTransparency.types false in
/-- From any memory with zero counters, every weakly fair execution of the program terminates, nothing faulting, and
    every unscoped buffer of every core ends at `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (family m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Last m ρ)
    (hch := ⟨fun _ => .rfl, fun _ => .rfl, fun _ => .rfl, fun _ => .rfl, fun _ => .rfl, fun c => by
      show iprop(StableHlo.held (c : Thread nD τ) (Pipeline.ucRefs τ sig) (B5 m ρ c) ∗ Rest c)
        ⊢ iprop(Last m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

end Cert.Kernel.Run

end
-- ==== Proof.WordFrame.lean ====
/-
  The frame, read off the whole run: no host operation writes an argument array and no region's window sits on one
  (each region reads the host's reshaped or re-formatted copies), so the last valuation at an argument's buffer walks
  back, stretch by stretch, to the launch memory.
-/
import proofs.«180565_j20023137534549_2_alg».proof.Proof.WordRun

noncomputable section

namespace Cert.Kernel.Run

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- A buffer that no host stretch writes and that is no array of any region ends as launched. -/
theorem B5_untouched (c : Dev nD) (r : Ref sig .tc) (h3 : r ∉ hostOps3_W) (h2 : ∀ w, Pipeline.arrRef spec2 w ≠ r) (h1 : r ≠ main_v6)
    (h0 : ∀ w, Pipeline.arrRef spec0 w ≠ r) (hh : r ∉ hostOps0_W) :
    B5 m ρ c (Proc.devRef .tc r) = m ((c : Thread nD τ).loc r) :=
  (StableHlo.after_of_writes_sub hostOps3 _ hostOps3_writes h3).trans <|
    (B4_of_ne m ρ c r h2).trans <| (B3_of_ne m ρ c r h1).trans <| (B2_of_ne m ρ c r h0).trans <|
      (StableHlo.after_of_writes_sub hostOps0 _ hostOps0_writes hh).trans rfl

theorem B5_main_arg0 (c : Dev nD) : B5 m ρ c (Proc.devRef .tc main_arg0) = m ((c : Thread nD τ).loc main_arg0) :=
  B5_untouched m ρ c main_arg0 (by decide) (by decide) (by decide) (by decide) (by decide)
theorem B5_main_arg1 (c : Dev nD) : B5 m ρ c (Proc.devRef .tc main_arg1) = m ((c : Thread nD τ).loc main_arg1) :=
  B5_untouched m ρ c main_arg1 (by decide) (by decide) (by decide) (by decide) (by decide)
theorem B5_main_arg2 (c : Dev nD) : B5 m ρ c (Proc.devRef .tc main_arg2) = m ((c : Thread nD τ).loc main_arg2) :=
  B5_untouched m ρ c main_arg2 (by decide) (by decide) (by decide) (by decide) (by decide)
theorem B5_main_arg3 (c : Dev nD) : B5 m ρ c (Proc.devRef .tc main_arg3) = m ((c : Thread nD τ).loc main_arg3) :=
  B5_untouched m ρ c main_arg3 (by decide) (by decide) (by decide) (by decide) (by decide)
theorem B5_main_arg4 (c : Dev nD) : B5 m ρ c (Proc.devRef .tc main_arg4) = m ((c : Thread nD τ).loc main_arg4) :=
  B5_untouched m ρ c main_arg4 (by decide) (by decide) (by decide) (by decide) (by decide)

/-- Every weakly fair execution terminates, nothing faulting, with the result's buffer at the last valuation and each
    argument array as launched. -/
theorem run_result : θ_run defs (onTc (τ := τ) (main (F := F))) ⟨m, fun _ => 0, ρ⟩ (fun r => ∀ c : Dev nD,
      r.2.mem ((c.tc : Thread nD τ).loc main_v8) = B5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v8 (by decide)),
     (h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c),
     (h c _ (mem_uc main_arg3 (by decide))).trans (B5_main_arg3 m ρ c),
     (h c _ (mem_uc main_arg4 (by decide))).trans (B5_main_arg4 m ρ c)⟩) (run_all m ρ)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_result m ρ)

end Cert.Kernel.Run

end
-- ==== Proof.IdealRegion0.lean ====
/-
  Region 0 of the program (the fused query/key/value projection: a block of rows times a block of weight rows, plus the bias), at a parameter `V`: the contents of the core's buffers when the region is entered.

  * `block0 V c w t`: window `w`'s block at grid point `t`, read off its array.
  * `left0 x0 x1 x2`: what the body leaves in the output window's buffer, from the three input blocks: its single
    store, the pure value `k0_pay1` of the three loads.
  * `body0_triple`: the body, run on whole staging buffers holding the input blocks, ends with the inputs as they were
    and the output's buffer at `left0` of them.
  * `data0`: the pipeline's bookkeeping — the arrays as the region finds them, each input's buffer left at its block,
    the output's at `left0`, nothing owed, and which share of each array a window holds.
  * `obligation0`: at every grid point the body meets what the pipeline asks of it.
-/
import proofs.«180565_j20023137534549_2_alg».proof.Proof.Gen.KernelIdeal.Launch
import proofs.«180565_j20023137534549_2_alg».proof.Proof.Gen.KernelIdeal.Skeleton
import proofs.«180565_j20023137534549_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def block0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched point's
    index has not moved, and the body leaves the block in place. -/
theorem found0_0_of {c : Dev nD} (dat : Dat τ (Elt F) Unit ℕ (UR sig nD τ) ℕ cfg0 c) (hA : dat.A 0 = V c (Pipeline.arrRef spec0 0))
    (hafter : ∀ t, dat.after 0 t = block0 V c 0 t) (t : Fin cfg0.N) (d) : dat.before 0 t d = block0 V c 0 t :=
  (dat.before_in_eq_fetched 0 rfl (fun _ => rfl) (fun _ _ _ => rfl) (fun t => by rw [hafter]; unfold Dat.blockOf block0; rw [hA]; try rfl) t d).trans
    (by unfold Dat.fetched Dat.blockOf block0; rw [hA]; try rfl)

/-- Input window 1's current staging buffer holds its block at every point, fetched there or not: an unfetched point's
    index has not moved, and the body leaves the block in place. -/
theorem found0_1_of {c : Dev nD} (dat : Dat τ (Elt F) Unit ℕ (UR sig nD τ) ℕ cfg0 c) (hA : dat.A 1 = V c (Pipeline.arrRef spec0 1))
    (hafter : ∀ t, dat.after 1 t = block0 V c 1 t) (t : Fin cfg0.N) (d) : dat.before 1 t d = block0 V c 1 t :=
  (dat.before_in_eq_fetched 1 rfl (fun _ => rfl) (fun _ _ _ => rfl) (fun t => by rw [hafter]; unfold Dat.blockOf block0; rw [hA]; try rfl) t d).trans
    (by unfold Dat.fetched Dat.blockOf block0; rw [hA]; try rfl)

/-- Input window 2's current staging buffer holds its block at every point, fetched there or not: an unfetched point's
    index has not moved, and the body leaves the block in place. -/
theorem found0_2_of {c : Dev nD} (dat : Dat τ (Elt F) Unit ℕ (UR sig nD τ) ℕ cfg0 c) (hA : dat.A 2 = V c (Pipeline.arrRef spec0 2))
    (hafter : ∀ t, dat.after 2 t = block0 V c 2 t) (t : Fin cfg0.N) (d) : dat.before 2 t d = block0 V c 2 t :=
  (dat.before_in_eq_fetched 2 rfl (fun _ => rfl) (fun _ _ _ => rfl) (fun t => by rw [hafter]; unfold Dat.blockOf block0; rw [hA]; try rfl) t d).trans
    (by unfold Dat.fetched Dat.blockOf block0; rw [hA]; try rfl)

/-! ## The body's accesses: each buffer whole -/

abbrev rin0_0 : Rect S1024x2048 := Rect.unit (s := S1024x2048) ![0, 0] S1024x2048.size inb_S1024x2048_S1024x2048_0_0
abbrev rin0_1 : Rect S512x2048 := Rect.unit (s := S512x2048) ![0, 0] S512x2048.size inb_S512x2048_S512x2048_0_0
abbrev rin0_2 : Rect S1x512 := Rect.unit (s := S1x512) ![0, 0] S1x512.size inb_S1x512_S1x512_0_0
abbrev rout0 : Rect S1024x512 := Rect.unit (s := S1024x512) ![0, 0] S1024x512.size inb_S1024x512_S1024x512_0_0

/-! ## What the body leaves in the output window's buffer -/

/-- The output buffer after the body, from the input blocks: its one store, of the body's pure value of the loads. -/
def left0 (x0 : Vec F S1024x2048 .f32) (x1 : Vec F S512x2048 .bf16) (x2 : Vec F S1x512 .f32) : Vec F S1024x512 .bf16 :=
  View.canon [⟨rout0, k0_pay1 (View.ld x0 rin0_0) (View.ld x1 rin0_1) (View.ld x2 rin0_2)⟩]

/-- The store covers the whole buffer. -/
theorem covers0 (p0 : Vec F S1024x512 .bf16) (y : S1024x512.Idx) :
    ∃ pc ∈ ([⟨rout0, p0⟩] : List (View.Piece (Elt F) S1024x512 .bf16)), y ∈ pc.1.set :=
  View.cover_of_tiled [⟨rout0, p0⟩] S1024x512.size (by rfl) y

/-! ## The body's triple -/

set_option maxHeartbeats 1000000 in
/-- The body on whole staging buffers, the inputs' at contents `x0 x1 x2` and the output's at anything, runs to the
    continuation holding the inputs' as they were and the output's at `left0 x0 x1 x2`. -/
theorem body0_triple (c : Dev nD) (E : Set ℕ) (i : grid0.Coords)
    (arg0 : Memref sig .tc .vmem S1024x2048 .f32) (harg0 : arg0.IsWhole) (arg1 : Memref sig .tc .vmem S512x2048 .bf16) (harg1 : arg1.IsWhole)
    (arg2 : Memref sig .tc .vmem S1x512 .f32) (harg2 : arg2.IsWhole) (arg3 : Memref sig .tc .vmem S1024x512 .bf16) (harg3 : arg3.IsWhole)
    (x0 : Vec F S1024x2048 .f32) (x1 : Vec F S512x2048 .bf16) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (left0 x0 x1 x2)) -∗ K ⟨⟩))
      ⊢ wp frame (wpE (defs₀ (F := F)) Variants.none c none) E (cc0__matmul_bias_kernel i arg0 harg0 arg1 harg1 arg2 harg2 arg3 harg3) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers0 _)

/-! ## The pipeline's bookkeeping -/

/-- The region's data on core `c`: the arrays as the region finds them; after the body at point `t` each input's
    buffer at its block and the output's at `left0` of the input blocks; the invariant is the scoped buffers no window
    stages and the generator register, untouched; nothing owed; the share of each input array held. -/
def data0 (c : Dev nD) : Dat τ (Elt F) Unit ℕ (UR sig nD τ) ℕ cfg0 c where
  A w := V c (Pipeline.arrRef spec0 w)
  after w t := match w with
    | ⟨0, _⟩ => block0 V c 0 t
    | ⟨1, _⟩ => block0 V c 1 t
    | ⟨2, _⟩ => block0 V c 2 t
    | ⟨3, _⟩ => left0 (block0 V c 0 t) (block0 V c 1 t) (block0 V c 2 t)
  Φ _ := Pipeline.ΦA spec0 c
  q w := fullShare
  owed _ := 0

theorem data0_A (c : Dev nD) (w : Fin cfg0.W) : (data0 V c).A w = V c (Pipeline.arrRef spec0 w) := by
  dsimp only [data0]

theorem after0_0 (c : Dev nD) (t : Fin cfg0.N) : (data0 V c).after 0 t = block0 V c 0 t := by dsimp only [data0]
theorem after0_1 (c : Dev nD) (t : Fin cfg0.N) : (data0 V c).after 1 t = block0 V c 1 t := by dsimp only [data0]
theorem after0_2 (c : Dev nD) (t : Fin cfg0.N) : (data0 V c).after 2 t = block0 V c 2 t := by dsimp only [data0]
theorem after0_3 (c : Dev nD) (t : Fin cfg0.N) :
    (data0 V c).after 3 t = left0 (block0 V c 0 t) (block0 V c 1 t) (block0 V c 2 t) := by dsimp only [data0]

theorem found0_0 (c : Dev nD) (t : Fin cfg0.N) (d) : (data0 V c).before 0 t d = block0 V c 0 t :=
  found0_0_of V (data0 V c) (data0_A V c 0) (after0_0 V c) t d
theorem found0_1 (c : Dev nD) (t : Fin cfg0.N) (d) : (data0 V c).before 1 t d = block0 V c 1 t :=
  found0_1_of V (data0 V c) (data0_A V c 1) (after0_1 V c) t d
theorem found0_2 (c : Dev nD) (t : Fin cfg0.N) (d) : (data0 V c).before 2 t d = block0 V c 2 t :=
  found0_2_of V (data0 V c) (data0_A V c 2) (after0_2 V c) t d

/-! ## The body obligation, at a generic point -/

/-- What the body is called with at point `t`, the windows one by one, -/
def pre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d)))

/-- and what it returns. -/
def post0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t))

/-- The body at any point: the inputs' buffers hold their blocks, so the triple applies; the invariant and what the
    core owes pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [found0_0, found0_1, found0_2]
  rw [show (data0 V c).Φ t.succ = (data0 V c).Φ t.castSucc from rfl,
    show (data0 V c).owesAt () t.succ = (data0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (body0_triple c Set.univ _ _ _ _ _ _ _ _ _ (block0 V c 0 t) (block0 V c 1 t) (block0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem obligation0 (c : Dev nD) : BodyObligation (data0 (F := F) V c) (defs₀ (F := F)) Variants.none () Set.univ := fun t => by
  rw [bigSep_W0, bigSep_W0]
  exact body0_at V c t

end Cert.KernelIdeal.Region0

end
-- ==== Proof.IdealRegion1.lean ====
/-
  Region 1 of the program (the attention of one head: a block of query rows against the head's key and value rows), at a parameter `V`: the contents of the core's buffers when the region is entered.

  * `block1 V c w t`: window `w`'s block at grid point `t`, read off its array.
  * `left1 x0 x1 x2`: what the body leaves in the output window's buffer, from the three input blocks: its single
    store, the pure value `k1_pay1` of the three loads.
  * `body1_triple`: the body, run on whole staging buffers holding the input blocks, ends with the inputs as they were
    and the output's buffer at `left1` of them.
  * `data1`: the pipeline's bookkeeping — the arrays as the region finds them, each input's buffer left at its block,
    the output's at `left1`, nothing owed, and which share of each array a window holds.
  * `obligation1`: at every grid point the body meets what the pipeline asks of it.
-/
import proofs.«180565_j20023137534549_2_alg».proof.Proof.Gen.KernelIdeal.Launch
import proofs.«180565_j20023137534549_2_alg».proof.Proof.Gen.KernelIdeal.Skeleton
import proofs.«180565_j20023137534549_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def block1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched point's
    index has not moved, and the body leaves the block in place. -/
theorem found1_0_of {c : Dev nD} (dat : Dat τ (Elt F) Unit ℕ (UR sig nD τ) ℕ cfg1 c) (hA : dat.A 0 = V c (Pipeline.arrRef spec1 0))
    (hafter : ∀ t, dat.after 0 t = block1 V c 0 t) (t : Fin cfg1.N) (d) : dat.before 0 t d = block1 V c 0 t :=
  (dat.before_in_eq_fetched 0 rfl (fun _ => rfl) (fun _ _ _ => rfl) (fun t => by rw [hafter]; unfold Dat.blockOf block1; rw [hA]; try rfl) t d).trans
    (by unfold Dat.fetched Dat.blockOf block1; rw [hA]; try rfl)

/-- Input window 1's current staging buffer holds its block at every point, fetched there or not: an unfetched point's
    index has not moved, and the body leaves the block in place. -/
theorem found1_1_of {c : Dev nD} (dat : Dat τ (Elt F) Unit ℕ (UR sig nD τ) ℕ cfg1 c) (hA : dat.A 1 = V c (Pipeline.arrRef spec1 1))
    (hafter : ∀ t, dat.after 1 t = block1 V c 1 t) (t : Fin cfg1.N) (d) : dat.before 1 t d = block1 V c 1 t :=
  (dat.before_in_eq_fetched 1 rfl (fun _ => rfl) (fun _ _ _ => rfl) (fun t => by rw [hafter]; unfold Dat.blockOf block1; rw [hA]; try rfl) t d).trans
    (by unfold Dat.fetched Dat.blockOf block1; rw [hA]; try rfl)

/-- Input window 2's current staging buffer holds its block at every point, fetched there or not: an unfetched point's
    index has not moved, and the body leaves the block in place. -/
theorem found1_2_of {c : Dev nD} (dat : Dat τ (Elt F) Unit ℕ (UR sig nD τ) ℕ cfg1 c) (hA : dat.A 2 = V c (Pipeline.arrRef spec1 2))
    (hafter : ∀ t, dat.after 2 t = block1 V c 2 t) (t : Fin cfg1.N) (d) : dat.before 2 t d = block1 V c 2 t :=
  (dat.before_in_eq_fetched 2 rfl (fun _ => rfl) (fun _ _ _ => rfl) (fun t => by rw [hafter]; unfold Dat.blockOf block1; rw [hA]; try rfl) t d).trans
    (by unfold Dat.fetched Dat.blockOf block1; rw [hA]; try rfl)

/-! ## The body's accesses: each buffer whole -/

abbrev rin1_0 : Rect S512x128 := Rect.unit (s := S512x128) ![0, 0] S512x128.size inb_S512x128_S512x128_0_0
abbrev rin1_1 : Rect S2048x128 := Rect.unit (s := S2048x128) ![0, 0] S2048x128.size inb_S2048x128_S2048x128_0_0
abbrev rin1_2 : Rect S2048x128 := Rect.unit (s := S2048x128) ![0, 0] S2048x128.size inb_S2048x128_S2048x128_0_0
abbrev rout1 : Rect S512x128 := Rect.unit (s := S512x128) ![0, 0] S512x128.size inb_S512x128_S512x128_0_0

/-! ## What the body leaves in the output window's buffer -/

/-- The output buffer after the body, from the input blocks: its one store, of the body's pure value of the loads. -/
def left1 (x0 : Vec F S512x128 .bf16) (x1 : Vec F S2048x128 .bf16) (x2 : Vec F S2048x128 .bf16) : Vec F S512x128 .bf16 :=
  View.canon [⟨rout1, k1_pay1 (View.ld x0 rin1_0) (View.ld x1 rin1_1) (View.ld x2 rin1_2)⟩]

/-- The store covers the whole buffer. -/
theorem covers1 (p0 : Vec F S512x128 .bf16) (y : S512x128.Idx) :
    ∃ pc ∈ ([⟨rout1, p0⟩] : List (View.Piece (Elt F) S512x128 .bf16)), y ∈ pc.1.set :=
  View.cover_of_tiled [⟨rout1, p0⟩] S512x128.size (by rfl) y

/-! ## The body's triple -/

set_option maxHeartbeats 1000000 in
/-- The body on whole staging buffers, the inputs' at contents `x0 x1 x2` and the output's at anything, runs to the
    continuation holding the inputs' as they were and the output's at `left1 x0 x1 x2`. -/
theorem body1_triple (c : Dev nD) (E : Set ℕ) (i : grid1.Coords)
    (arg0 : Memref sig .tc .vmem S512x128 .bf16) (harg0 : arg0.IsWhole) (arg1 : Memref sig .tc .vmem S2048x128 .bf16) (harg1 : arg1.IsWhole)
    (arg2 : Memref sig .tc .vmem S2048x128 .bf16) (harg2 : arg2.IsWhole) (arg3 : Memref sig .tc .vmem S512x128 .bf16) (harg3 : arg3.IsWhole)
    (x0 : Vec F S512x128 .bf16) (x1 : Vec F S2048x128 .bf16) (x2 : Vec F S2048x128 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (left1 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers1 _)

/-! ## The pipeline's bookkeeping -/

/-- The region's data on core `c`: the arrays as the region finds them; after the body at point `t` each input's
    buffer at its block and the output's at `left1` of the input blocks; the invariant is the scoped buffers no window
    stages and the generator register, untouched; nothing owed; the share of each input array held. -/
def data1 (c : Dev nD) : Dat τ (Elt F) Unit ℕ (UR sig nD τ) ℕ cfg1 c where
  A w := V c (Pipeline.arrRef spec1 w)
  after w t := match w with
    | ⟨0, _⟩ => block1 V c 0 t
    | ⟨1, _⟩ => block1 V c 1 t
    | ⟨2, _⟩ => block1 V c 2 t
    | ⟨3, _⟩ => left1 (block1 V c 0 t) (block1 V c 1 t) (block1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem data1_A (c : Dev nD) (w : Fin cfg1.W) : (data1 V c).A w = V c (Pipeline.arrRef spec1 w) := by
  dsimp only [data1]

theorem after1_0 (c : Dev nD) (t : Fin cfg1.N) : (data1 V c).after 0 t = block1 V c 0 t := by dsimp only [data1]
theorem after1_1 (c : Dev nD) (t : Fin cfg1.N) : (data1 V c).after 1 t = block1 V c 1 t := by dsimp only [data1]
theorem after1_2 (c : Dev nD) (t : Fin cfg1.N) : (data1 V c).after 2 t = block1 V c 2 t := by dsimp only [data1]
theorem after1_3 (c : Dev nD) (t : Fin cfg1.N) :
    (data1 V c).after 3 t = left1 (block1 V c 0 t) (block1 V c 1 t) (block1 V c 2 t) := by dsimp only [data1]

theorem found1_0 (c : Dev nD) (t : Fin cfg1.N) (d) : (data1 V c).before 0 t d = block1 V c 0 t :=
  found1_0_of V (data1 V c) (data1_A V c 0) (after1_0 V c) t d
theorem found1_1 (c : Dev nD) (t : Fin cfg1.N) (d) : (data1 V c).before 1 t d = block1 V c 1 t :=
  found1_1_of V (data1 V c) (data1_A V c 1) (after1_1 V c) t d
theorem found1_2 (c : Dev nD) (t : Fin cfg1.N) (d) : (data1 V c).before 2 t d = block1 V c 2 t :=
  found1_2_of V (data1 V c) (data1_A V c 2) (after1_2 V c) t d

/-! ## The body obligation, at a generic point -/

/-- What the body is called with at point `t`, the windows one by one, -/
def pre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d)))

/-- and what it returns. -/
def post1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t))

/-- The body at any point: the inputs' buffers hold their blocks, so the triple applies; the invariant and what the
    core owes pass through unread. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [found1_0, found1_1, found1_2]
  rw [show (data1 V c).Φ t.succ = (data1 V c).Φ t.castSucc from rfl,
    show (data1 V c).owesAt () t.succ = (data1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (body1_triple c Set.univ _ _ _ _ _ _ _ _ _ (block1 V c 0 t) (block1 V c 1 t) (block1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem obligation1 (c : Dev nD) : BodyObligation (data1 (F := F) V c) (defs₀ (F := F)) Variants.none () Set.univ := fun t => by
  rw [bigSep_W1, bigSep_W1]
  exact body1_at V c t

end Cert.KernelIdeal.Region1

end
-- ==== Proof.IdealShared1.lean ====
/-
  Region 1's four windows sit on TWO buffers: the query, key and value windows all read the fused projection's array, the
  output window writes the attention's. The projection's buffer, held whole, is split into three shares, one per
  reading window, when the region is entered, and the three shares are joined again when it is left.
-/
import proofs.«180565_j20023137534549_2_alg».proof.Proof.IdealRegion1

set_option maxRecDepth 16384

noncomputable section

namespace Cert.KernelIdeal.Region1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig Unit (Elt F) ℕ (UR sig nD τ) ℕ

/-- The two buffers behind the four windows. -/
theorem buffers1 : Finset.univ.image (Pipeline.arrRef spec1) = ({main_v5, main_v6} : Finset (Ref sig .tc)) := by decide

variable (V : (c : Dev nD) → (b : Ref sig .tc) → Buf (Elt F) ((c : Thread nD τ).loc b))

/-- A buffer held whole is three shares of it, -/
theorem thirds_split (ℓ : Loc nD τ sig) (f : ℓ.ty.Contents (Elt F)) :
    (ℓ ↦{fullShare} f : sProp 𝕄) ⊢ iprop((ℓ ↦{fullShare.left} f) ∗ (ℓ ↦{fullShare.right.left} f) ∗ ℓ ↦{fullShare.right.right} f) := by
  iintro H
  ihave H' := (pointsTo_share (PosShare.mem_left_op_right fullShare)).1 $$ H
  icases H' with ⟨Hl, Hr⟩
  ihave H'' := (pointsTo_share (PosShare.mem_left_op_right fullShare.right)).1 $$ Hr
  icases H'' with ⟨Hrl, Hrr⟩
  isplitl [Hl]; · iexact Hl
  isplitl [Hrl]; · iexact Hrl
  iexact Hrr

/-- and the three shares are the buffer held whole. -/
theorem thirds_join (ℓ : Loc nD τ sig) (f : ℓ.ty.Contents (Elt F)) :
    iprop((ℓ ↦{fullShare.left} f) ∗ (ℓ ↦{fullShare.right.left} f) ∗ ℓ ↦{fullShare.right.right} f) ⊢ (ℓ ↦{fullShare} f : sProp 𝕄) := by
  iintro ⟨Hl, Hrl, Hrr⟩
  iapply (pointsTo_share (PosShare.mem_left_op_right fullShare)).2
  isplitl [Hl]; · iexact Hl
  iapply (pointsTo_share (PosShare.mem_left_op_right fullShare.right)).2
  isplitl [Hrl] <;> iassumption

/-- The region's arrays, window by window: the projection's buffer at three shares, the attention's whole. -/
theorem arrays1_eq (c : Dev nD) (Fv : (w : Fin cfg1.W) → Buf (Elt F) ((cfg1.win w).arr.view.loc (c : Thread nD τ))) :
    (data1 V c).arrays Fv
      = iprop((((c : Thread nD τ).loc main_v5) ↦{fullShare.left} Fv 0) ∗ (((c : Thread nD τ).loc main_v5) ↦{fullShare.right.left} Fv 1)
          ∗ (((c : Thread nD τ).loc main_v5) ↦{fullShare.right.right} Fv 2) ∗ (((c : Thread nD τ).loc main_v6) ↦{fullShare} Fv 3)) := by
  unfold Dat.arrays
  rw [bigSep_W1, (arr_whole1 0).set_eq_univ, (arr_whole1 3).set_eq_univ]
  rfl

/-- The two buffers held whole at the contents `V` are the region's arrays at the same contents. -/
theorem arrays1_split (c : Dev nD) :
    (Pipeline.arrBufs (Ix := Unit) (Name := ℕ) (U := UR sig nD τ) (Lvl := ℕ) spec1 c (V c) : sProp 𝕄)
      ⊢ (data1 V c).arrays (fun w => V c (Pipeline.arrRef spec1 w)) := by
  rw [arrays1_eq]
  unfold Pipeline.arrBufs
  rw [buffers1, bigSep_insert (by decide), bigSep_singleton]
  show iprop((((c : Thread nD τ).loc main_v5) ↦{fullShare} V c main_v5) ∗ (((c : Thread nD τ).loc main_v6) ↦{fullShare} V c main_v6)) ⊢ _
  iintro ⟨H5, H6⟩
  ihave H := thirds_split _ _ $$ H5
  icases H with ⟨Hl, Hrl, Hrr⟩
  isplitl [Hl]; · iexact Hl
  isplitl [Hrl]; · iexact Hrl
  isplitl [Hrr]; · iexact Hrr
  iexact H6

/-- The region's arrays at the contents `V` are the two buffers held whole at `V`. -/
theorem arrays1_join (c : Dev nD) :
    (data1 V c).arrays (fun w => V c (Pipeline.arrRef spec1 w))
      ⊢ (Pipeline.arrBufs (Ix := Unit) (Name := ℕ) (U := UR sig nD τ) (Lvl := ℕ) spec1 c (V c) : sProp 𝕄) := by
  rw [arrays1_eq]
  unfold Pipeline.arrBufs
  rw [buffers1, bigSep_insert (by decide), bigSep_singleton]
  show _ ⊢ iprop((((c : Thread nD τ).loc main_v5) ↦{fullShare} V c main_v5) ∗ (((c : Thread nD τ).loc main_v6) ↦{fullShare} V c main_v6))
  iintro ⟨Hl, Hrl, Hrr, H6⟩
  isplitl [Hl Hrl Hrr]
  · iapply thirds_join
    isplitl [Hl]; · iexact Hl
    isplitl [Hrl]; · iexact Hrl
    iexact Hrr
  iexact H6

end Cert.KernelIdeal.Region1

end
-- ==== Proof.IdealRegion2.lean ====
/-
  Region 2 of the program (the output projection: a block of rows times a block of weight rows, plus the bias), at a parameter `V`: the contents of the core's buffers when the region is entered.

  * `block2 V c w t`: window `w`'s block at grid point `t`, read off its array.
  * `left2 x0 x1 x2`: what the body leaves in the output window's buffer, from the three input blocks: its single
    store, the pure value `k2_pay1` of the three loads.
  * `body2_triple`: the body, run on whole staging buffers holding the input blocks, ends with the inputs as they were
    and the output's buffer at `left2` of them.
  * `data2`: the pipeline's bookkeeping — the arrays as the region finds them, each input's buffer left at its block,
    the output's at `left2`, nothing owed, and which share of each array a window holds.
  * `obligation2`: at every grid point the body meets what the pipeline asks of it.
-/
import proofs.«180565_j20023137534549_2_alg».proof.Proof.Gen.KernelIdeal.Launch
import proofs.«180565_j20023137534549_2_alg».proof.Proof.Gen.KernelIdeal.Skeleton
import proofs.«180565_j20023137534549_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def block2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched point's
    index has not moved, and the body leaves the block in place. -/
theorem found2_0_of {c : Dev nD} (dat : Dat τ (Elt F) Unit ℕ (UR sig nD τ) ℕ cfg2 c) (hA : dat.A 0 = V c (Pipeline.arrRef spec2 0))
    (hafter : ∀ t, dat.after 0 t = block2 V c 0 t) (t : Fin cfg2.N) (d) : dat.before 0 t d = block2 V c 0 t :=
  (dat.before_in_eq_fetched 0 rfl (fun _ => rfl) (fun _ _ _ => rfl) (fun t => by rw [hafter]; unfold Dat.blockOf block2; rw [hA]; try rfl) t d).trans
    (by unfold Dat.fetched Dat.blockOf block2; rw [hA]; try rfl)

/-- Input window 1's current staging buffer holds its block at every point, fetched there or not: an unfetched point's
    index has not moved, and the body leaves the block in place. -/
theorem found2_1_of {c : Dev nD} (dat : Dat τ (Elt F) Unit ℕ (UR sig nD τ) ℕ cfg2 c) (hA : dat.A 1 = V c (Pipeline.arrRef spec2 1))
    (hafter : ∀ t, dat.after 1 t = block2 V c 1 t) (t : Fin cfg2.N) (d) : dat.before 1 t d = block2 V c 1 t :=
  (dat.before_in_eq_fetched 1 rfl (fun _ => rfl) (fun _ _ _ => rfl) (fun t => by rw [hafter]; unfold Dat.blockOf block2; rw [hA]; try rfl) t d).trans
    (by unfold Dat.fetched Dat.blockOf block2; rw [hA]; try rfl)

/-- Input window 2's current staging buffer holds its block at every point, fetched there or not: an unfetched point's
    index has not moved, and the body leaves the block in place. -/
theorem found2_2_of {c : Dev nD} (dat : Dat τ (Elt F) Unit ℕ (UR sig nD τ) ℕ cfg2 c) (hA : dat.A 2 = V c (Pipeline.arrRef spec2 2))
    (hafter : ∀ t, dat.after 2 t = block2 V c 2 t) (t : Fin cfg2.N) (d) : dat.before 2 t d = block2 V c 2 t :=
  (dat.before_in_eq_fetched 2 rfl (fun _ => rfl) (fun _ _ _ => rfl) (fun t => by rw [hafter]; unfold Dat.blockOf block2; rw [hA]; try rfl) t d).trans
    (by unfold Dat.fetched Dat.blockOf block2; rw [hA]; try rfl)

/-! ## The body's accesses: each buffer whole -/

abbrev rin2_0 : Rect S1024x2048 := Rect.unit (s := S1024x2048) ![0, 0] S1024x2048.size inb_S1024x2048_S1024x2048_0_0
abbrev rin2_1 : Rect S512x2048 := Rect.unit (s := S512x2048) ![0, 0] S512x2048.size inb_S512x2048_S512x2048_0_0
abbrev rin2_2 : Rect S1x512 := Rect.unit (s := S1x512) ![0, 0] S1x512.size inb_S1x512_S1x512_0_0
abbrev rout2 : Rect S1024x512 := Rect.unit (s := S1024x512) ![0, 0] S1024x512.size inb_S1024x512_S1024x512_0_0

/-! ## What the body leaves in the output window's buffer -/

/-- The output buffer after the body, from the input blocks: its one store, of the body's pure value of the loads. -/
def left2 (x0 : Vec F S1024x2048 .bf16) (x1 : Vec F S512x2048 .bf16) (x2 : Vec F S1x512 .f32) : Vec F S1024x512 .f32 :=
  View.canon [⟨rout2, k2_pay1 (View.ld x0 rin2_0) (View.ld x1 rin2_1) (View.ld x2 rin2_2)⟩]

/-- The store covers the whole buffer. -/
theorem covers2 (p0 : Vec F S1024x512 .f32) (y : S1024x512.Idx) :
    ∃ pc ∈ ([⟨rout2, p0⟩] : List (View.Piece (Elt F) S1024x512 .f32)), y ∈ pc.1.set :=
  View.cover_of_tiled [⟨rout2, p0⟩] S1024x512.size (by rfl) y

/-! ## The body's triple -/

set_option maxHeartbeats 1000000 in
/-- The body on whole staging buffers, the inputs' at contents `x0 x1 x2` and the output's at anything, runs to the
    continuation holding the inputs' as they were and the output's at `left2 x0 x1 x2`. -/
theorem body2_triple (c : Dev nD) (E : Set ℕ) (i : grid2.Coords)
    (arg0 : Memref sig .tc .vmem S1024x2048 .bf16) (harg0 : arg0.IsWhole) (arg1 : Memref sig .tc .vmem S512x2048 .bf16) (harg1 : arg1.IsWhole)
    (arg2 : Memref sig .tc .vmem S1x512 .f32) (harg2 : arg2.IsWhole) (arg3 : Memref sig .tc .vmem S1024x512 .f32) (harg3 : arg3.IsWhole)
    (x0 : Vec F S1024x2048 .bf16) (x1 : Vec F S512x2048 .bf16) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (left2 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers2 _)

/-! ## The pipeline's bookkeeping -/

/-- The region's data on core `c`: the arrays as the region finds them; after the body at point `t` each input's
    buffer at its block and the output's at `left2` of the input blocks; the invariant is the scoped buffers no window
    stages and the generator register, untouched; nothing owed; the share of each input array held. -/
def data2 (c : Dev nD) : Dat τ (Elt F) Unit ℕ (UR sig nD τ) ℕ cfg2 c where
  A w := V c (Pipeline.arrRef spec2 w)
  after w t := match w with
    | ⟨0, _⟩ => block2 V c 0 t
    | ⟨1, _⟩ => block2 V c 1 t
    | ⟨2, _⟩ => block2 V c 2 t
    | ⟨3, _⟩ => left2 (block2 V c 0 t) (block2 V c 1 t) (block2 V c 2 t)
  Φ _ := Pipeline.ΦA spec2 c
  q w := fullShare
  owed _ := 0

theorem data2_A (c : Dev nD) (w : Fin cfg2.W) : (data2 V c).A w = V c (Pipeline.arrRef spec2 w) := by
  dsimp only [data2]

theorem after2_0 (c : Dev nD) (t : Fin cfg2.N) : (data2 V c).after 0 t = block2 V c 0 t := by dsimp only [data2]
theorem after2_1 (c : Dev nD) (t : Fin cfg2.N) : (data2 V c).after 1 t = block2 V c 1 t := by dsimp only [data2]
theorem after2_2 (c : Dev nD) (t : Fin cfg2.N) : (data2 V c).after 2 t = block2 V c 2 t := by dsimp only [data2]
theorem after2_3 (c : Dev nD) (t : Fin cfg2.N) :
    (data2 V c).after 3 t = left2 (block2 V c 0 t) (block2 V c 1 t) (block2 V c 2 t) := by dsimp only [data2]

theorem found2_0 (c : Dev nD) (t : Fin cfg2.N) (d) : (data2 V c).before 0 t d = block2 V c 0 t :=
  found2_0_of V (data2 V c) (data2_A V c 0) (after2_0 V c) t d
theorem found2_1 (c : Dev nD) (t : Fin cfg2.N) (d) : (data2 V c).before 1 t d = block2 V c 1 t :=
  found2_1_of V (data2 V c) (data2_A V c 1) (after2_1 V c) t d
theorem found2_2 (c : Dev nD) (t : Fin cfg2.N) (d) : (data2 V c).before 2 t d = block2 V c 2 t :=
  found2_2_of V (data2 V c) (data2_A V c 2) (after2_2 V c) t d

/-! ## The body obligation, at a generic point -/

/-- What the body is called with at point `t`, the windows one by one, -/
def pre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d)))

/-- and what it returns. -/
def post2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t))

/-- The body at any point: the inputs' buffers hold their blocks, so the triple applies; the invariant and what the
    core owes pass through unread. -/
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [found2_0, found2_1, found2_2]
  rw [show (data2 V c).Φ t.succ = (data2 V c).Φ t.castSucc from rfl,
    show (data2 V c).owesAt () t.succ = (data2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (body2_triple c Set.univ _ _ _ _ _ _ _ _ _ (block2 V c 0 t) (block2 V c 1 t) (block2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem obligation2 (c : Dev nD) : BodyObligation (data2 (F := F) V c) (defs₀ (F := F)) Variants.none () Set.univ := fun t => by
  rw [bigSep_W2, bigSep_W2]
  exact body2_at V c t

end Cert.KernelIdeal.Region2

end
-- ==== Proof.IdealRun.lean ====
/-
  The whole run of the program: five stretches in order — the host's reshapes and format changes, the fused projection,
  the attention, the output projection, the host's last reshape.

  Between two stretches a core holds every unscoped buffer whole at a known valuation: `B0` the launch memory, `B1`
  after the first host stretch, `B2`, `B3`, `B4` after each region (the region's output array at what the pipeline's
  write-backs leave, every other buffer as it was), `B5` after the last reshape. Each region is entered from the
  valuation before it and left at the one after it; region 1's three reading windows share the projection's buffer,
  which is split into three shares on entry and joined on exit.

  `run_all`: every weakly fair execution from memory `m` with zero counters terminates, and every unscoped buffer
  ends at `B5`. The frame (the arguments end as launched) and the result's value are read off it.
-/
import proofs.«180565_j20023137534549_2_alg».proof.Proof.IdealRegion0
import proofs.«180565_j20023137534549_2_alg».proof.Proof.IdealShared1
import proofs.«180565_j20023137534549_2_alg».proof.Proof.IdealRegion2
import proofs.«180565_j20023137534549_2_alg».proof.Proof.Gen.KernelIdeal.Regions

set_option maxRecDepth 16384

noncomputable section

namespace Cert.KernelIdeal.Run

open Cert.KernelIdeal Cert.KernelIdeal.Gen Cert.KernelIdeal.Region0 Cert.KernelIdeal.Region1 Cert.KernelIdeal.Region2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the first host stretch. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After region 0: its arrays at what the pipeline leaves, every other buffer as entered. -/
def B2 (c : Dev nD) : Valuation τ sig (Elt F) :=
  Pipeline.withArrays spec0 c (B1 m ρ c) fun w => (data0 (E1 m ρ) c).arrAt w cfg0.N
theorem B2_arr (c : Dev nD) (w : Fin cfg0.W) :
    B2 m ρ c (Proc.devRef .tc (Pipeline.arrRef spec0 w)) = (data0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem left0 (c : Dev nD) (w : Fin cfg0.W) : (data0 (E1 m ρ) c).arrAt w cfg0.N = E2 m ρ c (Pipeline.arrRef spec0 w) :=
  (B2_arr m ρ c w).symm
theorem kept0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After region 1: the attention's array at what the pipeline leaves, every other buffer (the projection's too: the
    region only reads it) as entered. -/
def B3 (c : Dev nD) : Valuation τ sig (Elt F) :=
  Function.update (B2 m ρ c) (Proc.devRef .tc main_v6) ((data1 (E2 m ρ) c).arrAt 3 cfg1.N)
theorem B3_out (c : Dev nD) : B3 m ρ c (Proc.devRef .tc main_v6) = (data1 (E2 m ρ) c).arrAt 3 cfg1.N := by
  unfold B3; exact Function.update_self ..
theorem B3_of_ne (c : Dev nD) (b : Ref sig .tc) (hb : b ≠ main_v6) :
    B3 m ρ c (Proc.devRef .tc b) = B2 m ρ c (Proc.devRef .tc b) := by
  unfold B3; exact Function.update_of_ne (StableHlo.devRef_ne_of_ne hb) ..
abbrev E3 : (c : Dev nD) → (b : Ref sig .tc) → Buf (Elt F) ((c : Thread nD τ).loc b) := fun c b => B3 m ρ c b
/-- What region 1 leaves in each window's array is the next valuation there: a reading window's array is as entered. -/
theorem left1 (c : Dev nD) (w : Fin cfg1.W) : (data1 (E2 m ρ) c).arrAt w cfg1.N = E3 m ρ c (Pipeline.arrRef spec1 w) := by
  match w with
  | ⟨0, _⟩ => exact (((data1 (E2 m ρ) c).arrAt_in 0 rfl _).trans (data1_A (E2 m ρ) c 0)).trans (B3_of_ne m ρ c main_v5 (by decide)).symm
  | ⟨1, _⟩ => exact (((data1 (E2 m ρ) c).arrAt_in 1 rfl _).trans (data1_A (E2 m ρ) c 1)).trans (B3_of_ne m ρ c main_v5 (by decide)).symm
  | ⟨2, _⟩ => exact (((data1 (E2 m ρ) c).arrAt_in 2 rfl _).trans (data1_A (E2 m ρ) c 2)).trans (B3_of_ne m ρ c main_v5 (by decide)).symm
  | ⟨3, _⟩ => exact (B3_out m ρ c).symm
theorem kept1 (c : Dev nD) : ∀ b, b ∉ Finset.univ.image (Pipeline.arrRef spec1) → E3 m ρ c b = E2 m ρ c b :=
  fun b hb => B3_of_ne m ρ c b fun e => hb (by rw [buffers1, e]; decide)

/-- After region 2. -/
def B4 (c : Dev nD) : Valuation τ sig (Elt F) :=
  Pipeline.withArrays spec2 c (B3 m ρ c) fun w => (data2 (E3 m ρ) c).arrAt w cfg2.N
theorem B4_arr (c : Dev nD) (w : Fin cfg2.W) :
    B4 m ρ c (Proc.devRef .tc (Pipeline.arrRef spec2 w)) = (data2 (E3 m ρ) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m ρ c (Proc.devRef .tc b) = B3 m ρ c (Proc.devRef .tc b) := by
  unfold B4; exact Pipeline.withArrays_of_ne spec2 c _ _ b hb
abbrev E4 : (c : Dev nD) → (b : Ref sig .tc) → Buf (Elt F) ((c : Thread nD τ).loc b) := fun c b => B4 m ρ c b
theorem left2 (c : Dev nD) (w : Fin cfg2.W) : (data2 (E3 m ρ) c).arrAt w cfg2.N = E4 m ρ c (Pipeline.arrRef spec2 w) :=
  (B4_arr m ρ c w).symm
theorem kept2 (c : Dev nD) : ∀ b, b ∉ Finset.univ.image (Pipeline.arrRef spec2) → E4 m ρ c b = E3 m ρ c b :=
  fun b hb => B4_of_ne m ρ c b fun w e => hb (Finset.mem_image.mpr ⟨w, Finset.mem_univ _, e⟩)

/-- After the last host stretch. -/
abbrev B5 : Dev nD → Valuation τ sig (Elt F) := fun c => StableHlo.after hostOps3 (B4 m ρ c)

/-! ## The proof data of the three pipelines, and what rides along -/

/-- Each pipeline's data at its region's entry contents. -/
def family : (p : Fin 3) → (c : Dev nD) → Dat τ (Elt F) Unit ℕ (UR sig nD τ) ℕ (Pipeline.pin (pcfgs (F := F)) adm p) c
  | ⟨0, _⟩ => fun c => data0 (E1 m ρ) c
  | ⟨1, _⟩ => fun c => data1 (E2 m ρ) c
  | ⟨2, _⟩ => fun c => data2 (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and nothing owed. -/
abbrev Rest (c : Dev nD) : sProp 𝕄 := iprop((∃ r, prngReg c r) ∗ ∃ W, owes (c : Thread nD τ) (0 : CellTallies nD τ sig Unit) W)
/-- A host stretch as a segment over the unscoped buffers from the valuation `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0: entered from every unscoped buffer at `B1`, left at `B2`. Its arrays are split out of the unscoped
    buffers and put back at what the pipeline leaves; the generator register goes into the invariant and comes back;
    nothing is owed; the kernel has no semaphore of its own. -/
def region0 : Pipeline.RegionSeg (pcfgs (F := F)) adm (family m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (family m ρ) launch0.win launch0.arr_whole c
      ((family m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (family m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (family m ρ) ((family m ρ 0 c).share_full fun _ => rfl)
      (E1 m ρ c) (E2 m ρ c) ((family m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `B2`, left at `B3`. The two buffers behind its windows are split
    out of the unscoped buffers, the projection's into the three reading windows' shares; at the exit the shares are
    joined and the buffers put back, the attention's at what the pipeline leaves. -/
def region1 : Pipeline.RegionSeg (pcfgs (F := F)) adm (family m ρ) () defs₀ 𝒱₀ L lv 1 where
  win := winFacts₀1
  block_pos := block_pos1
  stage_whole := stage_whole1
  K := PEmpty
  osem k := k.elim
  ho := Pipeline.OwnSemFacts.none _
  hbody c := (obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ Rest c)
  post c := iprop(StableHlo.held (c : Thread nD τ) (Pipeline.ucRefs τ sig) (B3 m ρ c) ∗ Rest c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit : (unscopedBufs c (E2 m ρ c) : sProp 𝕄)
        ⊢ iprop((data1 (E2 m ρ) c).arrays (fun w => E2 m ρ c (Pipeline.arrRef spec1 w))
            ∗ Pipeline.unscopedRest (Ix := Unit) (Name := ℕ) (U := UR sig nD τ) (Lvl := ℕ) spec1 c (E2 m ρ c)) := by
      rw [Pipeline.unscopedBufs_split₀ cfgs 1 winFacts₀1.arr_unscoped c (E2 m ρ c)]
      exact sep_mono (arrays1_split (E2 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (family m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((family m ρ 1 c).arrays (fun w => E3 m ρ c (Pipeline.arrRef spec1 w))
          ∗ Pipeline.unscopedRest (Ix := Unit) (Name := ℕ) (U := UR sig nD τ) (Lvl := ℕ) spec1 c (E2 m ρ c))
        ⊢ (unscopedBufs c (E3 m ρ c) : sProp 𝕄) := by
      show iprop((data1 (E2 m ρ) c).arrays (fun w => E3 m ρ c (Pipeline.arrRef spec1 w))
          ∗ Pipeline.unscopedRest (Ix := Unit) (Name := ℕ) (U := UR sig nD τ) (Lvl := ℕ) spec1 c (E2 m ρ c)) ⊢ _
      rw [Pipeline.unscopedBufs_split₀ cfgs 1 winFacts₀1.arr_unscoped c (E3 m ρ c)]
      refine sep_mono ?_ (Entails.of_eq ?_)
      · have h := arrays1_join (E3 m ρ) c
        exact h
      · unfold Pipeline.unscopedRest
        exact bigSep_congr fun b hb => by rw [kept1 m ρ c b (Finset.mem_sdiff.mp hb).2]
    rw [Pipeline.unscopedBufs_held] at hjoin
    rw [show (fun x => (family m ρ 1 c).arrAt x (Pipeline.pin (pcfgs (F := F)) adm 1).N) = fun w => E3 m ρ c (Pipeline.arrRef spec1 w) from funext (left1 m ρ c)]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `B3`, left at `B4`. Its arrays are split out of the unscoped
    buffers and put back at what the pipeline leaves; the generator register goes into the invariant and comes back;
    nothing is owed; the kernel has no semaphore of its own. -/
def region2 : Pipeline.RegionSeg (pcfgs (F := F)) adm (family m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (E3 m ρ) c).loose
  hwaits := Pipeline.hwaits_of_owed_zero _ _ _ _ L lv 2 fun _ _ => rfl
  pre c := iprop(StableHlo.held (c : Thread nD τ) (Pipeline.ucRefs τ sig) (B3 m ρ c) ∗ Rest c)
  post c := iprop(StableHlo.held (c : Thread nD τ) (Pipeline.ucRefs τ sig) (B4 m ρ c) ∗ Rest c)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) adm (family m ρ) launch2.win launch2.arr_whole c
      ((family m ρ 2 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (family m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (family m ρ) ((family m ρ 2 c).share_full fun _ => rfl)
      (E3 m ρ c) (E4 m ρ c) ((family m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The five segments in order. -/
abbrev segs : List (Pipeline.Seg (pcfgs (F := F)) adm (family m ρ) () defs₀ 𝒱₀ L lv) :=
  [ .host (hostSeg hostOps0 hostOps0_sub hostOps0_fresh (B0 m ρ)),
    .region (region0 m ρ),
    .region (region1 m ρ),
    .region (region2 m ρ),
    .host (hostSeg hostOps3 hostOps3_sub hostOps3_fresh (B4 m ρ)) ]
/-- The program is the run of its segments. -/
theorem main_run (c : Dev nD) : main (F := F) c = Pipeline.Seg.run (segs m ρ) := (main_chain c).trans (by chain_rfl)

/-- The last thread state without what is owed: every unscoped buffer at `B5`, the generator register at some state. -/
abbrev Last (c : Dev nD) : sProp 𝕄 := iprop(StableHlo.held (c : Thread nD τ) (Pipeline.ucRefs τ sig) (B5 m ρ c) ∗ ∃ r, prngReg c r)

set_option backward.isDefEq.respectTransparency.types false in
/-- From any memory with zero counters, every weakly fair execution of the program terminates, nothing faulting, and
    every unscoped buffer of every core ends at `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (family m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Last m ρ)
    (hch := ⟨fun _ => .rfl, fun _ => .rfl, fun _ => .rfl, fun _ => .rfl, fun _ => .rfl, fun c => by
      show iprop(StableHlo.held (c : Thread nD τ) (Pipeline.ucRefs τ sig) (B5 m ρ c) ∗ Rest c)
        ⊢ iprop(Last m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

end Cert.KernelIdeal.Run

end
-- ==== Proof.IdealFrame.lean ====
/-
  The frame, read off the whole run: no host operation writes an argument array and no region's window sits on one
  (each region reads the host's reshaped or re-formatted copies), so the last valuation at an argument's buffer walks
  back, stretch by stretch, to the launch memory.
-/
import proofs.«180565_j20023137534549_2_alg».proof.Proof.IdealRun

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F] [Named F]

variable (m : (ℓ : Loc nD τ sig) → Buf (Elt F) ℓ) (ρ : Dev nD → PrngReg)

/-- A buffer that no host stretch writes and that is no array of any region ends as launched. -/
theorem B5_untouched (c : Dev nD) (r : Ref sig .tc) (h3 : r ∉ hostOps3_W) (h2 : ∀ w, Pipeline.arrRef spec2 w ≠ r) (h1 : r ≠ main_v6)
    (h0 : ∀ w, Pipeline.arrRef spec0 w ≠ r) (hh : r ∉ hostOps0_W) :
    B5 m ρ c (Proc.devRef .tc r) = m ((c : Thread nD τ).loc r) :=
  (StableHlo.after_of_writes_sub hostOps3 _ hostOps3_writes h3).trans <|
    (B4_of_ne m ρ c r h2).trans <| (B3_of_ne m ρ c r h1).trans <| (B2_of_ne m ρ c r h0).trans <|
      (StableHlo.after_of_writes_sub hostOps0 _ hostOps0_writes hh).trans rfl

theorem B5_main_arg0 (c : Dev nD) : B5 m ρ c (Proc.devRef .tc main_arg0) = m ((c : Thread nD τ).loc main_arg0) :=
  B5_untouched m ρ c main_arg0 (by decide) (by decide) (by decide) (by decide) (by decide)
theorem B5_main_arg1 (c : Dev nD) : B5 m ρ c (Proc.devRef .tc main_arg1) = m ((c : Thread nD τ).loc main_arg1) :=
  B5_untouched m ρ c main_arg1 (by decide) (by decide) (by decide) (by decide) (by decide)
theorem B5_main_arg2 (c : Dev nD) : B5 m ρ c (Proc.devRef .tc main_arg2) = m ((c : Thread nD τ).loc main_arg2) :=
  B5_untouched m ρ c main_arg2 (by decide) (by decide) (by decide) (by decide) (by decide)
theorem B5_main_arg3 (c : Dev nD) : B5 m ρ c (Proc.devRef .tc main_arg3) = m ((c : Thread nD τ).loc main_arg3) :=
  B5_untouched m ρ c main_arg3 (by decide) (by decide) (by decide) (by decide) (by decide)
theorem B5_main_arg4 (c : Dev nD) : B5 m ρ c (Proc.devRef .tc main_arg4) = m ((c : Thread nD τ).loc main_arg4) :=
  B5_untouched m ρ c main_arg4 (by decide) (by decide) (by decide) (by decide) (by decide)

/-- Every weakly fair execution terminates, nothing faulting, with the result's buffer at the last valuation and each
    argument array as launched. -/
theorem run_result : θ_run defs (onTc (τ := τ) (main (F := F))) ⟨m, fun _ => 0, ρ⟩ (fun r => ∀ c : Dev nD,
      r.2.mem ((c.tc : Thread nD τ).loc main_v8) = B5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v8 (by decide)),
     (h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c),
     (h c _ (mem_uc main_arg3 (by decide))).trans (B5_main_arg3 m ρ c),
     (h c _ (mem_uc main_arg4 (by decide))).trans (B5_main_arg4 m ρ c)⟩) (run_all m ρ)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_result m ρ)

end Cert.KernelIdeal.Run

end
-- ==== Proof.Claims.lean ====
/-
  Four of the five conjuncts. The two kernels' frames are read off their whole runs; the reference has no kernel, and
  its frame is its run with the result dropped. The idealization rewrote one thing: the attention scale's literal,
  read as the exact reciprocal `1048576/11863283` of the reference's divisor; that is its one statement.
-/
import proofs.«180565_j20023137534549_2_alg».proof.Defs
import proofs.«180565_j20023137534549_2_alg».proof.Proof.WordFrame
import proofs.«180565_j20023137534549_2_alg».proof.Proof.IdealFrame
import proofs.«180565_j20023137534549_2_alg».proof.Proof.Gen.ReferenceIdeal
import proofs.«180565_j20023137534549_2_alg».proof.Proof.Gen.ReferenceIdeal.Run
import proofs.«180565_j20023137534549_2_alg».proof.Proof.Gen.Pre_finite_inputs
import Idealize.ShloMosaic.PureOps.IdealRules

noncomputable section

namespace Cert.Proof.Claims

open Idealize.ShloMosaic Idealize.ShloMosaic.TcCoe Idealize.SL.Sem

theorem frame_kernel : Cert.frame_Kernel := fun m ρ _ => Cert.Kernel.Run.frame (F := Bits) m ρ

theorem frame_kernelIdeal : Cert.frame_KernelIdeal := fun m ρ _ => Cert.KernelIdeal.Run.frame (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The table gives the scale's name the value `1048576/11863283`, and the printed constant is that value on the
    extended reals. -/
theorem preserves : Cert.preserves_Kernel_KernelIdeal :=
  IdealRules.named_const.statement Cert.KernelIdeal.κ "inv_sqrt_head_dim" .f32 0x3DB504F3#32 ((1048576 / 11863283 : ℝ) : EReal) rfl

end Cert.Proof.Claims

end
-- ==== Proof.Spec.lean ====
/-
  Multi-head self-attention with a fused query/key/value projection and an output projection, as ONE function of
  the five argument arrays on the extended reals.

  * `linear`: a layer `x · wᵀ + bias`, `(∑ h, X b s h · W o h) + B o`.
  * The fused projection has 6144 = 3 · 16 · 128 columns: component `j` (0 query, 1 key, 2 value), head `hd`, lane `d`
    sit in column `j · 2048 + hd · 128 + d` (`col`).
  * `attend`: one query row against 2048 key rows and value rows of 128 lanes. The score against key `k` is the dot
    product of the lanes times the scale `c`; the row of scores is shifted by its maximum and exponentiated, each
    exponential divided by the row's sum (a softmax), and the weights mix the value rows.
  * `merged`: the 16 heads side by side, channel `h = hd · 128 + d`; `attention`: the output projection of that.
  Every stage takes the stage before it as a PARAMETER, so each can be met on its own.
-/
import Idealize.ShloMosaic.PureOps.Ideal

noncomputable section

namespace Cert.Attention

open Idealize.ShloMosaic
open scoped BigOperators

/-- The column of the fused projection holding lane `d` of head `hd` of component `j`. -/
def col (j : Fin 3) (hd : Fin 16) (d : Fin 128) : Fin 6144 :=
  ⟨j.val * 2048 + hd.val * 128 + d.val, by have := j.isLt; have := hd.isLt; have := d.isLt; omega⟩

/-- The head a merged channel belongs to, and its lane there. -/
def headOf (h : Fin 2048) : Fin 16 := ⟨h.val / 128, by have := h.isLt; omega⟩
def laneOf (h : Fin 2048) : Fin 128 := ⟨h.val % 128, Nat.mod_lt _ (by decide)⟩

/-- A linear layer `x · wᵀ + bias` on rows of `n` channels. -/
def linear {n k : ℕ} (X : Fin 2 → Fin 2048 → Fin n → EReal) (W : Fin k → Fin n → EReal) (B : Fin k → EReal)
    (b : Fin 2) (s : Fin 2048) (o : Fin k) : EReal :=
  (∑ h : Fin n, X b s h * W o h) + B o

section Row

variable (qrow : Fin 128 → EReal) (K V : Fin 2048 → Fin 128 → EReal) (c : EReal)

/-- The scaled score of the query row against key row `k`. -/
def score (k : Fin 2048) : EReal := (∑ d : Fin 128, qrow d * K k d) * c

/-- The largest score of the row (the fold of `max` from `-∞`). -/
def rowMax : EReal := (Finset.univ : Finset (Fin 2048)).fold max ⊥ (fun k => score qrow K c k)

/-- A score shifted by the row's maximum, exponentiated. -/
def expo (k : Fin 2048) : EReal := Ideal.exp (score qrow K c k - rowMax qrow K c)

/-- The softmax weight: the exponential over the row's sum of exponentials. -/
def weight (k : Fin 2048) : EReal := Ideal.div (expo qrow K c k) (∑ k' : Fin 2048, expo qrow K c k')

/-- The weighted mix of the value rows, at lane `d`. -/
def attend (d : Fin 128) : EReal := ∑ k : Fin 2048, weight qrow K c k * V k d

end Row

/-- The heads laid side by side: channel `h` is lane `h % 128` of head `h / 128`, whose query, key and value lanes are
    columns of the fused projection `Y`. -/
def merged (Y : Fin 2 → Fin 2048 → Fin 6144 → EReal) (c : EReal) (b : Fin 2) (s : Fin 2048) (h : Fin 2048) : EReal :=
  attend (fun d => Y b s (col 0 (headOf h) d)) (fun k d => Y b k (col 1 (headOf h) d)) (fun k d => Y b k (col 2 (headOf h) d)) c
    (laneOf h)

/-- The whole layer. -/
def attention (X : Fin 2 → Fin 2048 → Fin 2048 → EReal) (Wq : Fin 6144 → Fin 2048 → EReal) (Bq : Fin 6144 → EReal)
    (Wo : Fin 2048 → Fin 2048 → EReal) (Bo : Fin 2048 → EReal) (c : EReal) (b : Fin 2) (s : Fin 2048) (o : Fin 2048) : EReal :=
  linear (merged (linear X Wq Bq) c) Wo Bo b s o

/-- The scale of the scores: the reciprocal of the divisor `11863283/1048576` (the single-precision word nearest `√128`). -/
def scale : EReal := ((1048576 / 11863283 : ℝ) : EReal)

end Cert.Attention

end
-- ==== Proof.Rows.lean ====
/-
  The batch of 2 sequences of 2048 positions laid out as 4096 rows: position `s` of sequence `b` is row `b · 2048 + s`.
-/
import Mathlib.Data.Fin.Basic

namespace Cert.Attention

/-- The row of position `s` of sequence `b`. -/
def row (b : Fin 2) (s : Fin 2048) : Fin 4096 := ⟨b.val * 2048 + s.val, by have := b.isLt; have := s.isLt; omega⟩

end Cert.Attention
-- ==== Proof.Flat.lean ====
/-
  The flattened arrays of the layer, read by coordinates.

  The batch of 2 sequences of 2048 positions is laid out as 4096 rows: position `s` of sequence `b` is row
  `b · 2048 + s` (`row`); `batchOf` and `seqOf` take a row back to its sequence and position.
  * `linearAt`: entry `(r, o)` of `x · wᵀ + bias` for arrays given on coordinates, the bias a single row.
  * `mergedAt`: channel `h` of the merged heads at position `s` of sequence `b`, from the flattened fused projection
    `y` (4096 rows of 6144 columns): `Cert.Attention.attend` of the head's query row, key rows and value rows.
  Then the values of `col`, `headOf`, `laneOf` and `row` as natural numbers.
-/
import proofs.«180565_j20023137534549_2_alg».proof.Proof.Spec
import proofs.«180565_j20023137534549_2_alg».proof.Proof.Rows
import Idealize.ShloMosaic.Lib.ValueIdx

noncomputable section

open scoped BigOperators

namespace Cert.Attention

open Idealize.ShloMosaic Idealize.ShloMosaic.ValueIdx

/-- The sequence a row belongs to, and its position there. -/
def batchOf (r : Fin 4096) : Fin 2 := ⟨r.val / 2048, by have := r.isLt; omega⟩
def seqOf (r : Fin 4096) : Fin 2048 := ⟨r.val % 2048, Nat.mod_lt _ (by decide)⟩

theorem row_val (b : Fin 2) (s : Fin 2048) : (row b s).val = b.val * 2048 + s.val := rfl
theorem batchOf_val (r : Fin 4096) : (batchOf r).val = r.val / 2048 := rfl
theorem seqOf_val (r : Fin 4096) : (seqOf r).val = r.val % 2048 := rfl

theorem row_batchOf_seqOf (r : Fin 4096) : row (batchOf r) (seqOf r) = r :=
  Fin.ext (by show r.val / 2048 * 2048 + r.val % 2048 = r.val; omega)
theorem batchOf_row (b : Fin 2) (s : Fin 2048) : batchOf (row b s) = b :=
  Fin.ext (by show (b.val * 2048 + s.val) / 2048 = b.val; have := s.isLt; omega)
theorem seqOf_row (b : Fin 2) (s : Fin 2048) : seqOf (row b s) = s :=
  Fin.ext (by show (b.val * 2048 + s.val) % 2048 = s.val; have := s.isLt; omega)

theorem col0_val (hd : Fin 16) (d : Fin 128) : (col 0 hd d).val = hd.val * 128 + d.val := by
  show (0 : Fin 3).val * 2048 + hd.val * 128 + d.val = _
  rw [show (0 : Fin 3).val = 0 from rfl, Nat.zero_mul, Nat.zero_add]
theorem col1_val (hd : Fin 16) (d : Fin 128) : (col 1 hd d).val = 2048 + hd.val * 128 + d.val := by
  show (1 : Fin 3).val * 2048 + hd.val * 128 + d.val = _
  rw [show (1 : Fin 3).val = 1 from rfl, Nat.one_mul]
theorem col2_val (hd : Fin 16) (d : Fin 128) : (col 2 hd d).val = 4096 + hd.val * 128 + d.val := by
  show (2 : Fin 3).val * 2048 + hd.val * 128 + d.val = _
  rw [show (2 : Fin 3).val = 2 from rfl]
theorem headOf_val (h : Fin 2048) : (headOf h).val = h.val / 128 := rfl
theorem laneOf_val (h : Fin 2048) : (laneOf h).val = h.val % 128 := rfl

/-- Entry `(r, o)` of `x · wᵀ + bias`, the arrays given on coordinates and the bias a single row. -/
def linearAt {m n k : ℕ} (x : (⟨2, ![m, k]⟩ : Shape).Idx → EReal) (w : (⟨2, ![n, k]⟩ : Shape).Idx → EReal)
    (bias : (⟨2, ![1, n]⟩ : Shape).Idx → EReal) (r : Fin m) (o : Fin n) : EReal :=
  (∑ kk : Fin k, x (ix2 r kk) * w (ix2 o kk)) + bias (ix2 (0 : Fin 1) o)

/-- Channel `h` of the merged heads at position `s` of sequence `b`, from the flattened fused projection `y`. -/
def mergedAt (y : (⟨2, ![4096, 6144]⟩ : Shape).Idx → EReal) (c : EReal) (b : Fin 2) (s : Fin 2048) (h : Fin 2048) : EReal :=
  attend (fun d => y (ix2 (row b s) (col 0 (headOf h) d))) (fun k d => y (ix2 (row b k) (col 1 (headOf h) d)))
    (fun k d => y (ix2 (row b k) (col 2 (headOf h) d))) c (laneOf h)

/-- The merged heads of a flattened array are `merged` of the array read by sequence and position. -/
theorem mergedAt_eq_merged (y : (⟨2, ![4096, 6144]⟩ : Shape).Idx → EReal) (c : EReal) (b : Fin 2) (s : Fin 2048) (h : Fin 2048) :
    mergedAt y c b s h = merged (fun b s o => y (ix2 (row b s) o)) c b s h := rfl

end Cert.Attention

end
-- ==== Proof.LibTransposedDot.lean ====
/-
  A matrix product with the right operand transposed, read at an entry, on the extended reals.

  For the dimension numbers of an `M×K` by `N×K` product (`DotDims.transposedRhs M K N`: contract the second axis of
  the left operand with the second axis of the right operand, no batch axis; the result is `M×N`) — the product
  `l · rᵀ` — the sum over the contraction index of the operands' products at output entry `(p, j)` is
  `∑ k, l (p, k) * r (j, k)`: the contraction index is its one coordinate `k`, the left operand is read at row `p`,
  column `k`, the right at row `j`, column `k`. From it: a vector-unit matrix product into the zero accumulator
  (`matmul_zero_apply`), one into any accumulator (`matmul_apply`) and the host's `dot_general`
  (`dotGeneral_apply`) at `(p, j)`. A printed program's own record of these dimension numbers is
  `DotDims.transposedRhs` of its literal sizes by `rfl` (the records differ only in the proof of well-formedness).
-/
import Idealize.ShloMosaic.Lib.ValueIdx
import Idealize.ShloMosaic.PureOps.Ideal.Laws

noncomputable section

open scoped BigOperators

namespace Cert.Lib.TransposedDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- Right operand, axis 0: the output's column. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The left operand's index at output `(p, j)` and contraction coordinate `k` is `(p, k)`. -/
theorem lhsIdx_eq (p : Fin M) (j : Fin N) (k : Fin K) :
    (DotDims.transposedRhs M K N).lhsIdx (ix2 p j) ((contrEquiv1 (DotDims.transposedRhs M K N) K rfl rfl).symm k) = ix2 p k := by
  have hk := contrEquiv1_symm_val (DotDims.transposedRhs M K N) K rfl rfl k
  exact funext fun a => Fin.ext (by
    match a with
    | ⟨0, _⟩ => exact lhs0 _ _
    | ⟨1, _⟩ => exact ((DotDims.transposedRhs M K N).lhsIdx_val_of_single rfl _ _).trans hk)

/-- The right operand's index at output `(p, j)` and contraction coordinate `k` is `(j, k)`. -/
theorem rhsIdx_eq (p : Fin M) (j : Fin N) (k : Fin K) :
    (DotDims.transposedRhs M K N).rhsIdx (ix2 p j) ((contrEquiv1 (DotDims.transposedRhs M K N) K rfl rfl).symm k) = ix2 j k := by
  have hk := contrEquiv1_symm_val (DotDims.transposedRhs M K N) K rfl rfl k
  exact funext fun a => Fin.ext (by
    match a with
    | ⟨0, _⟩ => exact rhs0 _ _
    | ⟨1, _⟩ => exact ((DotDims.transposedRhs M K N).rhsIdx_val_of_single rfl _ _).trans hk)

/-- The contraction's sum at output `(p, j)` is the sum over the contracted coordinate. -/
theorem sum_eq (l : (⟨2, ![M, K]⟩ : Shape).Idx → EReal) (r : (⟨2, ![N, K]⟩ : Shape).Idx → EReal) (p : Fin M) (j : Fin N) :
    ∑ q : (DotDims.transposedRhs M K N).contr.Idx,
        l ((DotDims.transposedRhs M K N).lhsIdx (ix2 p j) q) * r ((DotDims.transposedRhs M K N).rhsIdx (ix2 p j) q)
      = ∑ k : Fin K, l (ix2 p k) * r (ix2 j k) := by
  rw [← Equiv.sum_comp (contrEquiv1 (DotDims.transposedRhs M K N) K rfl rfl).symm]
  refine Finset.sum_congr rfl fun k _ => ?_
  rw [lhsIdx_eq, rhsIdx_eq]

/-- A matrix product on the vector unit into the zero accumulator, at entry `(p, j)`. -/
theorem matmul_zero_apply (prec : Option ContractPrecision) (l : FVec Ideal ⟨2, ![M, K]⟩ φ₁) (r : FVec Ideal ⟨2, ![N, K]⟩ φ₂)
    (p : Fin M) (j : Fin N) :
    FloatOps.matmul (DotDims.transposedRhs M K N) prec l r (constant ⟨2, ![M, N]⟩ .f32 0x00000000#32) (ix2 p j)
      = ∑ k : Fin K, l (ix2 p k) * r (ix2 j k) := by
  rw [Ideal.matmul_constant_zero_apply]
  exact sum_eq l r p j

/-- A matrix product on the vector unit into any accumulator, at entry `(p, j)`: the accumulator there plus the sum. -/
theorem matmul_apply (prec : Option ContractPrecision) (l : FVec Ideal ⟨2, ![M, K]⟩ φ₁) (r : FVec Ideal ⟨2, ![N, K]⟩ φ₂)
    (acc : FVec Ideal ⟨2, ![M, N]⟩ .f32) (p : Fin M) (j : Fin N) :
    FloatOps.matmul (DotDims.transposedRhs M K N) prec l r acc (ix2 p j)
      = acc (ix2 p j) + ∑ k : Fin K, l (ix2 p k) * r (ix2 j k) := by
  rw [Ideal.matmul_apply]
  exact congrArg (acc (ix2 p j) + ·) (sum_eq l r p j)

/-- The host's `dot_general` at entry `(p, j)`, whatever its schedule. -/
theorem dotGeneral_apply (prec : Option ContractPrecision) (sched : HostSchedule) (l : FVec Ideal ⟨2, ![M, K]⟩ φ₁)
    (r : FVec Ideal ⟨2, ![N, K]⟩ φ₂) (p : Fin M) (j : Fin N) :
    FloatOps.dotGeneral (DotDims.transposedRhs M K N) prec sched l r (ix2 p j) = ∑ k : Fin K, l (ix2 p k) * r (ix2 j k) := by
  rw [Ideal.dotGeneral_apply]
  exact sum_eq l r p j

end Cert.Lib.TransposedDot

end
-- ==== Proof.PayProjection.lean ====
/-
  A linear layer's block read at an entry, on the extended reals.

  The block is `x · wᵀ + bias`: a 1024×2048 block of rows times the transpose of a 512×2048 block of weights, into a
  zero accumulator, plus the bias row `[1, 512]` repeated down the 1024 rows. On the extended reals a change of
  number format is the identity, so entry `(p, j)` is `(∑ k, x (p, k) * w (j, k)) + bias (0, j)`.
  `bias_row`: the repeated bias row at `(p, j)` is the row at `(0, j)`. `product_apply`: the product at `(p, j)`.
  `projection_apply`: the fused query/key/value projection's block (its rows arrive in single precision).
-/
import proofs.«180565_j20023137534549_2_alg».proof.Proof.Gen.KernelIdeal.Skeleton
import proofs.«180565_j20023137534549_2_alg».proof.Proof.LibTransposedDot
import Idealize.ShloMosaic.Lib.ValueIdx
import Idealize.ShloMosaic.Lib.Pipeline.Value

noncomputable section

open scoped BigOperators

namespace Cert.KernelIdeal.Payload

open Idealize.ShloMosaic Idealize.ShloMosaic.ValueIdx Cert.KernelIdeal

variable [Cert.KernelIdeal.Facts]

/-- The bias row `[1, 512]` repeated down 1024 rows reads, at `(p, j)`, the row at `(0, j)`. -/
theorem bias_row {α : Type} (b : S1x512.Idx → α) (h : S1x512.Broadcasts S1024x512) (p : Fin 1024) (j : Fin 512) :
    broadcastTo S1024x512 b h (ix2 p j) = b (ix2 (0 : Fin 1) j) := by
  refine broadcastTo_apply b h (ix2 p j) (ix2 (0 : Fin 1) j) fun ax => ?_
  match ax with
  | ⟨0, _⟩ => rfl
  | ⟨1, _⟩ => rfl

/-- The printed dimension numbers of the layer's product are those of an `M×K` by `N×K` product. -/
theorem dims_eq : dot_S1024x2048_S512x2048_S1024x512_1_1_0_0_n_n = DotDims.transposedRhs 1024 2048 512 := rfl

/-- The layer's product into the zero accumulator at `(p, j)`. -/
theorem product_apply {φ₁ φ₂ : FTy} (x : FVec Ideal S1024x2048 φ₁) (w : FVec Ideal S512x2048 φ₂) (p : Fin 1024) (j : Fin 512) :
    matmul dot_S1024x2048_S512x2048_S1024x512_1_1_0_0_n_n none x w (constant S1024x512 .f32 0x00000000#32) (ix2 p j)
      = ∑ k : Fin 2048, x (ix2 p k) * w (ix2 j k) :=
  Cert.Lib.TransposedDot.matmul_zero_apply none x w p j

/-- The fused projection's block at `(p, j)`. -/
theorem projection_apply (x0 : Vec Ideal S1024x2048 .f32) (x1 : Vec Ideal S512x2048 .bf16) (x2 : Vec Ideal S1x512 .f32)
    (p : Fin 1024) (j : Fin 512) :
    Cert.KernelIdeal.Gen.k0_pay1 (F := Ideal) x0 x1 x2 (ix2 p j)
      = (∑ k : Fin 2048, x0 (ix2 p k) * x1 (ix2 j k)) + x2 (ix2 (0 : Fin 1) j) := by
  unfold Cert.KernelIdeal.Gen.k0_pay1
  rw [truncf_apply, addf_apply, product_apply, bias_row, shapeCast_self, shapeCast_self, shapeCast_self]
  rfl

end Cert.KernelIdeal.Payload

end
-- ==== Proof.ValueProjection.lean ====
/-
  The fused query/key/value projection's array after its region, as one function of the arrays the region finds.

  The region runs the block `x · wᵀ + bias` at the 4 × 12 points of its grid: point `(i, j)` reads rows
  `[1024 i, 1024 (i + 1))` of `x` (4096 × 2048), rows `[512 j, 512 (j + 1))` of `w` (6144 × 2048) and entries
  `[512 j, 512 (j + 1))` of the bias row, and writes block `(i, j)` of the 4096 × 6144 output. The blocks tile the
  output, so after the region entry `(r, o)` is `(∑ k, x (r, k) * w (o, k)) + bias (0, o)` (`linearAt`).
-/
import proofs.«180565_j20023137534549_2_alg».proof.Proof.IdealRegion0
import proofs.«180565_j20023137534549_2_alg».proof.Proof.PayProjection
import proofs.«180565_j20023137534549_2_alg».proof.Proof.Flat
import Idealize.ShloMosaic.Lib.Pipeline.Value
import Idealize.ShloMosaic.Lib.ValueIdx

noncomputable section

open scoped BigOperators

namespace Cert.KernelIdeal.Whole

open Cert.Attention (linearAt)
open Cert.KernelIdeal Cert.KernelIdeal.Gen Cert.KernelIdeal.Region0 Cert.KernelIdeal.Payload
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The whole-buffer rectangles start at the origin. -/
theorem hz0 : (![0, 0] : Fin 2 → Nat) = fun _ => 0 := funext fun a => by fin_cases a <;> rfl

/-- What the output array ends holding: `x · wᵀ + bias` of the arrays the region finds, entry by entry. -/
def G0 (c : Dev nD) : S4096x6144.Idx → EReal := fun i =>
  linearAt (m := 4096) (n := 6144) (k := 2048) (V c main_v0) (V c main_v3) (V c main_v1) ⟨(i 0).val, idx2_lt0 i⟩ ⟨(i 1).val, idx2_lt1 i⟩

/-- The body's value at entry `(p, q)` of its block, when row `p` of the first block is row `r` of `x`, row `q` of the
    second is row `o` of `w` and entry `q` of the third is entry `o` of the bias: entry `(r, o)` of the layer. -/
theorem point0 (a0 : S4096x2048.Idx → EReal) (a1 : S6144x2048.Idx → EReal) (a2 : S1x6144.Idx → EReal)
    (x0 : Vec Ideal S1024x2048 .f32) (x1 : Vec Ideal S512x2048 .bf16) (x2 : Vec Ideal S1x512 .f32)
    (p : Fin 1024) (q : Fin 512) (r : Fin 4096) (o : Fin 6144)
    (h0 : ∀ k : Fin 2048, x0 (ix2 p k) = a0 (ix2 r k)) (h1 : ∀ k : Fin 2048, x1 (ix2 q k) = a1 (ix2 o k))
    (h2 : x2 (ix2 (0 : Fin 1) q) = a2 (ix2 (0 : Fin 1) o)) :
    k0_pay1 (F := Ideal) x0 x1 x2 (ix2 p q) = linearAt a0 a1 a2 r o := by
  rw [projection_apply, h2]
  unfold linearAt
  exact congrArg (· + a2 (ix2 (0 : Fin 1) o)) (Finset.sum_congr rfl fun k _ => by rw [h0, h1])

/-- The printed index maps, decided over the grid: the first window moves with the output's rows, the second and
    third with its columns, and the output's block at point `t` is `(t / 12, t % 12)`. -/
theorem idx_facts0 : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) = t.val / 12 ∧ win0_3.index t (1 : Fin 2) = t.val % 12 :=
  (by decide +kernel : ∀ t : Fin grid0.N, _)

/-- What point `t` writes back is block `t` of `G0`. -/
theorem flushed0_eq (c : Dev nD) (t : Fin cfg0.N) :
    (data0 (F := Ideal) V c).flushed 3 t = ((cfg0.win 3).blk t).view.read (Elt Ideal) (G0 V c) := by
  show (cfg0.win 3).cut (grid0.coords t) ((data0 V c).after 3 t) = _
  rw [after0_3]
  unfold left0
  rw [View.canon_unit_zero hz0]
  simp only [View.ld_unit_zero (S := S1024x2048) hz0, View.ld_unit_zero (S := S512x2048) hz0, View.ld_unit_zero (S := S1x512) hz0]
  funext j
  obtain ⟨p, q, rfl⟩ : ∃ (p : Fin 1024) (q : Fin 512), j = ix2 p q := ⟨j 0, j 1, eq_ix2 j⟩
  obtain ⟨e0, e1, e2, e3, e4, e5, e6, e7⟩ := idx_facts0 t
  show k0_pay1 (F := Ideal) (block0 V c 0 t) (block0 V c 1 t) (block0 V c 2 t) (ix2 p q)
    = G0 V c (((cfg0.win 3).blk t).view.emb (ix2 p q))
  unfold G0
  refine point0 _ _ _ _ _ _ p q _ _ (fun k => ?_) (fun k => ?_) ?_
  · show V c main_v0 (((cfg0.win 0).blk t).view.emb (ix2 p k)) = V c main_v0 (ix2 _ k)
    refine congrArg (V c main_v0) (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 2048 + 1 * k.val = k.val; omega
  · show V c main_v3 (((cfg0.win 1).blk t).view.emb (ix2 q k)) = V c main_v3 (ix2 _ k)
    refine congrArg (V c main_v3) (funext fun a => Fin.ext ?_)
    match a with
    | ⟨0, _⟩ => show win0_1.index t (0 : Fin 2) * 512 + 1 * q.val = win0_3.index t (1 : Fin 2) * 512 + 1 * q.val; omega
    | ⟨1, _⟩ => show win0_1.index t (1 : Fin 2) * 2048 + 1 * k.val = k.val; omega
  · show V c main_v1 (((cfg0.win 2).blk t).view.emb (ix2 (0 : Fin 1) q)) = V c main_v1 (ix2 (0 : Fin 1) _)
    refine congrArg (V c main_v1) (funext fun a => Fin.ext ?_)
    match a with
    | ⟨0, _⟩ => show win0_2.index t (0 : Fin 2) * 1 + 1 * 0 = 0; omega
    | ⟨1, _⟩ => show win0_2.index t (1 : Fin 2) * 512 + 1 * q.val = win0_3.index t (1 : Fin 2) * 512 + 1 * q.val; omega

/-- An index of the output array is in point `t`'s block iff each coordinate is in the block's range on its axis. -/
theorem mem_blk0 (t : Fin cfg0.N) (i : S4096x6144.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v5).slice (win0_3.rect t)).set ↔ _
  rw [View.set_slice_whole, Rect.mem_set_unit]
  exact Iff.rfl

/-- Every index of the output array is in some point's block: the point of its row block and column block. -/
theorem cover0 (i : S4096x6144.Idx) :
    ∃ t : Fin cfg0.N, (cfg0.win 3).flush t = true ∧ i ∈ ((cfg0.win 3).blk t).view.set := by
  have hi0 : (i 0).val < 4096 := (i 0).isLt
  have hi1 : (i 1).val < 6144 := (i 1).isLt
  obtain ⟨t, tv⟩ : ∃ t : Fin cfg0.N, t.val = (i 0).val / 1024 * 12 + (i 1).val / 512 :=
    ⟨⟨(i 0).val / 1024 * 12 + (i 1).val / 512, by show _ < grid0.N; rw [N_0]; omega⟩, rfl⟩
  obtain ⟨-, -, -, -, -, -, e6, e7⟩ := idx_facts0 t
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The output array after the region is `G0`. -/
theorem final0 (c : Dev nD) : (data0 (F := Ideal) V c).arrAt 3 cfg0.N = G0 V c :=
  (data0 V c).arrAt_eq_of_cover 3 (G0 V c) (fun t _ => flushed0_eq V c t) cover0

/-- The output array after the region, at `(r, o)`: entry `(r, o)` of `x · wᵀ + bias` of the arrays the region finds. -/
theorem projection_whole (c : Dev nD) (r : Fin 4096) (o : Fin 6144) :
    (data0 (F := Ideal) V c).arrAt 3 cfg0.N (ix2 r o)
      = linearAt (m := 4096) (n := 6144) (k := 2048) (V c main_v0) (V c main_v3) (V c main_v1) r o :=
  congrFun (final0 V c) (ix2 r o)

end Cert.KernelIdeal.Whole

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.PayAttend.lean ====
/-
  One attention block read at an entry, on the extended reals.

  The block takes 512 query rows, 2048 key rows and 2048 value rows of 128 lanes. Its scores are `q · kᵀ` into a zero
  accumulator times the scale; each row of scores is shifted by its maximum (the fold of `max` from `-∞`, kept as a
  column and repeated along the row) and exponentiated; each exponential is divided by its row's sum (kept as a column
  and repeated likewise); the weights times the value rows, into a zero accumulator, are the block. On the extended
  reals a change of number format is the identity, so entry `(i, d)` is `Cert.Attention.attend` of query row `i`, the
  key rows and the value rows at lane `d`.

  The steps, each over a VARIABLE score block `s` that agrees on row `i` with `Cert.Attention.score`:
  `maxColumn_apply` (the repeated column of maxima is `rowMax`), `expo_apply` (the shifted exponential is `expo`),
  `sumColumn_apply` (a repeated column of row sums), `weight_apply` (the quotient is `weight`); with `scores_apply`
  and `mix_apply` (the two products at an entry) and `scale_eq` (the named scale) they give `attend_apply`.
-/
import proofs.«180565_j20023137534549_2_alg».proof.Proof.Gen.KernelIdeal.Skeleton
import proofs.«180565_j20023137534549_2_alg».proof.Proof.Spec
import proofs.«180565_j20023137534549_2_alg».proof.Proof.LibTransposedDot
import proofs.«180565_j20023137534549_2_alg».proof.Proof.LibPlainDot
import proofs.«180565_j20023137534549_2_alg».proof.Proof.LibKeepdims
import Idealize.ShloMosaic.PureOps.IdealRules
import Idealize.ShloMosaic.Lib.ValueIdx
import Idealize.ShloMosaic.Lib.Pipeline.Value

noncomputable section

open scoped BigOperators

namespace Cert.KernelIdeal.Payload

open Idealize.ShloMosaic Idealize.ShloMosaic.ValueIdx Idealize.ShloMosaic.ValueKeepdims Cert.KernelIdeal

variable [Cert.KernelIdeal.Facts]

/-- The named scale of the scores is the reciprocal of `11863283/1048576`. -/
theorem scale_eq :
    Named.named (F := Ideal) Cert.KernelIdeal.κ "inv_sqrt_head_dim" (φ := .f32) 0x3DB504F3#32 = Cert.Attention.scale :=
  IdealRules.named_const.ideal_named_scalar _ _ _ _ rfl

/-- The word the row maxima start from is `-∞`. -/
theorem negInf : Ideal.ofBits .f32 0xFF800000#32 = ⊥ := by simp [Ideal.ofBits, Ideal.ieee]

/-- An exponential at an index is the exponential of the element. -/
theorem exp_apply {s : Shape} {φ : FTy} (a : FVec Ideal s φ) (i : s.Idx) : exp a i = Ideal.exp (a i) := rfl

/-- The scores `q · kᵀ` into the zero accumulator at `(i, kk)`: the dot product of query row `i` and key row `kk`. -/
theorem scores_apply {φ₁ φ₂ : FTy} (q : FVec Ideal S512x128 φ₁) (k : FVec Ideal S2048x128 φ₂) (i : Fin 512) (kk : Fin 2048) :
    matmul dot_S512x128_S2048x128_S512x2048_1_1_0_0_n_n none q k (constant S512x2048 .f32 0x00000000#32) (ix2 i kk)
      = ∑ d : Fin 128, q (ix2 i d) * k (ix2 kk d) :=
  Cert.Lib.TransposedDot.matmul_zero_apply none q k i kk

/-- The weights times the value rows into the zero accumulator at `(i, d)`. -/
theorem mix_apply {φ₁ φ₂ : FTy} (w : FVec Ideal S512x2048 φ₁) (v : FVec Ideal S2048x128 φ₂) (i : Fin 512) (d : Fin 128) :
    matmul dot_S512x2048_S2048x128_S512x128_1_0_0_1_n_n none w v (constant S512x128 .f32 0x00000000#32) (ix2 i d)
      = ∑ kk : Fin 2048, w (ix2 i kk) * v (ix2 kk d) :=
  Cert.Lib.PlainDot.matmul_zero_apply none w v i d

/-- The row sums of a block, kept as a column and repeated along the rows, at `(i, kk)`: the sum of row `i`. -/
theorem sumColumn_apply (e : FVec Ideal S512x2048 .f32) (h1 : S512x2048.Reduces [1] S512) (hφ : FKind.Formats .f32)
    (hadd : (0x00000000#32 : BitVec FTy.f32.bits) = FKind.add.neutral .f32 hφ) (h2 : S512.ShapeCasts S512x1)
    (h3 : S512x1.Broadcasts S512x2048) (i : Fin 512) (kk : Fin 2048) :
    (broadcastTo S512x2048 (shapeCast S512x1 (multiReduction .add [1] S512 e 0x00000000#32 h1 hφ hadd) h2) h3) (ix2 i kk)
      = ∑ k' : Fin 2048, e (ix2 i k') := by
  rw [broadcastTo_a1_ab_apply, shapeCast_a_a1_apply, multiReduction_add_row]

section Softmax

variable (s : FVec Ideal S512x2048 .f32) (qrow : Fin 128 → EReal) (K : Fin 2048 → Fin 128 → EReal) (c : EReal) (i : Fin 512)
  (hs : ∀ kk : Fin 2048, s (ix2 i kk) = Cert.Attention.score qrow K c kk)
  (h1 : S512x2048.Reduces [1] S512) (hφ : FKind.Formats .f32)
  (hmax : (0xFF800000#32 : BitVec FTy.f32.bits) = FKind.maximumf.neutral .f32 hφ) (h2 : S512.ShapeCasts S512x1)
  (h3 : S512x1.Broadcasts S512x2048)

include hs

/-- The row maxima of the scores, kept as a column and repeated along the rows, at `(i, kk)`: the row's maximum. -/
theorem maxColumn_apply (kk : Fin 2048) :
    (broadcastTo S512x2048 (shapeCast S512x1 (multiReduction .maximumf [1] S512 s 0xFF800000#32 h1 hφ hmax) h2) h3) (ix2 i kk)
      = Cert.Attention.rowMax qrow K c := by
  rw [broadcastTo_a1_ab_apply, shapeCast_a_a1_apply, multiReduction_maximumf_row, negInf]
  unfold Cert.Attention.rowMax
  exact congrArg (fun f => Finset.fold max ⊥ f Finset.univ) (funext hs)

/-- The scores shifted by their row's maximum and exponentiated, at `(i, kk)`. -/
theorem expo_apply (kk : Fin 2048) :
    (exp (subf s (broadcastTo S512x2048 (shapeCast S512x1 (multiReduction .maximumf [1] S512 s 0xFF800000#32 h1 hφ hmax) h2) h3))) (ix2 i kk)
      = Cert.Attention.expo qrow K c kk := by
  rw [exp_apply, subf_apply, maxColumn_apply s qrow K c i hs h1 hφ hmax h2 h3 kk, hs kk]
  rfl

/-- The exponentials over their row's sum, at `(i, kk)`: the softmax weight. -/
theorem weight_apply (h1' : S512x2048.Reduces [1] S512) (hφ' : FKind.Formats .f32)
    (hadd : (0x00000000#32 : BitVec FTy.f32.bits) = FKind.add.neutral .f32 hφ') (h2' : S512.ShapeCasts S512x1)
    (h3' : S512x1.Broadcasts S512x2048) (kk : Fin 2048) :
    divf (exp (subf s (broadcastTo S512x2048 (shapeCast S512x1 (multiReduction .maximumf [1] S512 s 0xFF800000#32 h1 hφ hmax) h2) h3)))
        (broadcastTo S512x2048 (shapeCast S512x1 (multiReduction .add [1] S512 (exp (subf s (broadcastTo S512x2048 (shapeCast S512x1 (multiReduction .maximumf [1] S512 s 0xFF800000#32 h1 hφ hmax) h2) h3))) 0x00000000#32 h1' hφ' hadd) h2') h3') (ix2 i kk)
      = Cert.Attention.weight qrow K c kk := by
  rw [divf_apply, sumColumn_apply, expo_apply s qrow K c i hs h1 hφ hmax h2 h3 kk]
  unfold Cert.Attention.weight
  exact congrArg (Ideal.div _) (Finset.sum_congr rfl fun k' _ => expo_apply s qrow K c i hs h1 hφ hmax h2 h3 k')

end Softmax

/-- The attention block at `(i, d)`: query row `i` attended over the key and value rows, at lane `d`. -/
theorem attend_apply (q : Vec Ideal S512x128 .bf16) (k v : Vec Ideal S2048x128 .bf16) (i : Fin 512) (d : Fin 128) :
    Cert.KernelIdeal.Gen.k1_pay1 (F := Ideal) q k v (ix2 i d)
      = Cert.Attention.attend (fun d' => q (ix2 i d')) (fun kk d' => k (ix2 kk d')) (fun kk d' => v (ix2 kk d'))
          Cert.Attention.scale d := by
  unfold Cert.KernelIdeal.Gen.k1_pay1
  rw [shapeCast_self, shapeCast_self, shapeCast_self, truncf_apply, mix_apply]
  unfold Cert.Attention.attend
  refine Finset.sum_congr rfl fun kk _ => ?_
  rw [truncf_apply]
  refine congrArg (· * v (ix2 kk d)) ?_
  refine weight_apply _ _ _ _ i (fun kk' => ?_) _ _ _ _ _ _ _ _ _ _ kk
  rw [mulf_apply, broadcast_apply, scores_apply, scale_eq]
  rfl

end Cert.KernelIdeal.Payload

end
-- ==== Proof.ValueAttend.lean ====
/-
  The merged heads' array after the attention region, as one function of the array the region finds.

  The region runs one attention block at the 2 × 16 × 4 points of its grid: point `(b, hd, qi)` reads, from the fused
  projection (4096 rows of 6144 columns), the 512 query rows `[2048 b + 512 qi, 2048 b + 512 (qi + 1))` at head `hd`'s
  query lanes (columns `[128 hd, 128 (hd + 1))`) and the 2048 rows of sequence `b` at the head's key lanes (columns from
  `2048 + 128 hd`) and value lanes (columns from `4096 + 128 hd`), and writes those query rows at columns
  `[128 hd, 128 (hd + 1))` of the 4096 × 2048 output. The blocks tile the output, so after the region the entry at
  position `s` of sequence `b`, channel `h`, is `Cert.Attention.mergedAt` of the fused projection there.
-/
import proofs.«180565_j20023137534549_2_alg».proof.Proof.IdealRegion1
import proofs.«180565_j20023137534549_2_alg».proof.Proof.PayAttend
import proofs.«180565_j20023137534549_2_alg».proof.Proof.Flat
import Idealize.ShloMosaic.Lib.Pipeline.Value
import Idealize.ShloMosaic.Lib.ValueIdx

noncomputable section

open scoped BigOperators

namespace Cert.KernelIdeal.Whole

open Cert.Attention (row batchOf seqOf mergedAt col headOf laneOf)
open Cert.KernelIdeal Cert.KernelIdeal.Gen Cert.KernelIdeal.Region1 Cert.KernelIdeal.Payload
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The whole-buffer rectangles start at the origin. -/
theorem hz1 : (![0, 0] : Fin 2 → Nat) = fun _ => 0 := funext fun a => by fin_cases a <;> rfl

/-- What the output array ends holding: the merged heads of the fused projection the region finds, entry by entry. -/
def G1 (c : Dev nD) : S4096x2048.Idx → EReal := fun i =>
  mergedAt (V c main_v5) Cert.Attention.scale (batchOf ⟨(i 0).val, idx2_lt0 i⟩) (seqOf ⟨(i 0).val, idx2_lt0 i⟩)
    ⟨(i 1).val, idx2_lt1 i⟩

/-- The body's value at entry `(p, d)` of its block, when row `p` of the first block holds the query lanes of head
    `headOf h` at position `s` of sequence `b`, the second and third blocks the head's key and value lanes over sequence
    `b`, and `d` is the lane of channel `h`: channel `h` of the merged heads there. -/
theorem point1 (a5 : S4096x6144.Idx → EReal) (x0 : Vec Ideal S512x128 .bf16) (x1 x2 : Vec Ideal S2048x128 .bf16)
    (p : Fin 512) (d : Fin 128) (b : Fin 2) (s : Fin 2048) (h : Fin 2048) (hd : d = laneOf h)
    (h0 : ∀ d' : Fin 128, x0 (ix2 p d') = a5 (ix2 (row b s) (col 0 (headOf h) d')))
    (h1 : ∀ (kk : Fin 2048) (d' : Fin 128), x1 (ix2 kk d') = a5 (ix2 (row b kk) (col 1 (headOf h) d')))
    (h2 : ∀ (kk : Fin 2048) (d' : Fin 128), x2 (ix2 kk d') = a5 (ix2 (row b kk) (col 2 (headOf h) d'))) :
    k1_pay1 (F := Ideal) x0 x1 x2 (ix2 p d) = mergedAt a5 Cert.Attention.scale b s h := by
  subst hd
  rw [attend_apply, show (fun d' => x0 (ix2 p d')) = _ from funext h0,
    show (fun kk d' => x1 (ix2 kk d')) = _ from funext fun kk => funext (h1 kk),
    show (fun kk d' => x2 (ix2 kk d')) = _ from funext fun kk => funext (h2 kk)]
  rfl

/-- The printed index maps, decided over the grid: at point `t = 64 b + 4 hd + qi` the output's block is
    `(4 b + qi, hd)`, the query window moves with it, the key and value windows are at `(b, 16 + hd)`, `(b, 32 + hd)`. -/
theorem idx_facts1 : ∀ t : Fin cfg1.N,
    win1_3.index t (0 : Fin 2) = t.val / 64 * 4 + t.val % 4 ∧ win1_3.index t (1 : Fin 2) = t.val / 4 % 16
    ∧ win1_0.index t (0 : Fin 2) = win1_3.index t (0 : Fin 2) ∧ win1_0.index t (1 : Fin 2) = win1_3.index t (1 : Fin 2)
    ∧ win1_1.index t (0 : Fin 2) = t.val / 64 ∧ win1_1.index t (1 : Fin 2) = 16 + t.val / 4 % 16
    ∧ win1_2.index t (0 : Fin 2) = t.val / 64 ∧ win1_2.index t (1 : Fin 2) = 32 + t.val / 4 % 16 :=
  (by decide +kernel : ∀ t : Fin grid1.N, _)

/-- What point `t` writes back is block `t` of `G1`. -/
theorem flushed1_eq (c : Dev nD) (t : Fin cfg1.N) :
    (data1 (F := Ideal) V c).flushed 3 t = ((cfg1.win 3).blk t).view.read (Elt Ideal) (G1 V c) := by
  show (cfg1.win 3).cut (grid1.coords t) ((data1 V c).after 3 t) = _
  rw [after1_3]
  unfold left1
  rw [View.canon_unit_zero hz1]
  simp only [View.ld_unit_zero (S := S512x128) hz1, View.ld_unit_zero (S := S2048x128) hz1]
  funext j
  obtain ⟨p, d, rfl⟩ : ∃ (p : Fin 512) (d : Fin 128), j = ix2 p d := ⟨j 0, j 1, eq_ix2 j⟩
  obtain ⟨e0, e1, e2, e3, e4, e5, e6, e7⟩ := idx_facts1 t
  have ht : t.val < 128 := lt_of_lt_of_eq t.isLt N_1
  have hp : p.val < 512 := p.isLt
  have hdl : d.val < 128 := d.isLt
  show k1_pay1 (F := Ideal) (block1 V c 0 t) (block1 V c 1 t) (block1 V c 2 t) (ix2 p d)
    = G1 V c (((cfg1.win 3).blk t).view.emb (ix2 p d))
  unfold G1
  refine point1 _ _ _ _ p d _ _ _ (Fin.ext ?_) (fun d' => ?_) (fun kk d' => ?_) (fun kk d' => ?_)
  · show d.val = (win1_3.index t (1 : Fin 2) * 128 + 1 * d.val) % 128
    omega
  · rw [Cert.Attention.row_batchOf_seqOf]
    show V c main_v5 (((cfg1.win 0).blk t).view.emb (ix2 p d')) = V c main_v5 (ix2 _ _)
    refine congrArg (V c main_v5) (funext fun a => Fin.ext ?_)
    have hd' : d'.val < 128 := d'.isLt
    match a with
    | ⟨0, _⟩ => show win1_0.index t (0 : Fin 2) * 512 + 1 * p.val = win1_3.index t (0 : Fin 2) * 512 + 1 * p.val; omega
    | ⟨1, _⟩ =>
      show win1_0.index t (1 : Fin 2) * 128 + 1 * d'.val = (col 0 (headOf _) d').val
      rw [Cert.Attention.col0_val, Cert.Attention.headOf_val]
      show _ = (win1_3.index t (1 : Fin 2) * 128 + 1 * d.val) / 128 * 128 + d'.val
      omega
  · show V c main_v5 (((cfg1.win 1).blk t).view.emb (ix2 kk d')) = V c main_v5 (ix2 _ _)
    refine congrArg (V c main_v5) (funext fun a => Fin.ext ?_)
    have hd' : d'.val < 128 := d'.isLt
    have hkk : kk.val < 2048 := kk.isLt
    match a with
    | ⟨0, _⟩ =>
      show win1_1.index t (0 : Fin 2) * 2048 + 1 * kk.val = (row (batchOf _) kk).val
      rw [Cert.Attention.row_val, Cert.Attention.batchOf_val]
      show _ = (win1_3.index t (0 : Fin 2) * 512 + 1 * p.val) / 2048 * 2048 + kk.val
      omega
    | ⟨1, _⟩ =>
      show win1_1.index t (1 : Fin 2) * 128 + 1 * d'.val = (col 1 (headOf _) d').val
      rw [Cert.Attention.col1_val, Cert.Attention.headOf_val]
      show _ = 2048 + (win1_3.index t (1 : Fin 2) * 128 + 1 * d.val) / 128 * 128 + d'.val
      omega
  · show V c main_v5 (((cfg1.win 2).blk t).view.emb (ix2 kk d')) = V c main_v5 (ix2 _ _)
    refine congrArg (V c main_v5) (funext fun a => Fin.ext ?_)
    have hd' : d'.val < 128 := d'.isLt
    have hkk : kk.val < 2048 := kk.isLt
    match a with
    | ⟨0, _⟩ =>
      show win1_2.index t (0 : Fin 2) * 2048 + 1 * kk.val = (row (batchOf _) kk).val
      rw [Cert.Attention.row_val, Cert.Attention.batchOf_val]
      show _ = (win1_3.index t (0 : Fin 2) * 512 + 1 * p.val) / 2048 * 2048 + kk.val
      omega
    | ⟨1, _⟩ =>
      show win1_2.index t (1 : Fin 2) * 128 + 1 * d'.val = (col 2 (headOf _) d').val
      rw [Cert.Attention.col2_val, Cert.Attention.headOf_val]
      show _ = 4096 + (win1_3.index t (1 : Fin 2) * 128 + 1 * d.val) / 128 * 128 + d'.val
      omega

/-- An index of the output array is in point `t`'s block iff each coordinate is in the block's range on its axis. -/
theorem mem_blk1 (t : Fin cfg1.N) (i : S4096x2048.Idx) :
    i ∈ ((cfg1.win 3).blk t).view.set ↔ ∀ a : Fin 2, win1_3.index t a * S512x128.size a ≤ (i a).val
      ∧ (i a).val < win1_3.index t a * S512x128.size a + S512x128.size a := by
  show i ∈ ((View.whole main_v6).slice (win1_3.rect t)).set ↔ _
  rw [View.set_slice_whole, Rect.mem_set_unit]
  exact Iff.rfl

/-- Every index of the output array is in some point's block: the point of its sequence, head and block of 512 rows. -/
theorem cover1 (i : S4096x2048.Idx) :
    ∃ t : Fin cfg1.N, (cfg1.win 3).flush t = true ∧ i ∈ ((cfg1.win 3).blk t).view.set := by
  have hi0 : (i 0).val < 4096 := (i 0).isLt
  have hi1 : (i 1).val < 2048 := (i 1).isLt
  obtain ⟨t, tv⟩ : ∃ t : Fin cfg1.N, t.val = (i 0).val / 2048 * 64 + (i 1).val / 128 * 4 + (i 0).val % 2048 / 512 :=
    ⟨⟨(i 0).val / 2048 * 64 + (i 1).val / 128 * 4 + (i 0).val % 2048 / 512, by show _ < grid1.N; rw [N_1]; omega⟩, rfl⟩
  obtain ⟨e0, e1, -, -, -, -, -, -⟩ := idx_facts1 t
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 128 ≤ (i 1).val ∧ (i 1).val < win1_3.index t (1 : Fin 2) * 128 + 128; omega

/-- The output array after the region is `G1`. -/
theorem final1 (c : Dev nD) : (data1 (F := Ideal) V c).arrAt 3 cfg1.N = G1 V c :=
  (data1 V c).arrAt_eq_of_cover 3 (G1 V c) (fun t _ => flushed1_eq V c t) cover1

/-- The output array after the region, at position `s` of sequence `b` and channel `h`: the merged heads of the fused
    projection the region finds. -/
theorem attend_whole (c : Dev nD) (b : Fin 2) (s : Fin 2048) (h : Fin 2048) :
    (data1 (F := Ideal) V c).arrAt 3 cfg1.N (ix2 (row b s) h) = mergedAt (V c main_v5) Cert.Attention.scale b s h := by
  refine (congrFun (final1 V c) (ix2 (row b s) h)).trans ?_
  show mergedAt (V c main_v5) Cert.Attention.scale (batchOf (row b s)) (seqOf (row b s)) h = _
  rw [Cert.Attention.batchOf_row, Cert.Attention.seqOf_row]

end Cert.KernelIdeal.Whole

end
-- ==== Proof.PayOutput.lean ====
/-
  The output layer's block read at an entry, on the extended reals.

  The block is `x · wᵀ + bias` again — a 1024×2048 block of merged-head rows times the transpose of a 512×2048 block
  of weights, into a zero accumulator, plus the bias row repeated down the rows — kept in single precision. Entry
  `(p, j)` is `(∑ k, x (p, k) * w (j, k)) + bias (0, j)`.
-/
import proofs.«180565_j20023137534549_2_alg».proof.Proof.Gen.KernelIdeal.Skeleton
import proofs.«180565_j20023137534549_2_alg».proof.Proof.LibTransposedDot
import proofs.«180565_j20023137534549_2_alg».proof.Proof.PayProjection
import Idealize.ShloMosaic.Lib.ValueIdx
import Idealize.ShloMosaic.Lib.Pipeline.Value

noncomputable section

open scoped BigOperators

namespace Cert.KernelIdeal.Payload

open Idealize.ShloMosaic Idealize.ShloMosaic.ValueIdx Cert.KernelIdeal

variable [Cert.KernelIdeal.Facts]

/-- The output projection's block at `(p, j)`. -/
theorem output_apply (x0 : Vec Ideal S1024x2048 .bf16) (x1 : Vec Ideal S512x2048 .bf16) (x2 : Vec Ideal S1x512 .f32)
    (p : Fin 1024) (j : Fin 512) :
    Cert.KernelIdeal.Gen.k2_pay1 (F := Ideal) x0 x1 x2 (ix2 p j)
      = (∑ k : Fin 2048, x0 (ix2 p k) * x1 (ix2 j k)) + x2 (ix2 (0 : Fin 1) j) := by
  unfold Cert.KernelIdeal.Gen.k2_pay1
  rw [addf_apply, product_apply, bias_row, shapeCast_self, shapeCast_self, shapeCast_self]

end Cert.KernelIdeal.Payload

end
-- ==== Proof.ValueOutput.lean ====
/-
  The output projection's array after its region, as one function of the arrays the region finds.

  The region runs the block `x · wᵀ + bias` at the 4 × 4 points of its grid: point `(i, j)` reads rows
  `[1024 i, 1024 (i + 1))` of `x` (the merged heads, 4096 × 2048), rows `[512 j, 512 (j + 1))` of `w` (2048 × 2048) and
  entries `[512 j, 512 (j + 1))` of the bias row, and writes block `(i, j)` of the 4096 × 2048 output. The blocks tile
  the output, so after the region entry `(r, o)` is `(∑ k, x (r, k) * w (o, k)) + bias (0, o)` (`linearAt`).
-/
import proofs.«180565_j20023137534549_2_alg».proof.Proof.IdealRegion2
import proofs.«180565_j20023137534549_2_alg».proof.Proof.PayOutput
import proofs.«180565_j20023137534549_2_alg».proof.Proof.Flat
import Idealize.ShloMosaic.Lib.Pipeline.Value
import Idealize.ShloMosaic.Lib.ValueIdx

noncomputable section

open scoped BigOperators

namespace Cert.KernelIdeal.Whole

open Cert.Attention (linearAt)
open Cert.KernelIdeal Cert.KernelIdeal.Gen Cert.KernelIdeal.Region2 Cert.KernelIdeal.Payload
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The whole-buffer rectangles start at the origin. -/
theorem hz2 : (![0, 0] : Fin 2 → Nat) = fun _ => 0 := funext fun a => by fin_cases a <;> rfl

/-- What the output array ends holding: `x · wᵀ + bias` of the arrays the region finds, entry by entry. -/
def G2 (c : Dev nD) : S4096x2048.Idx → EReal := fun i =>
  linearAt (m := 4096) (n := 2048) (k := 2048) (V c main_v6) (V c main_v4) (V c main_v2) ⟨(i 0).val, idx2_lt0 i⟩ ⟨(i 1).val, idx2_lt1 i⟩

/-- The body's value at entry `(p, q)` of its block, when row `p` of the first block is row `r` of `x`, row `q` of the
    second is row `o` of `w` and entry `q` of the third is entry `o` of the bias: entry `(r, o)` of the layer. -/
theorem point2 (a0 : S4096x2048.Idx → EReal) (a1 : S2048x2048.Idx → EReal) (a2 : S1x2048.Idx → EReal)
    (x0 : Vec Ideal S1024x2048 .bf16) (x1 : Vec Ideal S512x2048 .bf16) (x2 : Vec Ideal S1x512 .f32)
    (p : Fin 1024) (q : Fin 512) (r : Fin 4096) (o : Fin 2048)
    (h0 : ∀ k : Fin 2048, x0 (ix2 p k) = a0 (ix2 r k)) (h1 : ∀ k : Fin 2048, x1 (ix2 q k) = a1 (ix2 o k))
    (h2 : x2 (ix2 (0 : Fin 1) q) = a2 (ix2 (0 : Fin 1) o)) :
    k2_pay1 (F := Ideal) x0 x1 x2 (ix2 p q) = linearAt a0 a1 a2 r o := by
  rw [output_apply, h2]
  unfold linearAt
  exact congrArg (· + a2 (ix2 (0 : Fin 1) o)) (Finset.sum_congr rfl fun k _ => by rw [h0, h1])

/-- The printed index maps, decided over the grid: the first window moves with the output's rows, the second and
    third with its columns, and the output's block at point `t` is `(t / 4, t % 4)`. -/
theorem idx_facts2 : ∀ t : Fin cfg2.N,
    win2_0.index t (0 : Fin 2) = win2_3.index t (0 : Fin 2) ∧ win2_0.index t (1 : Fin 2) = 0
    ∧ win2_1.index t (0 : Fin 2) = win2_3.index t (1 : Fin 2) ∧ win2_1.index t (1 : Fin 2) = 0
    ∧ win2_2.index t (0 : Fin 2) = 0 ∧ win2_2.index t (1 : Fin 2) = win2_3.index t (1 : Fin 2)
    ∧ win2_3.index t (0 : Fin 2) = t.val / 4 ∧ win2_3.index t (1 : Fin 2) = t.val % 4 :=
  (by decide +kernel : ∀ t : Fin grid2.N, _)

/-- What point `t` writes back is block `t` of `G2`. -/
theorem flushed2_eq (c : Dev nD) (t : Fin cfg2.N) :
    (data2 (F := Ideal) V c).flushed 3 t = ((cfg2.win 3).blk t).view.read (Elt Ideal) (G2 V c) := by
  show (cfg2.win 3).cut (grid2.coords t) ((data2 V c).after 3 t) = _
  rw [after2_3]
  unfold left2
  rw [View.canon_unit_zero hz2]
  simp only [View.ld_unit_zero (S := S1024x2048) hz2, View.ld_unit_zero (S := S512x2048) hz2, View.ld_unit_zero (S := S1x512) hz2]
  funext j
  obtain ⟨p, q, rfl⟩ : ∃ (p : Fin 1024) (q : Fin 512), j = ix2 p q := ⟨j 0, j 1, eq_ix2 j⟩
  obtain ⟨e0, e1, e2, e3, e4, e5, e6, e7⟩ := idx_facts2 t
  show k2_pay1 (F := Ideal) (block2 V c 0 t) (block2 V c 1 t) (block2 V c 2 t) (ix2 p q)
    = G2 V c (((cfg2.win 3).blk t).view.emb (ix2 p q))
  unfold G2
  refine point2 _ _ _ _ _ _ p q _ _ (fun k => ?_) (fun k => ?_) ?_
  · show V c main_v6 (((cfg2.win 0).blk t).view.emb (ix2 p k)) = V c main_v6 (ix2 _ k)
    refine congrArg (V c main_v6) (funext fun a => Fin.ext ?_)
    match a with
    | ⟨0, _⟩ => show win2_0.index t (0 : Fin 2) * 1024 + 1 * p.val = win2_3.index t (0 : Fin 2) * 1024 + 1 * p.val; omega
    | ⟨1, _⟩ => show win2_0.index t (1 : Fin 2) * 2048 + 1 * k.val = k.val; omega
  · show V c main_v4 (((cfg2.win 1).blk t).view.emb (ix2 q k)) = V c main_v4 (ix2 _ k)
    refine congrArg (V c main_v4) (funext fun a => Fin.ext ?_)
    match a with
    | ⟨0, _⟩ => show win2_1.index t (0 : Fin 2) * 512 + 1 * q.val = win2_3.index t (1 : Fin 2) * 512 + 1 * q.val; omega
    | ⟨1, _⟩ => show win2_1.index t (1 : Fin 2) * 2048 + 1 * k.val = k.val; omega
  · show V c main_v2 (((cfg2.win 2).blk t).view.emb (ix2 (0 : Fin 1) q)) = V c main_v2 (ix2 (0 : Fin 1) _)
    refine congrArg (V c main_v2) (funext fun a => Fin.ext ?_)
    match a with
    | ⟨0, _⟩ => show win2_2.index t (0 : Fin 2) * 1 + 1 * 0 = 0; omega
    | ⟨1, _⟩ => show win2_2.index t (1 : Fin 2) * 512 + 1 * q.val = win2_3.index t (1 : Fin 2) * 512 + 1 * q.val; omega

/-- An index of the output array is in point `t`'s block iff each coordinate is in the block's range on its axis. -/
theorem mem_blk2 (t : Fin cfg2.N) (i : S4096x2048.Idx) :
    i ∈ ((cfg2.win 3).blk t).view.set ↔ ∀ a : Fin 2, win2_3.index t a * S1024x512.size a ≤ (i a).val
      ∧ (i a).val < win2_3.index t a * S1024x512.size a + S1024x512.size a := by
  show i ∈ ((View.whole main_v7).slice (win2_3.rect t)).set ↔ _
  rw [View.set_slice_whole, Rect.mem_set_unit]
  exact Iff.rfl

/-- Every index of the output array is in some point's block: the point of its row block and column block. -/
theorem cover2 (i : S4096x2048.Idx) :
    ∃ t : Fin cfg2.N, (cfg2.win 3).flush t = true ∧ i ∈ ((cfg2.win 3).blk t).view.set := by
  have hi0 : (i 0).val < 4096 := (i 0).isLt
  have hi1 : (i 1).val < 2048 := (i 1).isLt
  obtain ⟨t, tv⟩ : ∃ t : Fin cfg2.N, t.val = (i 0).val / 1024 * 4 + (i 1).val / 512 :=
    ⟨⟨(i 0).val / 1024 * 4 + (i 1).val / 512, by show _ < grid2.N; rw [N_2]; omega⟩, rfl⟩
  obtain ⟨-, -, -, -, -, -, e6, e7⟩ := idx_facts2 t
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 512 ≤ (i 1).val ∧ (i 1).val < win2_3.index t (1 : Fin 2) * 512 + 512; omega

/-- The output array after the region is `G2`. -/
theorem final2 (c : Dev nD) : (data2 (F := Ideal) V c).arrAt 3 cfg2.N = G2 V c :=
  (data2 V c).arrAt_eq_of_cover 3 (G2 V c) (fun t _ => flushed2_eq V c t) cover2

/-- The output array after the region, at `(r, o)`: entry `(r, o)` of `x · wᵀ + bias` of the arrays the region finds. -/
theorem output_whole (c : Dev nD) (r : Fin 4096) (o : Fin 2048) :
    (data2 (F := Ideal) V c).arrAt 3 cfg2.N (ix2 r o)
      = linearAt (m := 4096) (n := 2048) (k := 2048) (V c main_v6) (V c main_v4) (V c main_v2) r o :=
  congrFun (final2 V c) (ix2 r o)

end Cert.KernelIdeal.Whole

end
-- ==== Proof.KernelStretches.lean ====
/-
  What the two host stretches of the program write, read at an index.

  The first stretch flattens the input `[2, 2048, 2048]` to rows `[4096, 2048]` (row `b · 2048 + s` is position `s` of
  batch `b`), turns the two biases into one-row matrices, and changes the format of the two weight matrices, which on
  the extended reals is the identity. The last stretch unflattens the result's rows back to (batch, position).
-/
import proofs.«180565_j20023137534549_2_alg».proof.Proof.IdealRun
import proofs.«180565_j20023137534549_2_alg».proof.Proof.Rows
import Idealize.ShloMosaic.Lib.ValueIdx
import Idealize.ShloMosaic.Lib.Pipeline.Value
import Idealize.ShloMosaic.Lib.StableHlo.Run
import Idealize.ShloMosaic.PureOps.Ideal

set_option maxRecDepth 16384

noncomputable section

namespace Cert.KernelIdeal.Result

open Cert.KernelIdeal Cert.KernelIdeal.Gen Cert.KernelIdeal.Region0 Cert.KernelIdeal.Region1 Cert.KernelIdeal.Region2
open Idealize.ShloMosaic Idealize.ShloMosaic.TcCoe Idealize.ShloMosaic.ValueIdx Idealize.ShloMosaic.StableHlo
open Idealize.SL.Sem
open scoped BigOperators

variable (m : (ℓ : Loc nD τ sig) → Buf (Elt Ideal) ℓ) (ρ : Dev nD → PrngReg) (c : Dev nD)

/-- The flattened input at row `b · 2048 + s`: the input at (b, s). -/
theorem rows_apply (b : Fin 2) (s k : Fin 2048) :
    (Run.B1 (F := Ideal) m ρ c (Proc.devRef .tc main_v0) : S4096x2048.Idx → EReal) (ix2 (Cert.Attention.row b s) k)
      = m ((c.tc : Thread nD τ).loc main_arg0) (ix3 b s k) := by
  have e : (Run.B1 (F := Ideal) m ρ c (Proc.devRef .tc main_v0) : S4096x2048.Idx → EReal)
      = shapeCast S4096x2048 (m ((c.tc : Thread nD τ).loc main_arg0)) Facts₀.shapeCasts_S2x2048x2048_S4096x2048 := by
    dsimp only [Run.B1, Run.B0, Gen.hostOps0]; after_results; rfl
  rw [e]
  exact shapeCast_apply _ _ _ _ (by
    show (S2x2048x2048.rowMajor (ix3 b s k)).val = (S4096x2048.rowMajor (ix2 (Cert.Attention.row b s) k)).val
    rw [Shape.rowMajor_val_three, Shape.rowMajor_val_two]
    show (b.val * 2048 + s.val) * 2048 + k.val = (b.val * 2048 + s.val) * 2048 + k.val
    rfl)

/-- The first bias as a one-row matrix, at (0, o). -/
theorem bias1_apply (o : Fin 6144) :
    (Run.B1 (F := Ideal) m ρ c (Proc.devRef .tc main_v1) : S1x6144.Idx → EReal) (ix2 (0 : Fin 1) o)
      = m ((c.tc : Thread nD τ).loc main_arg2) (ix1 o) := by
  have e : (Run.B1 (F := Ideal) m ρ c (Proc.devRef .tc main_v1) : S1x6144.Idx → EReal)
      = shapeCast S1x6144 (m ((c.tc : Thread nD τ).loc main_arg2)) Facts₀.shapeCasts_S6144_S1x6144 := by
    dsimp only [Run.B1, Run.B0, Gen.hostOps0]; after_results; rfl
  rw [e]
  exact shapeCast_apply _ _ _ _ (by
    show (S6144.rowMajor (ix1 o)).val = (S1x6144.rowMajor (ix2 (0 : Fin 1) o)).val
    rw [Shape.rowMajor_val_one, Shape.rowMajor_val_two]
    show o.val = 0 * 6144 + o.val
    omega)

/-- The second bias as a one-row matrix, at (0, o). -/
theorem bias2_apply (o : Fin 2048) :
    (Run.B1 (F := Ideal) m ρ c (Proc.devRef .tc main_v2) : S1x2048.Idx → EReal) (ix2 (0 : Fin 1) o)
      = m ((c.tc : Thread nD τ).loc main_arg4) (ix1 o) := by
  have e : (Run.B1 (F := Ideal) m ρ c (Proc.devRef .tc main_v2) : S1x2048.Idx → EReal)
      = shapeCast S1x2048 (m ((c.tc : Thread nD τ).loc main_arg4)) Facts₀.shapeCasts_S2048_S1x2048 := by
    dsimp only [Run.B1, Run.B0, Gen.hostOps0]; after_results; rfl
  rw [e]
  exact shapeCast_apply _ _ _ _ (by
    show (S2048.rowMajor (ix1 o)).val = (S1x2048.rowMajor (ix2 (0 : Fin 1) o)).val
    rw [Shape.rowMajor_val_one, Shape.rowMajor_val_two]
    show o.val = 0 * 2048 + o.val
    omega)

/-- The first weight matrix after its change of format: itself. -/
theorem weight1_eq :
    (Run.B1 (F := Ideal) m ρ c (Proc.devRef .tc main_v3) : S6144x2048.Idx → EReal) = m ((c.tc : Thread nD τ).loc main_arg1) := by
  dsimp only [Run.B1, Run.B0, Gen.hostOps0]; after_results; rfl

/-- The second weight matrix after its change of format: itself. -/
theorem weight2_eq :
    (Run.B1 (F := Ideal) m ρ c (Proc.devRef .tc main_v4) : S2048x2048.Idx → EReal) = m ((c.tc : Thread nD τ).loc main_arg3) := by
  dsimp only [Run.B1, Run.B0, Gen.hostOps0]; after_results; rfl

/-- The result unflattened, at (b, s, o): the last region's rows at row `b · 2048 + s`. -/
theorem result_apply (b : Fin 2) (s o : Fin 2048) :
    (Run.B5 (F := Ideal) m ρ c (Proc.devRef .tc main_v8) : S2x2048x2048.Idx → EReal) (ix3 b s o)
      = (Run.B4 (F := Ideal) m ρ c (Proc.devRef .tc main_v7) : S4096x2048.Idx → EReal) (ix2 (Cert.Attention.row b s) o) := by
  have e : (Run.B5 (F := Ideal) m ρ c (Proc.devRef .tc main_v8) : S2x2048x2048.Idx → EReal)
      = shapeCast S2x2048x2048 (Run.B4 (F := Ideal) m ρ c (Proc.devRef .tc main_v7) : S4096x2048.Idx → EReal)
          Facts₀.shapeCasts_S4096x2048_S2x2048x2048 := by
    dsimp only [Run.B5, Gen.hostOps3]; after_results; rfl
  rw [e]
  exact shapeCast_apply _ _ _ _ (by
    show (S4096x2048.rowMajor (ix2 (Cert.Attention.row b s) o)).val = (S2x2048x2048.rowMajor (ix3 b s o)).val
    rw [Shape.rowMajor_val_two, Shape.rowMajor_val_three]
    show (b.val * 2048 + s.val) * 2048 + o.val = (b.val * 2048 + s.val) * 2048 + o.val
    rfl)

end Cert.KernelIdeal.Result

end
-- ==== Proof.KernelBoundaries.lean ====
/-
  What the buffers the three regions read and write hold at each boundary between the program's stretches.

  Each region's result is its pipeline's last array; a buffer a region does not write is as the stretch before left it,
  so the weights, the biases and the flattened input reach the regions as the first host stretch wrote them.
-/
import proofs.«180565_j20023137534549_2_alg».proof.Proof.IdealRun
import proofs.«180565_j20023137534549_2_alg».proof.Proof.KernelStretches

set_option maxRecDepth 16384

noncomputable section

namespace Cert.KernelIdeal.Result

open Cert.KernelIdeal Cert.KernelIdeal.Gen Cert.KernelIdeal.Region0 Cert.KernelIdeal.Region1 Cert.KernelIdeal.Region2
open Idealize.ShloMosaic Idealize.ShloMosaic.TcCoe Idealize.ShloMosaic.ValueIdx Idealize.ShloMosaic.StableHlo
open Idealize.SL.Sem
open scoped BigOperators

variable (m : (ℓ : Loc nD τ sig) → Buf (Elt Ideal) ℓ) (ρ : Dev nD → PrngReg) (c : Dev nD)

/-- The last region's result is what its pipeline leaves in its output array. -/
theorem output_eq : Run.B4 (F := Ideal) m ρ c (Proc.devRef .tc main_v7) = (data2 (Run.E3 m ρ) c).arrAt 3 cfg2.N :=
  Run.B4_arr m ρ c 3

/-- The attention region's result, as the last region reads it. -/
theorem mixed_eq : Run.E3 (F := Ideal) m ρ c main_v6 = (data1 (Run.E2 m ρ) c).arrAt 3 cfg1.N :=
  Run.B3_out m ρ c

/-- The projection region's result, as the attention region reads it. -/
theorem projected_eq : Run.E2 (F := Ideal) m ρ c main_v5 = (data0 (Run.E1 m ρ) c).arrAt 3 cfg0.N :=
  Run.B2_arr m ρ c 3

/-- The second weight matrix reaches the last region as the first host stretch wrote it. -/
theorem weight2_kept : Run.E3 (F := Ideal) m ρ c main_v4 = Run.B1 (F := Ideal) m ρ c (Proc.devRef .tc main_v4) :=
  (Run.B3_of_ne m ρ c main_v4 (by decide)).trans (Run.B2_of_ne m ρ c main_v4 (by decide))

/-- The second bias reaches the last region as the first host stretch wrote it. -/
theorem bias2_kept : Run.E3 (F := Ideal) m ρ c main_v2 = Run.B1 (F := Ideal) m ρ c (Proc.devRef .tc main_v2) :=
  (Run.B3_of_ne m ρ c main_v2 (by decide)).trans (Run.B2_of_ne m ρ c main_v2 (by decide))

end Cert.KernelIdeal.Result

end
-- ==== Proof.KernelResult.lean ====
/-
  The program's result at an index, composed through its five stretches.

  Each region's pipeline leaves in its output array a function of the buffers the region was entered with — region 0 a
  linear layer of its rows, region 1 the attention mix of the projection's columns, region 2 a linear layer again. So the
  result at (b, s, o) is the attention layer of the five arguments as launched: the flattened input's row `b · 2048 + s`
  is position `s` of batch `b`, the weights and biases reach the regions unchanged, and the three regions' values
  compose into `linear (merged (linear X Wq Bq) c) Wo Bo`.
-/
import proofs.«180565_j20023137534549_2_alg».proof.Proof.IdealRun
import proofs.«180565_j20023137534549_2_alg».proof.Proof.Spec
import proofs.«180565_j20023137534549_2_alg».proof.Proof.Rows
import proofs.«180565_j20023137534549_2_alg».proof.Proof.Flat
import proofs.«180565_j20023137534549_2_alg».proof.Proof.ValueProjection
import proofs.«180565_j20023137534549_2_alg».proof.Proof.ValueAttend
import proofs.«180565_j20023137534549_2_alg».proof.Proof.ValueOutput
import proofs.«180565_j20023137534549_2_alg».proof.Proof.KernelStretches
import proofs.«180565_j20023137534549_2_alg».proof.Proof.KernelBoundaries
import Idealize.ShloMosaic.Lib.ValueIdx

set_option maxRecDepth 16384

noncomputable section

namespace Cert.KernelIdeal.Result

open Cert.KernelIdeal Cert.KernelIdeal.Gen Cert.KernelIdeal.Region0 Cert.KernelIdeal.Region1 Cert.KernelIdeal.Region2
open Idealize.ShloMosaic Idealize.ShloMosaic.TcCoe Idealize.ShloMosaic.ValueIdx Idealize.ShloMosaic.StableHlo
open Idealize.SL.Sem
open scoped BigOperators

/-- The projection region's result at row `b · 2048 + s`, column `o`: the fused linear layer at (b, s, o). -/
theorem projection_apply (m : (ℓ : Loc nD τ sig) → Buf (Elt Ideal) ℓ) (ρ : Dev nD → PrngReg) (c : Dev nD) (b : Fin 2) (s : Fin 2048) (o : Fin 6144) :
    (Run.E2 (F := Ideal) m ρ c main_v5 (ValueIdx.ix2 (Cert.Attention.row b s) o) : EReal)
      = Cert.Attention.linear (fun b s h => m ((c.tc : Thread nD τ).loc main_arg0) (ValueIdx.ix3 b s h)) (fun o h => m ((c.tc : Thread nD τ).loc main_arg1) (ValueIdx.ix2 o h)) (fun o => m ((c.tc : Thread nD τ).loc main_arg2) (ValueIdx.ix1 o)) b s o := by
  rw [projected_eq, Cert.KernelIdeal.Whole.projection_whole (Run.E1 m ρ) c]
  unfold Cert.Attention.linearAt Cert.Attention.linear
  exact congrArg₂ (· + ·)
    (Finset.sum_congr rfl fun k _ => congrArg₂ (· * ·) (rows_apply m ρ c b s k) (congrFun (weight1_eq m ρ c) (ix2 o k)))
    (bias1_apply m ρ c o)

/-- The attention region's result at row `b · 2048 + s`, channel `h`: the heads of the projection side by side. -/
theorem mixed_apply (m : (ℓ : Loc nD τ sig) → Buf (Elt Ideal) ℓ) (ρ : Dev nD → PrngReg) (c : Dev nD) (b : Fin 2) (s h : Fin 2048) :
    (Run.E3 (F := Ideal) m ρ c main_v6 (ValueIdx.ix2 (Cert.Attention.row b s) h) : EReal)
      = Cert.Attention.merged (Cert.Attention.linear (fun b s h => m ((c.tc : Thread nD τ).loc main_arg0) (ValueIdx.ix3 b s h)) (fun o h => m ((c.tc : Thread nD τ).loc main_arg1) (ValueIdx.ix2 o h)) (fun o => m ((c.tc : Thread nD τ).loc main_arg2) (ValueIdx.ix1 o))) Cert.Attention.scale b s h := by
  rw [mixed_eq, Cert.KernelIdeal.Whole.attend_whole (Run.E2 m ρ) c]
  unfold Cert.Attention.mergedAt Cert.Attention.merged
  simp only [projection_apply m ρ c]

/-- The program's result at (b, s, o) is the attention layer of its five arguments. -/
theorem kernel_eq (m : (ℓ : Loc nD τ sig) → Buf (Elt Ideal) ℓ) (ρ : Dev nD → PrngReg) (c : Dev nD) (b : Fin 2) (s : Fin 2048) (o : Fin 2048) :
    (Run.B5 (F := Ideal) m ρ c (Proc.devRef .tc main_v8) (ValueIdx.ix3 b s o) : EReal)
      = Cert.Attention.attention (fun b s h => m ((c.tc : Thread nD τ).loc main_arg0) (ValueIdx.ix3 b s h)) (fun o h => m ((c.tc : Thread nD τ).loc main_arg1) (ValueIdx.ix2 o h)) (fun o => m ((c.tc : Thread nD τ).loc main_arg2) (ValueIdx.ix1 o))
          (fun o h => m ((c.tc : Thread nD τ).loc main_arg3) (ValueIdx.ix2 o h)) (fun o => m ((c.tc : Thread nD τ).loc main_arg4) (ValueIdx.ix1 o))
          Cert.Attention.scale b s o := by
  rw [result_apply, output_eq, Cert.KernelIdeal.Whole.output_whole (Run.E3 m ρ) c]
  unfold Cert.Attention.attention
  refine Eq.trans ?_ (show _ = Cert.Attention.linear _ _ _ b s o from rfl)
  unfold Cert.Attention.linearAt Cert.Attention.linear
  refine congrArg₂ (· + ·) (Finset.sum_congr rfl fun k _ => congrArg₂ (· * ·) (mixed_apply m ρ c b s k) ?_) ?_
  · rw [weight2_kept, weight2_eq]
  · rw [bias2_kept]; exact bias2_apply m ρ c o

end Cert.KernelIdeal.Result

end
-- ==== Proof.RefProjection.lean ====
/-
  The fused query/key/value projection of the reference: the product of the input rows with the transposed weights plus
  the bias broadcast over batch and position is, at (b, s, c), the linear layer `(∑ h, X b s h · W c h) + B c`.
-/
import proofs.«180565_j20023137534549_2_alg».proof.Proof.Gen.ReferenceIdeal.Read
import proofs.«180565_j20023137534549_2_alg».proof.Proof.Spec
import Idealize.ShloMosaic.Lib.ValueIdx
import Idealize.ShloMosaic.PureOps.Ideal
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-- The fused projection as a function of batch, position and column. -/
def proj (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) : Fin 2 → Fin 2048 → Fin 6144 → EReal :=
  Cert.Attention.linear (fun b s h => x0 (ix3 b s h)) (fun o h => x1 (ix2 o h)) (fun o => x2 (ix1 o))

theorem lidx_v0 (b : Fin 2) (s : Fin 2048) (c : Fin 6144) (k : Fin 2048) : lidx_main_v0 (ix3 b s c) k = ix3 b s k :=
  funext fun a => by match a with | ⟨0, _⟩ => rfl | ⟨1, _⟩ => rfl | ⟨2, _⟩ => rfl

theorem ridx_v0 (b : Fin 2) (s : Fin 2048) (c : Fin 6144) (k : Fin 2048) : ridx_main_v0 (ix3 b s c) k = ix2 c k :=
  funext fun a => by match a with | ⟨0, _⟩ => rfl | ⟨1, _⟩ => rfl

theorem idx_v1_v2 (b : Fin 2) (s : Fin 2048) (c : Fin 6144) : idx_main_v1 (idx_main_v2 (ix3 b s c)) = ix1 c :=
  funext fun a => by match a with | ⟨0, _⟩ => rfl

/-- The projection with its bias, at (b, s, c). -/
theorem projection_apply (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (s : Fin 2048) (c : Fin 6144) :
    val_main_v3 (F := Ideal) x0 x1 x2 (ix3 b s c) = proj x0 x1 x2 b s c := by
  rw [val_main_v3_apply, val_main_v0_apply, val_main_v2_apply, val_main_v1_apply, idx_v1_v2]
  unfold proj Cert.Attention.linear
  simp only [Ideal.addf_def, lidx_v0, ridx_v0]

end Cert.ReferenceIdeal.RefValue

end
-- ==== Proof.RefHeads.lean ====
/-
  The query, key and value arrays of the reference: the projection reshaped to (batch, position, component, head, lane),
  one component sliced out, the unit axis dropped and position and head exchanged. At (b, hd, s, d) each is the projection
  at (b, s) in the column `j · 2048 + hd · 128 + d` of its component `j` (0 query, 1 key, 2 value).
-/
import proofs.«180565_j20023137534549_2_alg».proof.Proof.Gen.ReferenceIdeal.Read
import proofs.«180565_j20023137534549_2_alg».proof.Proof.Spec
import proofs.«180565_j20023137534549_2_alg».proof.Proof.RefProjection
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open scoped BigOperators

/-- The row-major position of (b, s, j, hd, d) among [2, 2048, 3, 16, 128] is that of (b, s, column) among [2, 2048, 6144]. -/
theorem idx_v4 (b : Fin 2) (s : Fin 2048) (j : Fin 3) (hd : Fin 16) (d : Fin 128) :
    idx_main_v4 (ix5 b s j hd d) = ix3 b s (Cert.Attention.col j hd d) :=
  funext fun a => Fin.ext (by
    have hb := b.isLt; have hs := s.isLt; have hj := j.isLt; have hh := hd.isLt; have hdd := d.isLt
    match a with
    | ⟨0, _⟩ => show ((((b.val * 2048 + s.val) * 3 + j.val) * 16 + hd.val) * 128 + d.val) / 12582912 = b.val; omega
    | ⟨1, _⟩ => show ((((b.val * 2048 + s.val) * 3 + j.val) * 16 + hd.val) * 128 + d.val) / 6144 % 2048 = s.val; omega
    | ⟨2, _⟩ =>
      show ((((b.val * 2048 + s.val) * 3 + j.val) * 16 + hd.val) * 128 + d.val) % 6144 = j.val * 2048 + hd.val * 128 + d.val
      omega)

theorem idx_v5 (b : Fin 2) (s : Fin 2048) (hd : Fin 16) (d : Fin 128) :
    idx_main_v5 (ix5 b s (0 : Fin 1) hd d) = ix5 b s (0 : Fin 3) hd d :=
  funext fun a => by match a with | ⟨0, _⟩ => rfl | ⟨1, _⟩ => rfl | ⟨2, _⟩ => rfl | ⟨3, _⟩ => rfl | ⟨4, _⟩ => rfl

theorem idx_v8 (b : Fin 2) (s : Fin 2048) (hd : Fin 16) (d : Fin 128) :
    idx_main_v8 (ix5 b s (0 : Fin 1) hd d) = ix5 b s (1 : Fin 3) hd d :=
  funext fun a => by match a with | ⟨0, _⟩ => rfl | ⟨1, _⟩ => rfl | ⟨2, _⟩ => rfl | ⟨3, _⟩ => rfl | ⟨4, _⟩ => rfl

theorem idx_v11 (b : Fin 2) (s : Fin 2048) (hd : Fin 16) (d : Fin 128) :
    idx_main_v11 (ix5 b s (0 : Fin 1) hd d) = ix5 b s (2 : Fin 3) hd d :=
  funext fun a => by match a with | ⟨0, _⟩ => rfl | ⟨1, _⟩ => rfl | ⟨2, _⟩ => rfl | ⟨3, _⟩ => rfl | ⟨4, _⟩ => rfl

theorem idx_v6 (b : Fin 2) (s : Fin 2048) (hd : Fin 16) (d : Fin 128) :
    idx_main_v6 (ix4 b s hd d) = ix5 b s (0 : Fin 1) hd d :=
  funext fun a => Fin.ext (by
    have hb := b.isLt; have hs := s.isLt; have hh := hd.isLt; have hdd := d.isLt
    match a with
    | ⟨0, _⟩ => show (((b.val * 2048 + s.val) * 16 + hd.val) * 128 + d.val) / 4194304 = b.val; omega
    | ⟨1, _⟩ => show (((b.val * 2048 + s.val) * 16 + hd.val) * 128 + d.val) / 2048 % 2048 = s.val; omega
    | ⟨2, _⟩ => rfl
    | ⟨3, _⟩ => show (((b.val * 2048 + s.val) * 16 + hd.val) * 128 + d.val) / 128 % 16 = hd.val; omega
    | ⟨4, _⟩ => show (((b.val * 2048 + s.val) * 16 + hd.val) * 128 + d.val) % 128 = d.val; omega)

theorem idx_v9 (b : Fin 2) (s : Fin 2048) (hd : Fin 16) (d : Fin 128) :
    idx_main_v9 (ix4 b s hd d) = ix5 b s (0 : Fin 1) hd d :=
  funext fun a => Fin.ext (by
    have hb := b.isLt; have hs := s.isLt; have hh := hd.isLt; have hdd := d.isLt
    match a with
    | ⟨0, _⟩ => show (((b.val * 2048 + s.val) * 16 + hd.val) * 128 + d.val) / 4194304 = b.val; omega
    | ⟨1, _⟩ => show (((b.val * 2048 + s.val) * 16 + hd.val) * 128 + d.val) / 2048 % 2048 = s.val; omega
    | ⟨2, _⟩ => rfl
    | ⟨3, _⟩ => show (((b.val * 2048 + s.val) * 16 + hd.val) * 128 + d.val) / 128 % 16 = hd.val; omega
    | ⟨4, _⟩ => show (((b.val * 2048 + s.val) * 16 + hd.val) * 128 + d.val) % 128 = d.val; omega)

theorem idx_v12 (b : Fin 2) (s : Fin 2048) (hd : Fin 16) (d : Fin 128) :
    idx_main_v12 (ix4 b s hd d) = ix5 b s (0 : Fin 1) hd d :=
  funext fun a => Fin.ext (by
    have hb := b.isLt; have hs := s.isLt; have hh := hd.isLt; have hdd := d.isLt
    match a with
    | ⟨0, _⟩ => show (((b.val * 2048 + s.val) * 16 + hd.val) * 128 + d.val) / 4194304 = b.val; omega
    | ⟨1, _⟩ => show (((b.val * 2048 + s.val) * 16 + hd.val) * 128 + d.val) / 2048 % 2048 = s.val; omega
    | ⟨2, _⟩ => rfl
    | ⟨3, _⟩ => show (((b.val * 2048 + s.val) * 16 + hd.val) * 128 + d.val) / 128 % 16 = hd.val; omega
    | ⟨4, _⟩ => show (((b.val * 2048 + s.val) * 16 + hd.val) * 128 + d.val) % 128 = d.val; omega)

theorem idx_v7 (b : Fin 2) (hd : Fin 16) (s : Fin 2048) (d : Fin 128) : idx_main_v7 (ix4 b hd s d) = ix4 b s hd d :=
  funext fun a => by match a with | ⟨0, _⟩ => rfl | ⟨1, _⟩ => rfl | ⟨2, _⟩ => rfl | ⟨3, _⟩ => rfl

theorem idx_v10 (b : Fin 2) (hd : Fin 16) (s : Fin 2048) (d : Fin 128) : idx_main_v10 (ix4 b hd s d) = ix4 b s hd d :=
  funext fun a => by match a with | ⟨0, _⟩ => rfl | ⟨1, _⟩ => rfl | ⟨2, _⟩ => rfl | ⟨3, _⟩ => rfl

theorem idx_v13 (b : Fin 2) (hd : Fin 16) (s : Fin 2048) (d : Fin 128) : idx_main_v13 (ix4 b hd s d) = ix4 b s hd d :=
  funext fun a => by match a with | ⟨0, _⟩ => rfl | ⟨1, _⟩ => rfl | ⟨2, _⟩ => rfl | ⟨3, _⟩ => rfl

/-- The query array at (b, hd, s, d). -/
theorem query_apply (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (hd : Fin 16) (s : Fin 2048) (d : Fin 128) :
    val_main_v7 (F := Ideal) x0 x1 x2 (ix4 b hd s d) = proj x0 x1 x2 b s (Cert.Attention.col 0 hd d) := by
  rw [val_main_v7_apply, val_main_v6_apply, val_main_v5_apply, val_main_v4_apply, idx_v7, idx_v6, idx_v5, idx_v4,
    projection_apply]

/-- The key array at (b, hd, s, d). -/
theorem key_apply (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (hd : Fin 16) (s : Fin 2048) (d : Fin 128) :
    val_main_v10 (F := Ideal) x0 x1 x2 (ix4 b hd s d) = proj x0 x1 x2 b s (Cert.Attention.col 1 hd d) := by
  rw [val_main_v10_apply, val_main_v9_apply, val_main_v8_apply, val_main_v4_apply, idx_v10, idx_v9, idx_v8, idx_v4,
    projection_apply]

/-- The value array at (b, hd, s, d). -/
theorem value_apply (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (hd : Fin 16) (s : Fin 2048) (d : Fin 128) :
    val_main_v13 (F := Ideal) x0 x1 x2 (ix4 b hd s d) = proj x0 x1 x2 b s (Cert.Attention.col 2 hd d) := by
  rw [val_main_v13_apply, val_main_v12_apply, val_main_v11_apply, val_main_v4_apply, idx_v13, idx_v12, idx_v11, idx_v4,
    projection_apply]

end Cert.ReferenceIdeal.RefValue

end
-- ==== Proof.RefConsts.lean ====
/-
  The three single-precision constants the reference program spells, as the extended reals they denote: the divisor of the
  scores `11863283/1048576` (the word nearest `√128`), `-∞`, and the fact that dividing by that divisor is multiplying
  by the scale `1048576/11863283` on every extended real.
-/
import Idealize.ShloMosaic.PureOps.Ideal
import Idealize.ShloMosaic.PureOps.Ideal.Laws
import proofs.«180565_j20023137534549_2_alg».proof.Proof.Spec

noncomputable section

namespace Cert.ReferenceIdeal.RefValue

open Idealize.ShloMosaic

/-- The word `0x413504F3` denotes the real `11863283/1048576`. -/
theorem ofBits_divisor : Ideal.ofBits .f32 0x413504F3#32 = ((11863283 / 1048576 : ℝ) : EReal) := by
  simp [Ideal.ofBits, Ideal.ieee, -EReal.coe_mul]; norm_num

/-- The word `0xFF800000` denotes `-∞`. -/
theorem ofBits_negInf : Ideal.ofBits .f32 0xFF800000#32 = (⊥ : EReal) := by
  simp [Ideal.ofBits, Ideal.ieee]

/-- Dividing by the divisor is multiplying by the scale, on every extended real. -/
theorem div_divisor (x : EReal) : Ideal.div x (Ideal.ofBits .f32 0x413504F3#32) = x * Cert.Attention.scale := by
  rw [ofBits_divisor, Ideal.div_coe (by norm_num)]
  unfold Cert.Attention.scale
  congr 2
  norm_num

end Cert.ReferenceIdeal.RefValue

end
-- ==== Proof.RefScores.lean ====
/-
  The scores of the reference: the batched product of the query rows with the key rows over the 128 lanes, divided by the
  single-precision word nearest `√128`. At (b, hd, s, k) it is the scaled score of query row `s` against key row `k` of
  head `hd`: the dot product of the lanes times the scale.
-/
import proofs.«180565_j20023137534549_2_alg».proof.Proof.Gen.ReferenceIdeal.Read
import proofs.«180565_j20023137534549_2_alg».proof.Proof.Spec
import proofs.«180565_j20023137534549_2_alg».proof.Proof.RefConsts
import proofs.«180565_j20023137534549_2_alg».proof.Proof.RefProjection
import proofs.«180565_j20023137534549_2_alg».proof.Proof.RefHeads
import Idealize.ShloMosaic.Lib.ValueIdx
import Idealize.ShloMosaic.PureOps.Ideal

noncomputable section

namespace Cert.ReferenceIdeal.RefValue

open Cert.ReferenceIdeal Cert.ReferenceIdeal.Gen Cert.ReferenceIdeal.Read Idealize.ShloMosaic Idealize.ShloMosaic.ValueIdx
open scoped BigOperators

/-- The query row of position `s`, the key rows and the value rows of head `hd` in batch `b`: lanes of the projection. -/
def qrow (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (hd : Fin 16) (s : Fin 2048) : Fin 128 → EReal :=
  fun d => proj x0 x1 x2 b s (Cert.Attention.col 0 hd d)
def keys (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (hd : Fin 16) : Fin 2048 → Fin 128 → EReal :=
  fun k d => proj x0 x1 x2 b k (Cert.Attention.col 1 hd d)
def vals (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (hd : Fin 16) : Fin 2048 → Fin 128 → EReal :=
  fun k d => proj x0 x1 x2 b k (Cert.Attention.col 2 hd d)

theorem lidx_v14 (b : Fin 2) (hd : Fin 16) (s : Fin 2048) (k : Fin 2048) (d : Fin 128) : lidx_main_v14 (ix4 b hd s k) d = ix4 b hd s d :=
  funext fun a => by match a with | ⟨0, _⟩ => rfl | ⟨1, _⟩ => rfl | ⟨2, _⟩ => rfl | ⟨3, _⟩ => rfl

theorem ridx_v14 (b : Fin 2) (hd : Fin 16) (s : Fin 2048) (k : Fin 2048) (d : Fin 128) : ridx_main_v14 (ix4 b hd s k) d = ix4 b hd k d :=
  funext fun a => by match a with | ⟨0, _⟩ => rfl | ⟨1, _⟩ => rfl | ⟨2, _⟩ => rfl | ⟨3, _⟩ => rfl

/-- The divided product at (b, hd, s, k) is the scaled score. -/
theorem scores_apply (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (hd : Fin 16) (s : Fin 2048) (k : Fin 2048) :
    val_main_v16 (F := Ideal) x0 x1 x2 (ix4 b hd s k)
      = Cert.Attention.score (qrow x0 x1 x2 b hd s) (keys x0 x1 x2 b hd) Cert.Attention.scale k := by
  rw [val_main_v16_apply, val_main_v14_apply, val_main_v15_apply, val_main_cst_apply]
  simp only [Ideal.hostDivf_def, Ideal.ofBits_def, lidx_v14, ridx_v14, query_apply, key_apply]
  rw [div_divisor]
  rfl

end Cert.ReferenceIdeal.RefValue

end
-- ==== Proof.RefSoftmax.lean ====
/-
  The softmax of the reference, row by row. At (b, hd, s): the reduction of the scores by `max` from `-∞`, joined once
  more with `-∞`, is the row's maximum; each score shifted by it and exponentiated is the row's exponential; the reduction by
  `+` from zero is the row's sum of exponentials; and the quotient is the softmax weight.
-/
import proofs.«180565_j20023137534549_2_alg».proof.Proof.Gen.ReferenceIdeal.Read
import proofs.«180565_j20023137534549_2_alg».proof.Proof.Spec
import proofs.«180565_j20023137534549_2_alg».proof.Proof.RefConsts
import proofs.«180565_j20023137534549_2_alg».proof.Proof.RefScores
import Idealize.ShloMosaic.Lib.ValueIdx
import Idealize.ShloMosaic.PureOps.Ideal
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open scoped BigOperators

/-- The row (b, hd, s) with column `k` put back on the reduced last axis is (b, hd, s, k). -/
theorem lift_row (h : S2x16x2048x2048.Reduces [3] S2x16x2048) (b : Fin 2) (hd : Fin 16) (s : Fin 2048) (k : Fin (S2x16x2048x2048.size 3)) :
    h.lift (ix3 b hd s) k = ix4 b hd s (⟨k.val, k.isLt⟩ : Fin 2048) := by
  funext c; apply Fin.ext
  fin_cases c <;> rfl

/-- The reduction of the scores by `max` from `-∞`, at row (b, hd, s): the row's maximum. -/
theorem reduceMax_apply (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (hd : Fin 16) (s : Fin 2048) :
    val_main_v17 (F := Ideal) x0 x1 x2 (ix3 b hd s) = Cert.Attention.rowMax (qrow x0 x1 x2 b hd s) (keys x0 x1 x2 b hd) Cert.Attention.scale := by
  have h : S2x16x2048x2048.Reduces [3] S2x16x2048 := by decide
  unfold val_main_v17
  rw [Host.reduce_eq_fold_single FloatOps.maximumf _ _ _ h, val_main_cst_0_apply, Ideal.ofBits_def, ofBits_negInf]
  have hf : (val_main_v16 (F := Ideal) x0 x1 x2 ∘ h.lift (ix3 b hd s))
      = fun k : Fin 2048 => Cert.Attention.score (qrow x0 x1 x2 b hd s) (keys x0 x1 x2 b hd) Cert.Attention.scale k :=
    funext fun k => (congrArg (val_main_v16 (F := Ideal) x0 x1 x2) (lift_row h b hd s k)).trans (scores_apply x0 x1 x2 b hd s _)
  exact congrArg (fun f => Finset.fold max (⊥ : EReal) f (Finset.univ : Finset (Fin 2048))) hf

theorem idx_v20_v21 (b : Fin 2) (hd : Fin 16) (s : Fin 2048) (k : Fin 2048) : idx_main_v20 (idx_main_v21 (ix4 b hd s k)) = ix3 b hd s :=
  funext fun a => by match a with | ⟨0, _⟩ => rfl | ⟨1, _⟩ => rfl | ⟨2, _⟩ => rfl

theorem idx_v25_v26 (b : Fin 2) (hd : Fin 16) (s : Fin 2048) (k : Fin 2048) : idx_main_v25 (idx_main_v26 (ix4 b hd s k)) = ix3 b hd s :=
  funext fun a => by match a with | ⟨0, _⟩ => rfl | ⟨1, _⟩ => rfl | ⟨2, _⟩ => rfl

theorem idx_v24 (b : Fin 2) (hd : Fin 16) (s : Fin 2048) (k : Fin 2048) : idx_main_v24 (ix3 b hd s) k = ix4 b hd s k :=
  funext fun a => by match a with | ⟨0, _⟩ => rfl | ⟨1, _⟩ => rfl | ⟨2, _⟩ => rfl | ⟨3, _⟩ => rfl

/-- Joined with `-∞` it is still the row's maximum. -/
theorem rowMax_apply (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (hd : Fin 16) (s : Fin 2048) :
    val_main_v19 (F := Ideal) x0 x1 x2 (ix3 b hd s) = Cert.Attention.rowMax (qrow x0 x1 x2 b hd s) (keys x0 x1 x2 b hd) Cert.Attention.scale := by
  rw [val_main_v19_apply, val_main_v18_apply, val_main_cst_1_apply, reduceMax_apply]
  simp only [Ideal.maximumf_def, Ideal.ofBits_def, ofBits_negInf]
  exact max_eq_right bot_le

/-- The shifted, exponentiated score at (b, hd, s, k). -/
theorem expo_apply (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (hd : Fin 16) (s : Fin 2048) (k : Fin 2048) :
    val_main_v23 (F := Ideal) x0 x1 x2 (ix4 b hd s k) = Cert.Attention.expo (qrow x0 x1 x2 b hd s) (keys x0 x1 x2 b hd) Cert.Attention.scale k := by
  rw [val_main_v23_apply, val_main_v22_apply, val_main_v21_apply, val_main_v20_apply, idx_v20_v21, rowMax_apply, scores_apply]
  simp only [Ideal.hostUnary_exp_def, Ideal.subf_def]
  rfl

/-- The row's sum of exponentials. -/
theorem rowSum_apply (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (hd : Fin 16) (s : Fin 2048) :
    val_main_v24 (F := Ideal) x0 x1 x2 (ix3 b hd s) = ∑ k : Fin 2048, Cert.Attention.expo (qrow x0 x1 x2 b hd s) (keys x0 x1 x2 b hd) Cert.Attention.scale k := by
  rw [val_main_v24_apply, val_main_cst_2_apply, Ideal.ofBits_def, Ideal.ofBits_zero_f32, zero_add]
  exact Finset.sum_congr rfl fun k _ => by rw [idx_v24, expo_apply]

/-- The softmax weight at (b, hd, s, k). -/
theorem weight_apply (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (hd : Fin 16) (s : Fin 2048) (k : Fin 2048) :
    val_main_v27 (F := Ideal) x0 x1 x2 (ix4 b hd s k) = Cert.Attention.weight (qrow x0 x1 x2 b hd s) (keys x0 x1 x2 b hd) Cert.Attention.scale k := by
  rw [val_main_v27_apply, val_main_v26_apply, val_main_v25_apply, idx_v25_v26, rowSum_apply, expo_apply]
  simp only [Ideal.hostDivf_def]
  rfl

end Cert.ReferenceIdeal.RefValue

end
-- ==== Proof.RefOutput.lean ====
/-
  The output of the reference. The batched product of the softmax weights with the value rows is, at (b, hd, s, d), the
  weighted mix of the value rows at lane `d`; exchanged back to (batch, position, head, lane) and flattened, channel `h`
  is lane `h % 128` of head `h / 128`: the heads side by side. The output projection of that plus its bias is the whole
  layer: the reference program computes `attention` of its five arguments at the scale `1048576/11863283`.
-/
import proofs.«180565_j20023137534549_2_alg».proof.Proof.Gen.ReferenceIdeal.Read
import proofs.«180565_j20023137534549_2_alg».proof.Proof.Spec
import proofs.«180565_j20023137534549_2_alg».proof.Proof.RefProjection
import proofs.«180565_j20023137534549_2_alg».proof.Proof.RefHeads
import proofs.«180565_j20023137534549_2_alg».proof.Proof.RefScores
import proofs.«180565_j20023137534549_2_alg».proof.Proof.RefSoftmax
import Idealize.ShloMosaic.Lib.ValueIdx
import Idealize.ShloMosaic.PureOps.Ideal

noncomputable section

namespace Cert.ReferenceIdeal.RefValue

open Cert.ReferenceIdeal Cert.ReferenceIdeal.Gen Cert.ReferenceIdeal.Read Idealize.ShloMosaic Idealize.ShloMosaic.ValueIdx
open scoped BigOperators

theorem lidx_v28 (b : Fin 2) (hd : Fin 16) (s : Fin 2048) (d : Fin 128) (k : Fin 2048) : lidx_main_v28 (ix4 b hd s d) k = ix4 b hd s k :=
  funext fun a => by match a with | ⟨0, _⟩ => rfl | ⟨1, _⟩ => rfl | ⟨2, _⟩ => rfl | ⟨3, _⟩ => rfl

theorem ridx_v28 (b : Fin 2) (hd : Fin 16) (s : Fin 2048) (d : Fin 128) (k : Fin 2048) : ridx_main_v28 (ix4 b hd s d) k = ix4 b hd k d :=
  funext fun a => by match a with | ⟨0, _⟩ => rfl | ⟨1, _⟩ => rfl | ⟨2, _⟩ => rfl | ⟨3, _⟩ => rfl

/-- The weights times the value rows, at (b, hd, s, d): the mix at lane `d`. -/
theorem mix_apply (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (hd : Fin 16) (s : Fin 2048) (d : Fin 128) :
    val_main_v28 (F := Ideal) x0 x1 x2 (ix4 b hd s d) = Cert.Attention.attend (qrow x0 x1 x2 b hd s) (keys x0 x1 x2 b hd) (vals x0 x1 x2 b hd) Cert.Attention.scale d := by
  rw [val_main_v28_apply]
  unfold Cert.Attention.attend
  exact Finset.sum_congr rfl fun k _ => by rw [lidx_v28, ridx_v28, weight_apply, value_apply]; rfl

theorem idx_v29 (b : Fin 2) (s : Fin 2048) (hd : Fin 16) (d : Fin 128) : idx_main_v29 (ix4 b s hd d) = ix4 b hd s d :=
  funext fun a => by match a with | ⟨0, _⟩ => rfl | ⟨1, _⟩ => rfl | ⟨2, _⟩ => rfl | ⟨3, _⟩ => rfl

/-- The row-major position of (b, s, h) among [2, 2048, 2048] is that of (b, s, h / 128, h % 128) among [2, 2048, 16, 128]. -/
theorem idx_v30 (b : Fin 2) (s : Fin 2048) (h : Fin 2048) :
    idx_main_v30 (ix3 b s h) = ix4 b s (Cert.Attention.headOf h) (Cert.Attention.laneOf h) :=
  funext fun a => Fin.ext (by
    have hb := b.isLt; have hs := s.isLt; have hh := h.isLt
    match a with
    | ⟨0, _⟩ => show ((b.val * 2048 + s.val) * 2048 + h.val) / 4194304 = b.val; omega
    | ⟨1, _⟩ => show ((b.val * 2048 + s.val) * 2048 + h.val) / 2048 % 2048 = s.val; omega
    | ⟨2, _⟩ => show ((b.val * 2048 + s.val) * 2048 + h.val) / 128 % 16 = h.val / 128; omega
    | ⟨3, _⟩ => show ((b.val * 2048 + s.val) * 2048 + h.val) % 128 = h.val % 128; omega)

/-- The flattened mix at (b, s, h): the heads side by side. -/
theorem merged_apply (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (b : Fin 2) (s : Fin 2048) (h : Fin 2048) :
    val_main_v30 (F := Ideal) x0 x1 x2 (ix3 b s h) = Cert.Attention.merged (proj x0 x1 x2) Cert.Attention.scale b s h := by
  rw [val_main_v30_apply, val_main_v29_apply, idx_v30, idx_v29, mix_apply]
  rfl

theorem lidx_v31 (b : Fin 2) (s : Fin 2048) (o : Fin 2048) (k : Fin 2048) : lidx_main_v31 (ix3 b s o) k = ix3 b s k :=
  funext fun a => by match a with | ⟨0, _⟩ => rfl | ⟨1, _⟩ => rfl | ⟨2, _⟩ => rfl

theorem ridx_v31 (b : Fin 2) (s : Fin 2048) (o : Fin 2048) (k : Fin 2048) : ridx_main_v31 (ix3 b s o) k = ix2 o k :=
  funext fun a => by match a with | ⟨0, _⟩ => rfl | ⟨1, _⟩ => rfl

theorem idx_v32_v33 (b : Fin 2) (s : Fin 2048) (o : Fin 2048) : idx_main_v32 (idx_main_v33 (ix3 b s o)) = ix1 o :=
  funext fun a => by match a with | ⟨0, _⟩ => rfl

/-- The reference program's result at (b, s, o) is the attention layer of its five arguments. -/
theorem reference_eq (x0 : (⟨S2x2048x2048, .f32⟩ : BufTy).Contents (Elt Ideal)) (x1 : (⟨S6144x2048, .f32⟩ : BufTy).Contents (Elt Ideal)) (x2 : (⟨S6144, .f32⟩ : BufTy).Contents (Elt Ideal)) (x3 : (⟨S2048x2048, .f32⟩ : BufTy).Contents (Elt Ideal)) (x4 : (⟨S2048, .f32⟩ : BufTy).Contents (Elt Ideal))
    (b : Fin 2) (s : Fin 2048) (o : Fin 2048) :
    Cert.ReferenceIdeal.Read.val_main_v34 (F := Ideal) x0 x1 x2 x3 x4 (ValueIdx.ix3 b s o)
      = Cert.Attention.attention (fun b s h => x0 (ValueIdx.ix3 b s h)) (fun o h => x1 (ValueIdx.ix2 o h))
          (fun o => x2 (ValueIdx.ix1 o)) (fun o h => x3 (ValueIdx.ix2 o h)) (fun o => x4 (ValueIdx.ix1 o))
          Cert.Attention.scale b s o := by
  rw [val_main_v34_apply, val_main_v31_apply, val_main_v33_apply, val_main_v32_apply, idx_v32_v33]
  simp only [Ideal.addf_def, lidx_v31, ridx_v31, merged_apply]
  rfl

end Cert.ReferenceIdeal.RefValue

end
-- ==== Proof.Bridge.lean ====
/-
  The last conjunct: the idealized kernel and the idealized reference, run from memories agreeing on the five argument
  arrays, end with equal results. The kernel's result array is the last valuation of its whole run, which at every index
  `(b, s, o)` is the attention layer of the argument arrays with the scale `1048576/11863283`; the reference's result is
  its operations' composed term, which at every index is the same function of the same arrays — the division of the
  scores by `11863283/1048576` being, on every extended real, the product with its reciprocal. No finiteness of the
  inputs is used: the two programs are one function of the extended reals, operation by operation.
-/
import proofs.«180565_j20023137534549_2_alg».proof.Defs
import proofs.«180565_j20023137534549_2_alg».proof.Proof.IdealFrame
import proofs.«180565_j20023137534549_2_alg».proof.Proof.KernelResult
import proofs.«180565_j20023137534549_2_alg».proof.Proof.RefOutput
import proofs.«180565_j20023137534549_2_alg».proof.Proof.Gen.ReferenceIdeal.Read
import proofs.«180565_j20023137534549_2_alg».proof.Proof.Gen.Pre_finite_inputs

noncomputable section

namespace Cert.Proof.Claims

open Idealize.ShloMosaic Idealize.ShloMosaic.TcCoe Idealize.SL.Sem

/-- The reference's result term is the kernel's last valuation at the result, when the arguments agree. -/
theorem results_agree (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v34 (F := Ideal) m' c
      = Cert.KernelIdeal.Run.B5 (F := Ideal) m ρ c (Proc.devRef .tc Cert.KernelIdeal.main_v8) := by
  rw [Cert.ReferenceIdeal.Read.val_main_v34_eq, h0, h1, h2, h3, h4]
  funext i
  obtain ⟨b, s, o, rfl⟩ : ∃ (b : Fin 2) (s : Fin 2048) (o : Fin 2048), i = ValueIdx.ix3 b s o := ⟨i 0, i 1, i 2, ValueIdx.eq_ix3 i⟩
  rw [Cert.ReferenceIdeal.RefValue.reference_eq]
  exact (Cert.KernelIdeal.Result.kernel_eq m ρ c b s o).symm

theorem algebraic : Cert.algebraic_KernelIdeal_ReferenceIdeal := by
  intro m ρ m' ρ' _ hagree
  refine ⟨fun c => Cert.KernelIdeal.Run.B5 (F := Ideal) m ρ c (Proc.devRef .tc Cert.KernelIdeal.main_v8),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  exact results_agree m ρ m' c (hagree c).1 (hagree c).2.1 (hagree c).2.2.1 (hagree c).2.2.2.1 (hagree c).2.2.2.2

end Cert.Proof.Claims

end
-- ==== Proof.lean ====
/-
  A multi-head self-attention layer on the extended reals: three tiled kernels — the fused query/key/value projection
  `x · Wqkvᵀ + bqkv` over row blocks and column blocks, one head's attention per grid point (a block of query rows against
  the head's 2048 key and value rows: scores, times the scale, shifted by the row maximum, exponentiated, divided by the
  row sum, mixed with the values), and the output projection — against the same layer written with whole-array
  operations. Read on the extended reals a change of float format is the identity, and a product accumulated from zero
  is a finite sum, so block by block the kernels compute entry `(b, s, o)` of ONE function of the five argument arrays,
  `Cert.Attention.attention` (Proof/Spec.lean), and the reference's thirty-nine operations compose to the same function.
  The one place the two differ as printed is the scale of the scores: the kernel multiplies by the single-precision
  word nearest `1/√128`, the reference divides by the word nearest `√128`, `11863283/1048576`; the kernel's literal is
  NAMED as the exact reciprocal `1048576/11863283` of the reference's divisor, and dividing by a nonzero real is
  multiplying by its reciprocal on every extended real. No finiteness of the inputs is needed.

  The parts: each region's grid-point body and its bookkeeping (Proof/IdealRegion0–2, and the same for the word-level
  program in Proof/WordRegion0–2); the attention region's three reading windows sharing one array (Proof/…Shared1); the
  whole run with every buffer's contents named between the stretches (Proof/…Run) and the frames read off it
  (Proof/…Frame, Proof/Claims); the bodies' values at an index (Proof/Pay…), each region's output as a whole-array
  function (Proof/Value…), their composition through the stretches (Proof/Kernel…); the reference at an index
  (Proof/Ref…); and the two sides joined (Proof/Bridge).
-/
import proofs.«180565_j20023137534549_2_alg».proof.Defs
import proofs.«180565_j20023137534549_2_alg».proof.Proof.Gen.Kernel
import proofs.«180565_j20023137534549_2_alg».proof.Proof.Gen.KernelIdeal
import proofs.«180565_j20023137534549_2_alg».proof.Proof.Gen.ReferenceIdeal
import proofs.«180565_j20023137534549_2_alg».proof.Proof.Gen.Pre_finite_inputs
import proofs.«180565_j20023137534549_2_alg».proof.Proof.Claims
import proofs.«180565_j20023137534549_2_alg».proof.Proof.Bridge

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
